-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 91
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x64, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x64, .f32⟩
  | .hbm, ⟨78, _⟩ => ⟨S850000x1, .f32⟩
  | .hbm, ⟨79, _⟩ => ⟨S850000x64, .f32⟩
  | .hbm, ⟨80, _⟩ => ⟨S850000x64, .f32⟩
  | .hbm, ⟨81, _⟩ => ⟨S_, .f32⟩
  | .hbm, ⟨82, _⟩ => ⟨S50000x64, .f32⟩
  | .hbm, ⟨83, _⟩ => ⟨S850000x1, .i32⟩
  | .hbm, ⟨84, _⟩ => ⟨S50000x64, .f32⟩
  | .hbm, ⟨85, _⟩ => ⟨S1x64, .f32⟩
  | .hbm, ⟨86, _⟩ => ⟨S_, .f32⟩
  | .hbm, ⟨87, _⟩ => ⟨S1x64, .f32⟩
  | .hbm, ⟨88, _⟩ => ⟨S1x64, .f32⟩
  | .hbm, ⟨89, _⟩ => ⟨S1x64, .f32⟩
  | .hbm, ⟨90, _⟩ => ⟨S1x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S1x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v12 : BitVec 1 := Scalar.cmpi .eq arg0 c9_i32
  let v13 : BitVec 32 := Scalar.extui v12
  let c0_i32_6 : BitVec 32 := 0#32
  let v14 : BitVec 1 := Scalar.cmpi .ne v13 c0_i32_6
  v14

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  reduces_S5000x64_S64 : S5000x64.Reduces [0] S64
  shapeCasts_S64_S1x64 : S64.ShapeCasts S1x64
  bcast_S_S1x64 : S_.BroadcastsInDim S1x64 (![] : Fin 0 → Fin S1x64.rank)
  bcast_S64_S1x64_1 : S64.BroadcastsInDim S1x64 (![1] : Fin 1 → Fin S1x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev idle3 : Fin 2 → grid3.Coords → Bool := fun | 0 => fun _ => false | 1 => fun i => !(k3_cond2 i == 1#1) | ⟨_ + 2, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S50000x128, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x64, .f32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S_, .f32⟩
  | 83 => ⟨S50000, .f32⟩
  | 84 => ⟨S50000, .f32⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x64, .f32⟩
  | 118 => ⟨S850000x1, .f32⟩
  | 119 => ⟨S850000x64, .f32⟩
  | 120 => ⟨S850000x64, .f32⟩
  | 121 => ⟨S_, .f32⟩
  | 122 => ⟨S50000x64, .f32⟩
  | 123 => ⟨S850000x1, .i32⟩
  | 124 => ⟨S50000x64, .f32⟩
  | 125 => ⟨S1x64, .f32⟩
  | 126 => ⟨S50000x64, .f32⟩
  | 127 => ⟨S50000x64, .f32⟩
  | _ => ⟨S50000x128, .f32⟩

abbrev hbmTy0_1 (i : Nat) : BufTy := match i % 128 with
  | 0 => ⟨S_, .f32⟩
  | 1 => ⟨S64, .f32⟩
  | 2 => ⟨S1x64, .f32⟩
  | 3 => ⟨S_, .f32⟩
  | 4 => ⟨S1x64, .f32⟩
  | 5 => ⟨S1x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_22 : Ref sig .tc := ⟨.hbm, 128, rfl⟩
abbrev main_v92 : Ref sig .tc := ⟨.hbm, 129, rfl⟩
abbrev main_v93 : Ref sig .tc := ⟨.hbm, 130, rfl⟩
abbrev main_cst_23 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S1x64 : S_.BroadcastsInDim S1x64 (![] : Fin 0 → Fin S1x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KR0.lean ====
/- Region 0: the first matrix product, one block of 5000 rows per grid point.
   The rows matrix [50000,128] is cut into ten blocks of 5000 rows; the weight matrix [128,128] is one block, the same
   at every point; the product [50000,128] is cut like the rows. At a point the body reads the rows block and the
   weights, rounds both to bf16, multiplies them accumulating in f32 from zero, and stores the result over the whole
   output block. This module states, at arbitrary contents `V` of the core's buffers on entry, what each staging
   buffer holds before and after the body, and proves the body meets that at every point. -/
import proofs.«104698_j48498770707162_1_alg».proof.Proof.Gen.Kernel.Launch
import proofs.«104698_j48498770707162_1_alg».proof.Proof.Gen.Kernel.Skeleton
import proofs.«104698_j48498770707162_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of the block's own extents tiles the block walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold at the moment the region starts; everything below is a function of it
variable (V : (c : Dev nD) → (b : Ref sig .tc) → Buf (Elt F) ((c : Thread nD τ).loc b))

/-! ## Blocks -/

/-- The block of window `w` at grid point `t`: the part of the window's array, as found on entry, that the
    window's index map selects there (5000 consecutive rows for windows 0 and 2, the whole weight matrix for window 1). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 is copied in at every grid point, so its staging buffer holds the point's block whenever the body
    starts. Stated for any proof data whose array 0 is the entry contents (`hA`) and whose body gives the block
    back unchanged (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 is copied in at the first grid point only: its block index is the same at every point, so at a later
    point the buffer still holds the previous point's block, and that is this point's block. Same hypotheses as for
    window 0. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

-- each access is through the rectangle that is the whole buffer: offsets 0, extents the buffer's own
abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-! ## What the body leaves in the output buffer -/

/-- The output block after the body, as a function of the rows block `x0` and the weights `x1`: one write, over the
    whole block, of the product of the two read values rounded to bf16 (the payload `k0_pay1`). -/
def out0_2 (x0 : Vec F S5000x128 .f32) (x1 : Vec F S128x128 .f32) : Vec F S5000x128 .f32 :=
  View.canon [⟨r0_0, k0_pay1 (View.ld x0 r0_0) (View.ld x1 r0_1)⟩]

/-- The single store's rectangle is the whole output block, so every index of the block lies in it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body as a triple -/

set_option maxHeartbeats 1000000 in
/-- The body run on three whole buffers — the first two reading `x0` and `x1`, the third holding anything — ends with
    the first two unchanged and the third reading `out0_2 x0 x1`. The body also reads the third buffer before writing
    it; that read is not used by the stored value. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- On core `c`: the three arrays are the entry contents; after the body at point `t` the two input buffers still
    hold their blocks and the output buffer holds `out0_2` of those two blocks; the invariant is the one that only
    carries the untouched remainder of the core's state; nothing is owed; every share is the full one. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves in each window's buffer, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Both input buffers hold their blocks when the body starts, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is given at point `t`: the invariant, the (empty) debt, and the three current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two input buffers hold their blocks, so the triple above applies with those blocks; the
    invariant and the debt do not depend on the point and are handed through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline rule asks of the body, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1.lean ====
/- Region 1: add a bias row and clamp at zero, one block of 5000 rows per grid point.
   The matrix [50000,128] is cut into ten blocks of 5000 rows; the bias [1,128] is one block, the same at every point;
   the result [50000,128] is cut like the matrix. At a point the body reads the rows block and the bias row, repeats
   the bias down the 5000 rows, adds, takes the elementwise maximum with zero, and stores the result over the whole
   output block. This module states, at arbitrary contents `V` of the core's buffers on entry, what each staging
   buffer holds before and after the body, and proves the body meets that at every point. -/
import proofs.«104698_j48498770707162_1_alg».proof.Proof.Gen.Kernel.Launch
import proofs.«104698_j48498770707162_1_alg».proof.Proof.Gen.Kernel.Skeleton
import proofs.«104698_j48498770707162_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of the block's own extents tiles the block walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold at the moment the region starts; everything below is a function of it
variable (V : (c : Dev nD) → (b : Ref sig .tc) → Buf (Elt F) ((c : Thread nD τ).loc b))

/-! ## Blocks -/

/-- The block of window `w` at grid point `t`: the part of the window's array, as found on entry, that the
    window's index map selects there (5000 consecutive rows for windows 0 and 2, the whole bias row for window 1). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 is copied in at every grid point, so its staging buffer holds the point's block whenever the body
    starts. Stated for any proof data whose array 0 is the entry contents (`hA`) and whose body gives the block
    back unchanged (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 is copied in at the first grid point only: its block index is the same at every point, so at a later
    point the buffer still holds the previous point's block, and that is this point's block. Same hypotheses as for
    window 0. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

-- each access is through the rectangle that is the whole buffer: offsets 0, extents the buffer's own
abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output buffer -/

/-- The output block after the body, as a function of the rows block `x0` and the bias row `x1`: one write, over the
    whole block, of max(x0 + x1 repeated over the rows, 0) (the payload `k1_pay1`). -/
def out1_2 (x0 : Vec F S5000x128 .f32) (x1 : Vec F S1x128 .f32) : Vec F S5000x128 .f32 :=
  View.canon [⟨r1_0, k1_pay1 (View.ld x0 r1_0) (View.ld x1 r1_1)⟩]

/-- The single store's rectangle is the whole output block, so every index of the block lies in it. -/
theorem cover1_2 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body as a triple -/

set_option maxHeartbeats 1000000 in
/-- The body run on three whole buffers — the first two reading `x0` and `x1`, the third holding anything — ends with
    the first two unchanged and the third reading `out1_2 x0 x1`. The body also reads the third buffer before writing
    it; that read is not used by the stored value. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data of the pipeline -/

/-- On core `c`: the three arrays are the entry contents; after the body at point `t` the two input buffers still
    hold their blocks and the output buffer holds `out1_2` of those two blocks; the invariant is the one that only
    carries the untouched remainder of the core's state; nothing is owed; every share is the full one. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves in each window's buffer, one window at a time. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Both input buffers hold their blocks when the body starts, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is given at point `t`: the invariant, the (empty) debt, and the three current staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the two input buffers hold their blocks, so the triple above applies with those blocks; the
    invariant and the debt do not depend on the point and are handed through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline rule asks of the body, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KR2.lean ====
/- Region 2: the second matrix product, one block of 5000 rows per grid point.
   The rows matrix [50000,128] is cut into ten blocks of 5000 rows; the weight matrix [128,64] is one block, the same
   at every point; the product [50000,64] is cut into ten blocks of 5000 rows. At a point the body reads the rows
   block and the weights, rounds both to bf16, multiplies them accumulating in f32 from zero, and stores the result
   over the whole output block. This module states, at arbitrary contents `V` of the core's buffers on entry, what
   each staging buffer holds before and after the body, and proves the body meets that at every point. -/
import proofs.«104698_j48498770707162_1_alg».proof.Proof.Gen.Kernel.Launch
import proofs.«104698_j48498770707162_1_alg».proof.Proof.Gen.Kernel.Skeleton
import proofs.«104698_j48498770707162_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of the block's own extents tiles the block walks the long axis coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold at the moment the region starts; everything below is a function of it
variable (V : (c : Dev nD) → (b : Ref sig .tc) → Buf (Elt F) ((c : Thread nD τ).loc b))

/-! ## Blocks -/

/-- The block of window `w` at grid point `t`: the part of the window's array, as found on entry, that the
    window's index map selects there (5000 consecutive rows for windows 0 and 2, the whole weight matrix for window 1). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 is copied in at every grid point, so its staging buffer holds the point's block whenever the body
    starts. Stated for any proof data whose array 0 is the entry contents (`hA`) and whose body gives the block
    back unchanged (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 is copied in at the first grid point only: its block index is the same at every point, so at a later
    point the buffer still holds the previous point's block, and that is this point's block. Same hypotheses as for
    window 0. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through -/

-- each access is through the rectangle that is the whole buffer: offsets 0, extents the buffer's own
-- (`r2_0` the output block's, `r2_1` the rows block's, `r2_2` the weights')
abbrev r2_0 : Rect S5000x64 := Rect.unit (s := S5000x64) ![0, 0] S5000x64.size inb_S5000x64_S5000x64_0_0
abbrev r2_1 : Rect S5000x128 := Rect.unit (s := S5000x128) ![0, 0] S5000x128.size inb_S5000x128_S5000x128_0_0
abbrev r2_2 : Rect S128x64 := Rect.unit (s := S128x64) ![0, 0] S128x64.size inb_S128x64_S128x64_0_0

/-! ## What the body leaves in the output buffer -/

/-- The output block after the body, as a function of the rows block `x0` and the weights `x1`: one write, over the
    whole block, of the product of the two read values rounded to bf16 (the payload `k2_pay1`). -/
def out2_2 (x0 : Vec F S5000x128 .f32) (x1 : Vec F S128x64 .f32) : Vec F S5000x64 .f32 :=
  View.canon [⟨r2_0, k2_pay1 (View.ld x0 r2_1) (View.ld x1 r2_2)⟩]

/-- The single store's rectangle is the whole output block, so every index of the block lies in it. -/
theorem cover2_2 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body as a triple -/

set_option maxHeartbeats 1000000 in
/-- The body run on three whole buffers — the first two reading `x0` and `x1`, the third holding anything — ends with
    the first two unchanged and the third reading `out2_2 x0 x1`. The body also reads the third buffer before writing
    it; that read is not used by the stored value. -/
theorem sound_kernel2 (c : Dev nD) (E : Set ℕ) (i : grid2.Coords)
    (arg1 : Memref sig .tc .vmem S5000x128 .f32) (harg1 : arg1.IsWhole) (arg2 : Memref sig .tc .vmem S128x64 .f32) (harg2 : arg2.IsWhole)
    (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- On core `c`: the three arrays are the entry contents; after the body at point `t` the two input buffers still
    hold their blocks and the output buffer holds `out2_2` of those two blocks; the invariant is the one that only
    carries the untouched remainder of the core's state; nothing is owed; every share is the full one. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The arrays of the proof data are the entry contents. -/
theorem A_eq2 (c : Dev nD) (w : Fin cfg2.W) : (dat2 V c).A w = V c (Pipeline.arrRef spec2 w) := by
  dsimp only [dat2]

/-- What the body leaves in each window's buffer, one window at a time. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Both input buffers hold their blocks when the body starts, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is given at point `t`: the invariant, the (empty) debt, and the three current staging buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it gives back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any point the two input buffers hold their blocks, so the triple above applies with those blocks; the
    invariant and the debt do not depend on the point and are handed through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline rule asks of the body, at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KFold.lean ====
/-
  The contents of a core's unscoped buffers at each boundary between two segments of @main, up to the entry of the last
  region: the launch memory, then each host stretch's operations applied, then, after a region, that region's arrays at
  what its write-backs leave and every other buffer untouched.
-/
import proofs.«104698_j48498770707162_1_alg».proof.Proof.Gen.Kernel.Launch
import proofs.«104698_j48498770707162_1_alg».proof.Proof.Gen.Kernel.Skeleton
import proofs.«104698_j48498770707162_1_alg».proof.Proof.Gen.Kernel.Points
import proofs.«104698_j48498770707162_1_alg».proof.Proof.KR0
import proofs.«104698_j48498770707162_1_alg».proof.Proof.KR1
import proofs.«104698_j48498770707162_1_alg».proof.Proof.KR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m ((c : Dev nD), b)
/-- After the first host stretch (the edges' endpoints, the degrees, the reciprocal square roots). -/
abbrev W1 : Dev nD → Valuation τ sig (Elt F) := fun c => StableHlo.after hostOps0 (W0 m c)
/-- After the outlined selection. -/
abbrev W2 : Dev nD → Valuation τ sig (Elt F) := fun c => StableHlo.after hostOps0_1 (W1 m c)
/-- After the edge weights are computed: what region 0 is entered from. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- At region 0's exit: its arrays at what the pipeline leaves (an input's as entered, the output's write-backs folded),
    every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- Region 0 changes one array only, its output `main_v32`: an input window's array is put back as it was found, and
    every other buffer is untouched. -/
theorem W4_keep (c : Dev nD) (b : Ref sig .tc) (hb : b ≠ main_v32) : W4 m c (Proc.devRef .tc b) = W3 m c (Proc.devRef .tc b) := by
  by_cases h0 : Pipeline.arrRef spec0 0 = b
  · subst h0; exact (W4_arr m c 0).trans (((dat0 (V3 m) c).arrAt_in 0 rfl _).trans (A_eq0 (V3 m) c 0))
  by_cases h1 : Pipeline.arrRef spec0 1 = b
  · subst h1; exact (W4_arr m c 1).trans (((dat0 (V3 m) c).arrAt_in 1 rfl _).trans (A_eq0 (V3 m) c 1))
  refine W4_of_ne m c b fun w => ?_
  match w with
  | ⟨0, _⟩ => exact h0
  | ⟨1, _⟩ => exact h1
  | ⟨2, _⟩ => exact fun e => hb e.symm

/-- After the first aggregation over the edges: what region 1 is entered from. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the pipeline leaves (an input's as entered, the output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- Region 1 changes one array only, its output `main_v47`: an input window's array is put back as it was found, and
    every other buffer is untouched. -/
theorem W6_keep (c : Dev nD) (b : Ref sig .tc) (hb : b ≠ main_v47) : W6 m c (Proc.devRef .tc b) = W5 m c (Proc.devRef .tc b) := by
  by_cases h0 : Pipeline.arrRef spec1 0 = b
  · subst h0; exact (W6_arr m c 0).trans (((dat1 (V5 m) c).arrAt_in 0 rfl _).trans (A_eq1 (V5 m) c 0))
  by_cases h1 : Pipeline.arrRef spec1 1 = b
  · subst h1; exact (W6_arr m c 1).trans (((dat1 (V5 m) c).arrAt_in 1 rfl _).trans (A_eq1 (V5 m) c 1))
  refine W6_of_ne m c b fun w => ?_
  match w with
  | ⟨0, _⟩ => exact h0
  | ⟨1, _⟩ => exact h1
  | ⟨2, _⟩ => exact fun e => hb e.symm

/-- At region 2's exit: its arrays at what the pipeline leaves (an input's as entered, the output's write-backs folded),
    every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references. -/
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-- Region 2 changes one array only, its output `main_v48`: an input window's array is put back as it was found, and
    every other buffer is untouched. -/
theorem W7_keep (c : Dev nD) (b : Ref sig .tc) (hb : b ≠ main_v48) : W7 m c (Proc.devRef .tc b) = W6 m c (Proc.devRef .tc b) := by
  by_cases h0 : Pipeline.arrRef spec2 0 = b
  · subst h0; exact (W7_arr m c 0).trans (((dat2 (V6 m) c).arrAt_in 0 rfl _).trans (A_eq2 (V6 m) c 0))
  by_cases h1 : Pipeline.arrRef spec2 1 = b
  · subst h1; exact (W7_arr m c 1).trans (((dat2 (V6 m) c).arrAt_in 1 rfl _).trans (A_eq2 (V6 m) c 1))
  refine W7_of_ne m c b fun w => ?_
  match w with
  | ⟨0, _⟩ => exact h0
  | ⟨1, _⟩ => exact h1
  | ⟨2, _⟩ => exact fun e => hb e.symm

/-- After the second aggregation over the edges: what region 3 is entered from. -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b

end Cert.Kernel.Hand

end
-- ==== Proof.KR3Runs.lean ====
import proofs.«104698_j48498770707162_1_alg».proof.Proof.Gen.Kernel.Launch
import proofs.«104698_j48498770707162_1_alg».proof.Proof.Gen.Kernel.Skeleton
import proofs.«104698_j48498770707162_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-sum reduction (the fourth pipelined call): what its three control cases share

The kernel keeps a `[1,64]` accumulator in a scratch buffer of its own. At the first grid point it zeroes the
accumulator; at every point it adds the column sums of the point's `[5000,64]` block to it; at the last point it
copies the accumulator to the `[1,64]` output window. Everything here is stated at the contents `V` the core's
buffers hold when the call is entered. -/

-- the core's buffer contents when the call is entered
variable (V : (c : Dev nD) → (b : Ref sig .tc) → Buf (Elt F) ((c : Thread nD τ).loc b))

/-! ## The windows' blocks -/

/-- Window `w`'s block at point `t`, read off its array as the call finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array is
    `V`'s and whose body leaves the block in place: the window is fetched at every point, uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the ten grid points -/

/-- "This is the first point": the comparison of the grid coordinate with 0, as the body computes it. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)

/-- "This is the last point": the comparison of the grid coordinate with 9. -/
abbrev cond3_1 (i : grid3.Coords) : Prop := k3_cond2 i = 1#1
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

/-- The input window is never idle. -/
theorem liveAt3_0 : ∀ t : Fin cfg3.N, cfg3.idle 0 (grid3.coords t) = false := by decide +kernel
/-- Away from the last point the output window is idle (nothing is stored into it) -/
theorem idleAt3_1 : ∀ t : Fin cfg3.N, ¬cond3_1 (grid3.coords t) → cfg3.idle 1 (grid3.coords t) = true := by decide +kernel
/-- and is not written back. -/
theorem noFlush3_1 : ∀ t : Fin cfg3.N, ¬cond3_1 (grid3.coords t) → (cfg3.win 1).flush t = false := by decide +kernel
/-- At the last point it is live. -/
theorem liveAt3_1 : ∀ t : Fin cfg3.N, cond3_1 (grid3.coords t) → cfg3.idle 1 (grid3.coords t) = false := by decide +kernel

/-! ## The memrefs the body is called with -/

/-- The output window's one staging buffer, through which its contents are stated. -/
abbrev VO3_1 : View sig .tc .vmem S1x64 .f32 := (Memref.whole cc3_stg1_0 : Memref sig .tc .vmem S1x64 .f32).view
/-- Each window's current staging memref at point `t`, and its wholeness. -/
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
/-- The accumulator: a whole scoped buffer of the kernel's own, passed beside the windows, -/
abbrev scM3_0 : Memref sig .tc .vmem S1x64 .f32 := Memref.whole cc3_scratch0
/-- and as a view. -/
abbrev VS3_0 : View sig .tc .vmem S1x64 .f32 := scM3_0.view

/-! ## The call's invariant, with the accumulator singled out

The core's scoped buffers that are no staging buffer of this call are the fifteen staging buffers of the three
calls before it and the accumulator. The body touches only the accumulator; the fifteen are carried along. -/

/-- The staging buffers of the other three calls, each at some contents. -/
def others3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- What the call is entered with: the fifteen, the accumulator at some contents, the generator register. -/
theorem PhiA3_in (c : Dev nD) :
    (Pipeline.ΦA spec3 c : sProp 𝕄) ⊢ iprop(iprop(others3 c ∗ (∃ d, owns (c : Thread nD τ) scM3_0 fullShare d)) ∗ (∃ r, prngReg c r)) := by
  unfold Pipeline.ΦA; rw [scopedRest3_eq]; unfold others3; simp only [scM3_0, owns_whole]
  iintro ⟨⟨O1, O2, O3, O4, O5, O6, O7, O8, O9, O10, O11, O12, O13, O14, O15, HS⟩, Hg⟩
  isplitr [Hg]
  · isplitr [HS]
    · isplitl [O1]; · iexact O1
      isplitl [O2]; · iexact O2
      isplitl [O3]; · iexact O3
      isplitl [O4]; · iexact O4
      isplitl [O5]; · iexact O5
      isplitl [O6]; · iexact O6
      isplitl [O7]; · iexact O7
      isplitl [O8]; · iexact O8
      isplitl [O9]; · iexact O9
      isplitl [O10]; · iexact O10
      isplitl [O11]; · iexact O11
      isplitl [O12]; · iexact O12
      isplitl [O13]; · iexact O13
      isplitl [O14]; · iexact O14
      iexact O15
    · iexact HS
  · iexact Hg

/-- And conversely: forgetting what the accumulator holds gives the entry invariant back. -/
theorem PhiA3_out (c : Dev nD) :
    iprop(iprop(others3 c ∗ (∃ d, owns (c : Thread nD τ) scM3_0 fullShare d)) ∗ (∃ r, prngReg c r)) ⊢ (Pipeline.ΦA spec3 c : sProp 𝕄) := by
  unfold Pipeline.ΦA; rw [scopedRest3_eq]; unfold others3; simp only [scM3_0, owns_whole]
  iintro ⟨⟨⟨O1, O2, O3, O4, O5, O6, O7, O8, O9, O10, O11, O12, O13, O14, O15⟩, HS⟩, Hg⟩
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    isplitl [O13]; · iexact O13
    isplitl [O14]; · iexact O14
    isplitl [O15]; · iexact O15
    iexact HS
  · iexact Hg

end Cert.Kernel.Hand

end
-- ==== Proof.KR3RunA.lean ====
import proofs.«104698_j48498770707162_1_alg».proof.Proof.KR3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-sum reduction at the FIRST grid point

The body loads the accumulator (whatever it holds), overwrites it with zeros, loads it back, loads the block, and
stores zeros-plus-column-sums over it; the copy to the output window is skipped. -/

set_option maxHeartbeats 1000000 in
/-- What the body's stores leave, as pieces (last first), at the first point (first-point test true, last-point test
    false), with the proof that on whole memrefs — the block at `x0`, the output window at contents `xi1` handed back
    untouched, the accumulator at anything — the body runs to the continuation holding the block as it was, the output
    window as it was, and the accumulator with its pieces written. The pieces are the witness the run finds. -/
noncomputable def kernelRun3_A (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond3_0 i) (hc1 : ¬cond3_1 i)
    (x0 : Vec F S5000x64 .f32) :
    Σ' (L1 : List (View.Piece (Elt F) S1x64 .f32)), { LS0 : List (View.Piece (Elt F) S1x64 .f32) //
      ∀ (xi1 : Vec F S1x64 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc3__sum_reduce_kernel i arg1 harg1 arg2 harg2 arg3 harg3) K } := by
  refine ⟨[], ?_, fun xi1 E K => ?run⟩
  case run =>
    simp only [cc3__sum_reduce_kernel_eq_skeleton]; unfold cc3__sum_reduce_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.KR3RunB.lean ====
import proofs.«104698_j48498770707162_1_alg».proof.Proof.KR3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-sum reduction at a MIDDLE grid point

The body loads the accumulator and the block and stores accumulator-plus-column-sums over the accumulator; neither
the zeroing nor the copy to the output window happens. -/

set_option maxHeartbeats 1000000 in
/-- What the body's stores leave, as pieces (last first), at a middle point (both tests false), with the proof that on
    whole memrefs — the block at `x0`, the output window at contents `xi1` handed back untouched, the accumulator at
    what the point before left, `xs0` — the body runs to the continuation holding the block and the output window as
    they were and the accumulator with its pieces written. -/
noncomputable def kernelRun3_B (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : ¬cond3_1 i)
    (x0 : Vec F S5000x64 .f32) (xs0 : Vec F S1x64 .f32) :
    Σ' (L1 : List (View.Piece (Elt F) S1x64 .f32)), { LS0 : List (View.Piece (Elt F) S1x64 .f32) //
      ∀ (xi1 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc3__sum_reduce_kernel i arg1 harg1 arg2 harg2 arg3 harg3) K } := by
  refine ⟨[], ?_, fun xi1 E K => ?run⟩
  case run =>
    simp only [cc3__sum_reduce_kernel_eq_skeleton]; unfold cc3__sum_reduce_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.KR3RunC.lean ====
import proofs.«104698_j48498770707162_1_alg».proof.Proof.KR3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-sum reduction at the LAST grid point

The body accumulates as at a middle point, then loads the accumulator and the output window and stores the
accumulator over the output window. -/

set_option maxHeartbeats 1000000 in
/-- What the body's stores leave, as pieces (last first), at the last point (first-point test false, last-point test
    true), with the proof that on whole memrefs — the block at `x0`, the output window at anything, the accumulator at
    what the point before left, `xs0` — the body runs to the continuation holding the block as it was and the output
    window and the accumulator each with its pieces written. -/
noncomputable def kernelRun3_C (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : cond3_1 i)
    (x0 : Vec F S5000x64 .f32) (xs0 : Vec F S1x64 .f32) :
    Σ' (L1 : List (View.Piece (Elt F) S1x64 .f32)), { LS0 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc3__sum_reduce_kernel i arg1 harg1 arg2 harg2 arg3 harg3) K } := by
  refine ⟨?_, ?_, fun E K => ?run⟩
  case run =>
    simp only [cc3__sum_reduce_kernel_eq_skeleton]; unfold cc3__sum_reduce_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Hand

end
-- ==== Proof.KR3.lean ====
import proofs.«104698_j48498770707162_1_alg».proof.Proof.KR3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-sum reduction: what each point leaves, the invariant, and the body obligation -/

/-! ## The grid coordinate's two tests, per kind of point -/

theorem first3 (t : Fin cfg3.N) (h : t.val = 0) : cond3_0 (grid3.coords t) := (hcond3_0 t).mpr (by rw [h])
theorem not_first3 (t : Fin cfg3.N) (h : t.val ≠ 0) : ¬cond3_0 (grid3.coords t) := fun hc => by
  have h0 := (hcond3_0 t).mp hc
  have hN : t.val < 10 := lt_of_lt_of_eq t.isLt (show cfg3.N = 10 from N_3)
  omega
theorem not_last3_of_first (t : Fin cfg3.N) (h : t.val = 0) : ¬cond3_1 (grid3.coords t) := fun hc => by
  have h1 := (hcond3_1 t).mp hc
  omega

/-! ## What each kind of point leaves in the output window and in the accumulator -/

/-- The first point stores nothing into the output window (idle there and not written back): no pieces, a placeholder nothing consults. -/
def out3_A_1 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond3_0 i) (hc1 : ¬cond3_1 i)
    (x0 : Vec F S5000x64 .f32) : Vec F S1x64 .f32 :=
  VO3_1.read (Elt F) (VO3_1.writes (Elt F) VO3_1.junk (kernelRun3_A c i arg1 harg1 arg2 harg2 arg3 harg3 hc0 hc1 x0).1)

/-- The accumulator's pieces cover it: every store into it is of the whole `[1,64]` block. -/
theorem scover3_A_0 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond3_0 i) (hc1 : ¬cond3_1 i)
    (x0 : Vec F S5000x64 .f32) (y : S1x64.Idx) :
    ∃ pc ∈ (kernelRun3_A c i arg1 harg1 arg2 harg2 arg3 harg3 hc0 hc1 x0).2.1, y ∈ pc.1.set :=
  View.cover_of_tiledL (kernelRun3_A c i arg1 harg1 arg2 harg2 arg3 harg3 hc0 hc1 x0).2.1 S1x64.size (by sl_kernel_rfl) y

/-- What the accumulator holds afterwards: its pieces read back. -/
def sout3_A_0 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond3_0 i) (hc1 : ¬cond3_1 i)
    (x0 : Vec F S5000x64 .f32) : Vec F S1x64 .f32 :=
  VS3_0.read (Elt F) (VS3_0.writes (Elt F) VS3_0.junk (kernelRun3_A c i arg1 harg1 arg2 harg2 arg3 harg3 hc0 hc1 x0).2.1)

/-- The middle point stores nothing into the output window (idle there and not written back): no pieces, a placeholder nothing consults. -/
def out3_B_1 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : ¬cond3_1 i)
    (x0 : Vec F S5000x64 .f32) (xs0 : Vec F S1x64 .f32) : Vec F S1x64 .f32 :=
  VO3_1.read (Elt F) (VO3_1.writes (Elt F) VO3_1.junk (kernelRun3_B c i arg1 harg1 arg2 harg2 arg3 harg3 hc0 hc1 x0 xs0).1)

/-- The accumulator's pieces cover it: every store into it is of the whole `[1,64]` block. -/
theorem scover3_B_0 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : ¬cond3_1 i)
    (x0 : Vec F S5000x64 .f32) (xs0 : Vec F S1x64 .f32) (y : S1x64.Idx) :
    ∃ pc ∈ (kernelRun3_B c i arg1 harg1 arg2 harg2 arg3 harg3 hc0 hc1 x0 xs0).2.1, y ∈ pc.1.set :=
  View.cover_of_tiledL (kernelRun3_B c i arg1 harg1 arg2 harg2 arg3 harg3 hc0 hc1 x0 xs0).2.1 S1x64.size (by sl_kernel_rfl) y

/-- What the accumulator holds afterwards: its pieces read back. -/
def sout3_B_0 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : ¬cond3_1 i)
    (x0 : Vec F S5000x64 .f32) (xs0 : Vec F S1x64 .f32) : Vec F S1x64 .f32 :=
  VS3_0.read (Elt F) (VS3_0.writes (Elt F) VS3_0.junk (kernelRun3_B c i arg1 harg1 arg2 harg2 arg3 harg3 hc0 hc1 x0 xs0).2.1)

/-- What the last point leaves in the output window's staging buffer: its pieces read back. -/
def out3_C_1 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : cond3_1 i)
    (x0 : Vec F S5000x64 .f32) (xs0 : Vec F S1x64 .f32) : Vec F S1x64 .f32 :=
  VO3_1.read (Elt F) (VO3_1.writes (Elt F) VO3_1.junk (kernelRun3_C c i arg1 harg1 arg2 harg2 arg3 harg3 hc0 hc1 x0 xs0).1)

/-- Its one whole-block store covers the output window's block. -/
theorem cover3_C_1 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : cond3_1 i)
    (x0 : Vec F S5000x64 .f32) (xs0 : Vec F S1x64 .f32) (y : S1x64.Idx) :
    ∃ pc ∈ (kernelRun3_C c i arg1 harg1 arg2 harg2 arg3 harg3 hc0 hc1 x0 xs0).1, y ∈ pc.1.set :=
  View.cover_of_tiledL (kernelRun3_C c i arg1 harg1 arg2 harg2 arg3 harg3 hc0 hc1 x0 xs0).1 S1x64.size (by sl_kernel_rfl) y

/-- The accumulator's pieces cover it: every store into it is of the whole `[1,64]` block. -/
theorem scover3_C_0 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : cond3_1 i)
    (x0 : Vec F S5000x64 .f32) (xs0 : Vec F S1x64 .f32) (y : S1x64.Idx) :
    ∃ pc ∈ (kernelRun3_C c i arg1 harg1 arg2 harg2 arg3 harg3 hc0 hc1 x0 xs0).2.1, y ∈ pc.1.set :=
  View.cover_of_tiledL (kernelRun3_C c i arg1 harg1 arg2 harg2 arg3 harg3 hc0 hc1 x0 xs0).2.1 S1x64.size (by sl_kernel_rfl) y

/-- What the accumulator holds afterwards: its pieces read back. -/
def sout3_C_0 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : cond3_1 i)
    (x0 : Vec F S5000x64 .f32) (xs0 : Vec F S1x64 .f32) : Vec F S1x64 .f32 :=
  VS3_0.read (Elt F) (VS3_0.writes (Elt F) VS3_0.junk (kernelRun3_C c i arg1 harg1 arg2 harg2 arg3 harg3 hc0 hc1 x0 xs0).2.1)

/-! ## The accumulation, point by point -/

-- the core's buffer contents when the call is entered
variable (V : (c : Dev nD) → (b : Ref sig .tc) → Buf (Elt F) ((c : Thread nD τ).loc b))

/-- What the output window's staging buffer and the accumulator hold after the body at position `n`: the first point
    run on the point's block; a later point run on its block and on what the accumulator held after the point before,
    the last of them also storing into the output window. -/
def outsAt3 (c : Dev nD) : (n : ℕ) → n < cfg3.N → Vec F S1x64 .f32 × Vec F S1x64 .f32
  | 0, hn => (out3_A_1 c (grid3.coords ⟨0, hn⟩) (ms3_0 ⟨0, hn⟩) (hs3_0 ⟨0, hn⟩) (ms3_1 ⟨0, hn⟩) (hs3_1 ⟨0, hn⟩) scM3_0 (Memref.isWhole_whole _) (first3 ⟨0, hn⟩ rfl) (not_last3_of_first ⟨0, hn⟩ rfl) (iblk3 V c 0 ⟨0, hn⟩), sout3_A_0 c (grid3.coords ⟨0, hn⟩) (ms3_0 ⟨0, hn⟩) (hs3_0 ⟨0, hn⟩) (ms3_1 ⟨0, hn⟩) (hs3_1 ⟨0, hn⟩) scM3_0 (Memref.isWhole_whole _) (first3 ⟨0, hn⟩ rfl) (not_last3_of_first ⟨0, hn⟩ rfl) (iblk3 V c 0 ⟨0, hn⟩))
  | n + 1, hn =>
    if h1 : (n + 1) % 10 = 9 then
      (out3_C_1 c (grid3.coords ⟨n + 1, hn⟩) (ms3_0 ⟨n + 1, hn⟩) (hs3_0 ⟨n + 1, hn⟩) (ms3_1 ⟨n + 1, hn⟩) (hs3_1 ⟨n + 1, hn⟩) scM3_0 (Memref.isWhole_whole _) (not_first3 ⟨n + 1, hn⟩ (Nat.succ_ne_zero n)) ((hcond3_1 ⟨n + 1, hn⟩).mpr h1) (iblk3 V c 0 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) scM3_0 (Memref.isWhole_whole _) (not_first3 ⟨n + 1, hn⟩ (Nat.succ_ne_zero n)) ((hcond3_1 ⟨n + 1, hn⟩).mpr h1) (iblk3 V c 0 ⟨n + 1, hn⟩) (outsAt3 c n (Nat.lt_of_succ_lt hn)).2)
    else
      (out3_B_1 c (grid3.coords ⟨n + 1, hn⟩) (ms3_0 ⟨n + 1, hn⟩) (hs3_0 ⟨n + 1, hn⟩) (ms3_1 ⟨n + 1, hn⟩) (hs3_1 ⟨n + 1, hn⟩) scM3_0 (Memref.isWhole_whole _) (not_first3 ⟨n + 1, hn⟩ (Nat.succ_ne_zero n)) (fun h => h1 ((hcond3_1 ⟨n + 1, hn⟩).mp h)) (iblk3 V c 0 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) scM3_0 (Memref.isWhole_whole _) (not_first3 ⟨n + 1, hn⟩ (Nat.succ_ne_zero n)) (fun h => h1 ((hcond3_1 ⟨n + 1, hn⟩).mp h)) (iblk3 V c 0 ⟨n + 1, hn⟩) (outsAt3 c n (Nat.lt_of_succ_lt hn)).2)

/-- At the first point. -/
theorem outsAt3_A (c : Dev nD) (t : Fin cfg3.N) (h0 : t.val = 0) :
    outsAt3 V c t.val t.isLt = (out3_A_1 c (grid3.coords t) (ms3_0 t) (hs3_0 t) (ms3_1 t) (hs3_1 t) scM3_0 (Memref.isWhole_whole _) (first3 t h0) (not_last3_of_first t h0) (iblk3 V c 0 t), sout3_A_0 c (grid3.coords t) (ms3_0 t) (hs3_0 t) (ms3_1 t) (hs3_1 t) scM3_0 (Memref.isWhole_whole _) (first3 t h0) (not_last3_of_first t h0) (iblk3 V c 0 t)) := by
  obtain ⟨n, hn⟩ := t
  cases n with
  | zero => exact rfl
  | succ n => exact absurd h0 (Nat.succ_ne_zero n)

/-- At a middle point: over what the point before left in the accumulator. -/
theorem outsAt3_B (c : Dev nD) (t : Fin cfg3.N) (h0 : t.val ≠ 0) (h1 : ¬t.val % 10 = 9) :
    outsAt3 V c t.val t.isLt = (out3_B_1 c (grid3.coords t) (ms3_0 t) (hs3_0 t) (ms3_1 t) (hs3_1 t) scM3_0 (Memref.isWhole_whole _) (not_first3 t h0) (fun h => h1 ((hcond3_1 t).mp h)) (iblk3 V c 0 t) (outsAt3 V c (t.val - 1) (Nat.lt_of_le_of_lt (Nat.sub_le _ _) t.isLt)).2, sout3_B_0 c (grid3.coords t) (ms3_0 t) (hs3_0 t) (ms3_1 t) (hs3_1 t) scM3_0 (Memref.isWhole_whole _) (not_first3 t h0) (fun h => h1 ((hcond3_1 t).mp h)) (iblk3 V c 0 t) (outsAt3 V c (t.val - 1) (Nat.lt_of_le_of_lt (Nat.sub_le _ _) t.isLt)).2) := by
  obtain ⟨n, hn⟩ := t
  cases n with
  | zero => exact absurd rfl h0
  | succ n => exact (dif_neg h1).trans rfl

/-- At the last point: likewise. -/
theorem outsAt3_C (c : Dev nD) (t : Fin cfg3.N) (h0 : t.val ≠ 0) (h1 : t.val % 10 = 9) :
    outsAt3 V c t.val t.isLt = (out3_C_1 c (grid3.coords t) (ms3_0 t) (hs3_0 t) (ms3_1 t) (hs3_1 t) scM3_0 (Memref.isWhole_whole _) (not_first3 t h0) ((hcond3_1 t).mpr h1) (iblk3 V c 0 t) (outsAt3 V c (t.val - 1) (Nat.lt_of_le_of_lt (Nat.sub_le _ _) t.isLt)).2, sout3_C_0 c (grid3.coords t) (ms3_0 t) (hs3_0 t) (ms3_1 t) (hs3_1 t) scM3_0 (Memref.isWhole_whole _) (not_first3 t h0) ((hcond3_1 t).mpr h1) (iblk3 V c 0 t) (outsAt3 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between points -/

/-- Before position `n`: at the start what the call is entered with; afterwards the other calls' staging buffers at
    anything, the accumulator at what the point before left in it, and the generator register at some state. -/
def PhiS3 (c : Dev nD) : (n : ℕ) → n ≤ cfg3.N → sProp 𝕄
  | 0, _ => Pipeline.ΦA spec3 c
  | n + 1, hn => iprop(iprop(others3 c ∗ owns (c : Thread nD τ) scM3_0 fullShare ((outsAt3 V c n hn).2)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(others3 c ∗ owns (c : Thread nD τ) scM3_0 fullShare ((outsAt3 V c n hn).2)) ∗ (∃ r, prngReg c r)) := rfl

theorem PhiS3_pos (c : Dev nD) (n : ℕ) (h : n ≤ cfg3.N) (hz : n ≠ 0) :
    PhiS3 V c n h = iprop(iprop(others3 c ∗ owns (c : Thread nD τ) scM3_0 fullShare ((outsAt3 V c (n - 1) (by omega)).2)) ∗ (∃ r, prngReg c r)) := by
  cases n with
  | zero => exact absurd rfl hz
  | succ n => rfl

/-! ## The proof data -/

/-- The arrays as the call finds them; after the body at point `t` the input window's buffer at its block and the
    output window's at the accumulation's first component; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = (outsAt3 V c t.val t.isLt).1 := by dsimp only [dat3]

/-- The input window's current staging buffer holds its block at every point. -/
theorem before3_0 (c : Dev nD) (t : Fin cfg3.N) (d) : (dat3 V c).before 0 t d = iblk3 V c 0 t :=
  before3_0_of V (dat3 V c) (A_eq3 V c 0) (after3_0 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 4800000 in
/-- The body at any point. The input's memref holds its block; which kind of point it is is read off the closed forms;
    the invariant hands the body the accumulator (at anything at the first point, at what the point before left
    otherwise) and takes it back at this point's contents, the accumulator's pieces covering it; the output window is
    handed back untouched where it is idle, and with its one store where it is live; the other calls' staging buffers
    and the generator register pass through; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  by_cases hz : t.val = 0
  · -- the first point
    rw [show (dat3 V c).leavesExact 0 t = owns (c : Thread nD τ) (ms3_0 t) fullShare ((dat3 V c).after 0 t) from by
      unfold Dat.leavesExact; rw [liveAt3_0 t], after3_0]
    rw [Dat.leavesExact_idle (dat3 V c) 1 t (idleAt3_1 t (not_last3_of_first t hz)) (noFlush3_1 t (not_last3_of_first t hz))]
    rw [outsAt3_A V c t hz]
    unfold sout3_A_0; (try dsimp only)
    rw [PhiS3_castSucc V c t, PhiS3_zero V c _ _ hz]
    iintro ⟨HA, Ho, ⟨%d0, H0⟩, ⟨%d1, H1⟩⟩
    icases PhiA3_in c $$ HA with ⟨⟨HO, HS0⟩, Hg⟩
    iapply ((kernelRun3_A c (grid3.coords t) _ _ _ _ _ _ (first3 t hz) (not_last3_of_first t hz) (iblk3 V c 0 t)).2.2 _ Set.univ _)
    isplitl [H0]; · iexact H0
    isplitl [H1]; · iexact H1
    isplitl [HS0]; · iexact HS0
    iintro ⟨H0, H1, ⟨%es0, HS0⟩⟩
    isplitl [HO HS0 Hg]
    · isplitl [HO HS0]
      · isplitl [HO]; · iexact HO
        unfold owns; iexists _; isplitr
        swap; · iexact HS0
        ipureintro; exact View.read_writes_of_cover _ _ _ _ _ (scover3_A_0 c _ _ _ _ _ _ _ _ _ _)
      iexact Hg
    isplitl [Ho]; · iexact Ho
    isplitl [H0]; · iexact H0
    iexists _; iexact H1
  · by_cases h1 : t.val % 10 = 9
    · -- the last point
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t ((hcond3_1 t).mpr h1)], after3_1]
      rw [outsAt3_C V c t hz h1]
      unfold out3_C_1 sout3_C_0; (try dsimp only)
      rw [PhiS3_castSucc V c t, PhiS3_pos V c _ _ hz]
      iintro ⟨⟨⟨HO, HS0⟩, Hg⟩, Ho, ⟨%d0, H0⟩, ⟨%d1, H1⟩⟩
      iapply ((kernelRun3_C c (grid3.coords t) _ _ _ _ _ _ (not_first3 t hz) ((hcond3_1 t).mpr h1) (iblk3 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HO HS0 Hg]
      · isplitl [HO HS0]
        · isplitl [HO]; · iexact HO
          unfold owns; iexists _; isplitr
          swap; · iexact HS0
          ipureintro; exact View.read_writes_of_cover _ _ _ _ _ (scover3_C_0 c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover3_C_1 c _ _ _ _ _ _ _ _ _ _ _)
    · -- a middle point
      rw [show (dat3 V c).leavesExact 0 t = owns (c : Thread nD τ) (ms3_0 t) fullShare ((dat3 V c).after 0 t) from by
        unfold Dat.leavesExact; rw [liveAt3_0 t], after3_0]
      rw [Dat.leavesExact_idle (dat3 V c) 1 t (idleAt3_1 t (fun h => h1 ((hcond3_1 t).mp h))) (noFlush3_1 t (fun h => h1 ((hcond3_1 t).mp h)))]
      rw [outsAt3_B V c t hz h1]
      unfold sout3_B_0; (try dsimp only)
      rw [PhiS3_castSucc V c t, PhiS3_pos V c _ _ hz]
      iintro ⟨⟨⟨HO, HS0⟩, Hg⟩, Ho, ⟨%d0, H0⟩, ⟨%d1, H1⟩⟩
      iapply ((kernelRun3_B c (grid3.coords t) _ _ _ _ _ _ (not_first3 t hz) (fun h => h1 ((hcond3_1 t).mp h)) (iblk3 V c 0 t) _).2.2 _ Set.univ _)
      isplitl [H0]; · iexact H0
      isplitl [H1]; · iexact H1
      isplitl [HS0]; · iexact HS0
      iintro ⟨H0, H1, ⟨%es0, HS0⟩⟩
      isplitl [HO HS0 Hg]
      · isplitl [HO HS0]
        · isplitl [HO]; · iexact HO
          unfold owns; iexists _; isplitr
          swap; · iexact HS0
          ipureintro; exact View.read_writes_of_cover _ _ _ _ _ (scover3_B_0 c _ _ _ _ _ _ _ _ _ _ _)
        iexact Hg
      isplitl [Ho]; · iexact Ho
      isplitl [H0]; · iexact H0
      iexists _; iexact H1

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the call is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- Forgetting what the accumulator holds, at any contents `x`, gives the entry invariant back. -/
theorem forget3 (c : Dev nD) (x : Vec F S1x64 .f32) :
    iprop(iprop(others3 c ∗ owns (c : Thread nD τ) scM3_0 fullShare x) ∗ (∃ r, prngReg c r)) ⊢ (Pipeline.ΦA spec3 c : sProp 𝕄) :=
  (show iprop(iprop(others3 c ∗ owns (c : Thread nD τ) scM3_0 fullShare x) ∗ (∃ r, prngReg c r))
      ⊢ iprop(iprop(others3 c ∗ (∃ d, owns (c : Thread nD τ) scM3_0 fullShare d)) ∗ (∃ r, prngReg c r)) from by
    iintro ⟨⟨HO, HS0⟩, Hg⟩
    isplitl [HO HS0]
    · isplitl [HO]; · iexact HO
      iexists _; iexact HS0
    iexact Hg).trans (PhiA3_out c)

/-- After any point the invariant gives the entry invariant back. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  exact forget3 c _

/-- In particular after the last. -/
theorem hout3 (c : Dev nD) : (dat3 V c).Φ (Fin.last cfg3.N) ⊢ Pipeline.ΦA spec3 c :=
  Phi_out3 V c _ (by rw [Fin.val_last]; have : cfg3.N = 10 := N_3; omega)

end Cert.Kernel.Hand

end
-- ==== Proof.KFold3.lean ====
/-
  The contents of a core's unscoped buffers after the last region (the sum over the nodes) and at the return.
-/
import proofs.«104698_j48498770707162_1_alg».proof.Proof.KFold
import proofs.«104698_j48498770707162_1_alg».proof.Proof.KR3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 3's exit: its arrays at what the pipeline leaves (an input's as entered, the output's write-backs folded),
    every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The same read at the TensorCore's references. -/
abbrev V9 : (c : Dev nD) → (b : Ref sig .tc) → Buf (Elt F) ((c : Thread nD τ).loc b) := fun c b => W9 m c b
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)

/-- Region 3 changes one array only, its output `main_v62`: an input window's array is put back as it was found, and
    every other buffer is untouched. -/
theorem W9_keep (c : Dev nD) (b : Ref sig .tc) (hb : b ≠ main_v62) : W9 m c (Proc.devRef .tc b) = W8 m c (Proc.devRef .tc b) := by
  by_cases h0 : Pipeline.arrRef spec3 0 = b
  · subst h0; exact (W9_arr m c 0).trans (((dat3 (V8 m) c).arrAt_in 0 rfl _).trans (A_eq3 (V8 m) c 0))
  refine W9_of_ne m c b fun w => ?_
  match w with
  | ⟨0, _⟩ => exact h0
  | ⟨1, _⟩ => exact fun e => hb e.symm

/-- After the last host stretch (the division by the node count and the bias): the contents at the return. -/
abbrev W10 : Dev nD → Valuation τ sig (Elt F) := fun c => StableHlo.after hostOps4 (W9 m c)

end Cert.Kernel.Hand

end
-- ==== Proof.KRun.lean ====
/-
  The run of @main as ten segments: host stretches and the four kernel regions, in order. Between two segments every
  unscoped buffer of a core is held at a named contents: the launch memory, then each host stretch's operations applied,
  then, after a region, that region's arrays at what its write-backs leave and every other buffer untouched. The run's
  conclusion reads all of them off the last contents; the frame and the value of the result are both read from it.
-/
import proofs.«104698_j48498770707162_1_alg».proof.Proof.Gen.Kernel.Launch
import proofs.«104698_j48498770707162_1_alg».proof.Proof.Gen.Kernel.Skeleton
import proofs.«104698_j48498770707162_1_alg».proof.Proof.Gen.Kernel.Points
import proofs.«104698_j48498770707162_1_alg».proof.Proof.KFold3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V6 m) c
  | ⟨3, _⟩ => fun c => dat3 (V8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem fresh4 : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 as a segment: entered with every unscoped buffer at `W3`, left with them at `W4`. Its windows' arrays
    are split out of the unscoped buffers on entry and put back, at what the write-backs leave, on exit; the generator
    register goes through the region's invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W5`, left with them at `W6`. Its windows' arrays
    are split out of the unscoped buffers on entry and put back, at what the write-backs leave, on exit; the generator
    register goes through the region's invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W6`, left with them at `W7`. Its windows' arrays
    are split out of the unscoped buffers on entry and put back, at what the write-backs leave, on exit; the generator
    register goes through the region's invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W8`, left with them at `W9`. Its windows' arrays
    are split out of the unscoped buffers on entry and put back, at what the write-backs leave, on exit; the generator
    register goes through the region's invariant; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V8 m) c).Φ 0 from rfl]
    refine BI.Entails.trans ?_ (hin3 (V8 m) c)
    unfold Pipeline.ΦA
    show (_ : sProp 𝕄) ⊢ (_ : sProp 𝕄)
    iintro ⟨Hp, -, Hr⟩
    isplitl [Hr]; · iexact Hr
    iexact Hp
  hout c := by
    rw [Pipeline.ownSems0_none, show (pdats m 3 c).Φ (Fin.last _) = (dat3 (V8 m) c).Φ (Fin.last cfg3.N) from rfl]
    refine BI.Entails.trans (hout3 (V8 m) c) ?_
    unfold Pipeline.ΦA
    show (_ : sProp 𝕄) ⊢ (_ : sProp 𝕄)
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m) () defs₀ 𝒱₀ L lv) :=
  [ .host (hseg hostOps0 hostOps0_sub fresh0 (W0 m)),
    .host (hseg hostOps0_1 hostOps0_1_sub fresh0_1 (W1 m)),
    .host (hseg hostOps0_2 hostOps0_2_sub fresh0_2 (W2 m)),
    .region (reg0 m),
    .host (hseg hostOps1 hostOps1_sub fresh1 (W4 m)),
    .region (reg1 m),
    .region (reg2 m),
    .host (hseg hostOps3 hostOps3_sub fresh3 (W7 m)),
    .region (reg3 m),
    .host (hseg hostOps4 hostOps4_sub fresh4 (W9 m)) ]

variable (ρ : Dev nD → PrngReg)

set_option backward.isDefEq.respectTransparency.types false in
/-- THE RUN: from any memory with zero counters every weakly fair execution of @main on the TensorCores terminates, nothing
    faulting, and in every final state each unscoped buffer of each core holds the last boundary's contents `W10`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := fun c => ⟨.rfl, .rfl, .rfl, .rfl, .rfl, .rfl, .rfl, .rfl, .rfl, .rfl, by
      show (iprop(StableHlo.held (c : Thread nD τ) (Pipeline.ucRefs τ sig) (W10 m c) ∗ R c) : sProp 𝕄)
        ⊢ iprop(Tlast m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Hand

end
-- ==== Proof.KKeep.lean ====
/-
  A buffer that a host stretch of @main does not write holds after the stretch what it held before it.
-/
import proofs.«104698_j48498770707162_1_alg».proof.Proof.Gen.Kernel.Launch
import proofs.«104698_j48498770707162_1_alg».proof.Proof.Gen.Kernel.Regions
import Idealize.ShloMosaic.Lib.StableHlo.Run

noncomputable section

namespace Cert.Kernel.Hand

open Cert.Kernel Cert.Kernel.Gen
open Idealize.ShloMosaic Idealize.ShloMosaic.TcCoe Idealize.SL.Sem Idealize.ShloMosaic.StableHlo

variable {F : FTy → Type} [FloatOps F]
variable (W : Valuation τ sig (Elt F))

theorem keep0 (r : Ref sig .tc) (h : r ∉ hostOps0_W) : StableHlo.after hostOps0 W (Proc.devRef .tc r) = W (Proc.devRef .tc r) :=
  StableHlo.after_of_writes_sub hostOps0 _ hostOps0_writes h
theorem keep01 (r : Ref sig .tc) (h : r ∉ hostOps0_1_W) : StableHlo.after hostOps0_1 W (Proc.devRef .tc r) = W (Proc.devRef .tc r) :=
  StableHlo.after_of_writes_sub hostOps0_1 _ hostOps0_1_writes h
theorem keep02 (r : Ref sig .tc) (h : r ∉ hostOps0_2_W) : StableHlo.after hostOps0_2 W (Proc.devRef .tc r) = W (Proc.devRef .tc r) :=
  StableHlo.after_of_writes_sub hostOps0_2 _ hostOps0_2_writes h
theorem keep1 (r : Ref sig .tc) (h : r ∉ hostOps1_W) : StableHlo.after hostOps1 W (Proc.devRef .tc r) = W (Proc.devRef .tc r) :=
  StableHlo.after_of_writes_sub hostOps1 _ hostOps1_writes h
theorem keep3 (r : Ref sig .tc) (h : r ∉ hostOps3_W) : StableHlo.after hostOps3 W (Proc.devRef .tc r) = W (Proc.devRef .tc r) :=
  StableHlo.after_of_writes_sub hostOps3 _ hostOps3_writes h
theorem keep4 (r : Ref sig .tc) (h : r ∉ hostOps4_W) : StableHlo.after hostOps4 W (Proc.devRef .tc r) = W (Proc.devRef .tc r) :=
  StableHlo.after_of_writes_sub hostOps4 _ hostOps4_writes h

end Cert.Kernel.Hand

end
-- ==== Proof.KFrame.lean ====
/-
  The frame of @main: every weakly fair execution terminates without a fault and leaves the six argument arrays as
  launched. No host operation writes an argument and a region puts an input window's array back as it found it, so the
  last boundary's contents at an argument walk back to the launch memory.
-/
import proofs.«104698_j48498770707162_1_alg».proof.Proof.KRun
import proofs.«104698_j48498770707162_1_alg».proof.Proof.KKeep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An argument array at the return is its launch contents. -/
theorem W10_arg (c : Dev nD) (r : Ref sig .tc) (h0 : r ∉ hostOps0_W) (h01 : r ∉ hostOps0_1_W) (h02 : r ∉ hostOps0_2_W) (h32 : r ≠ main_v32)
    (h1 : r ∉ hostOps1_W) (h47 : r ≠ main_v47) (h48 : r ≠ main_v48) (h3 : r ∉ hostOps3_W) (h62 : r ≠ main_v62) (h4 : r ∉ hostOps4_W) :
    W10 m c (Proc.devRef .tc r) = m ((c : Thread nD τ).loc r) :=
  (keep4 (W9 m c) r h4).trans <| (W9_keep m c r h62).trans <| (keep3 (W7 m c) r h3).trans <| (W7_keep m c r h48).trans <|
    (W6_keep m c r h47).trans <| (keep1 (W4 m c) r h1).trans <| (W4_keep m c r h32).trans <| (keep02 (W2 m c) r h02).trans <|
    (keep01 (W1 m c) r h01).trans <| (keep0 (W0 m c) r h0).trans rfl

variable (ρ : Dev nD → PrngReg)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W10_arg m c main_arg0 (by decide) (by decide) (by decide) (by decide) (by decide) (by decide) (by decide) (by decide) (by decide) (by decide)),
    (h c _ (mem_uc main_arg1 (by decide))).trans (W10_arg m c main_arg1 (by decide) (by decide) (by decide) (by decide) (by decide) (by decide) (by decide) (by decide) (by decide) (by decide)),
    (h c _ (mem_uc main_arg2 (by decide))).trans (W10_arg m c main_arg2 (by decide) (by decide) (by decide) (by decide) (by decide) (by decide) (by decide) (by decide) (by decide) (by decide)),
    (h c _ (mem_uc main_arg3 (by decide))).trans (W10_arg m c main_arg3 (by decide) (by decide) (by decide) (by decide) (by decide) (by decide) (by decide) (by decide) (by decide) (by decide)),
    (h c _ (mem_uc main_arg4 (by decide))).trans (W10_arg m c main_arg4 (by decide) (by decide) (by decide) (by decide) (by decide) (by decide) (by decide) (by decide) (by decide) (by decide)),
    (h c _ (mem_uc main_arg5 (by decide))).trans (W10_arg m c main_arg5 (by decide) (by decide) (by decide) (by decide) (by decide) (by decide) (by decide) (by decide) (by decide) (by decide))⟩)
    (run_all m ρ)

/-- The same run with the result buffer read as well: it holds the last boundary's contents at `main_v66`. -/
theorem run_value : θ_run defs (onTc (τ := τ) (main (F := F))) ⟨m, fun _ => 0, ρ⟩ (fun r => ∀ c : Dev nD,
      r.2.mem ((c.tc : Thread nD τ).loc main_v66) = W10 m c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨h c _ (mem_uc main_v66 (by decide)),
    (h c _ (mem_uc main_arg0 (by decide))).trans (W10_arg m c main_arg0 (by decide) (by decide) (by decide) (by decide) (by decide) (by decide) (by decide) (by decide) (by decide) (by decide)),
    (h c _ (mem_uc main_arg1 (by decide))).trans (W10_arg m c main_arg1 (by decide) (by decide) (by decide) (by decide) (by decide) (by decide) (by decide) (by decide) (by decide) (by decide)),
    (h c _ (mem_uc main_arg2 (by decide))).trans (W10_arg m c main_arg2 (by decide) (by decide) (by decide) (by decide) (by decide) (by decide) (by decide) (by decide) (by decide) (by decide)),
    (h c _ (mem_uc main_arg3 (by decide))).trans (W10_arg m c main_arg3 (by decide) (by decide) (by decide) (by decide) (by decide) (by decide) (by decide) (by decide) (by decide) (by decide)),
    (h c _ (mem_uc main_arg4 (by decide))).trans (W10_arg m c main_arg4 (by decide) (by decide) (by decide) (by decide) (by decide) (by decide) (by decide) (by decide) (by decide) (by decide)),
    (h c _ (mem_uc main_arg5 (by decide))).trans (W10_arg m c main_arg5 (by decide) (by decide) (by decide) (by decide) (by decide) (by decide) (by decide) (by decide) (by decide) (by decide))⟩)
    (run_all m ρ)

end Cert.Kernel.Hand

end
-- ==== Proof.KiR0.lean ====
/- Region 0: the first matrix product, one block of 5000 rows per grid point.
   The rows matrix [50000,128] is cut into ten blocks of 5000 rows; the weight matrix [128,128] is one block, the same
   at every point; the product [50000,128] is cut like the rows. At a point the body reads the rows block and the
   weights, rounds both to bf16, multiplies them accumulating in f32 from zero, and stores the result over the whole
   output block. This module states, at arbitrary contents `V` of the core's buffers on entry, what each staging
   buffer holds before and after the body, and proves the body meets that at every point. -/
import proofs.«104698_j48498770707162_1_alg».proof.Proof.Gen.KernelIdeal.Launch
import proofs.«104698_j48498770707162_1_alg».proof.Proof.Gen.KernelIdeal.Skeleton
import proofs.«104698_j48498770707162_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of the block's own extents tiles the block walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold at the moment the region starts; everything below is a function of it
variable (V : (c : Dev nD) → (b : Ref sig .tc) → Buf (Elt F) ((c : Thread nD τ).loc b))

/-! ## Blocks -/

/-- The block of window `w` at grid point `t`: the part of the window's array, as found on entry, that the
    window's index map selects there (5000 consecutive rows for windows 0 and 2, the whole weight matrix for window 1). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 is copied in at every grid point, so its staging buffer holds the point's block whenever the body
    starts. Stated for any proof data whose array 0 is the entry contents (`hA`) and whose body gives the block
    back unchanged (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 is copied in at the first grid point only: its block index is the same at every point, so at a later
    point the buffer still holds the previous point's block, and that is this point's block. Same hypotheses as for
    window 0. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

-- each access is through the rectangle that is the whole buffer: offsets 0, extents the buffer's own
abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-! ## What the body leaves in the output buffer -/

/-- The output block after the body, as a function of the rows block `x0` and the weights `x1`: one write, over the
    whole block, of the product of the two read values rounded to bf16 (the payload `k0_pay1`). -/
def out0_2 (x0 : Vec F S5000x128 .f32) (x1 : Vec F S128x128 .f32) : Vec F S5000x128 .f32 :=
  View.canon [⟨r0_0, k0_pay1 (View.ld x0 r0_0) (View.ld x1 r0_1)⟩]

/-- The single store's rectangle is the whole output block, so every index of the block lies in it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body as a triple -/

set_option maxHeartbeats 1000000 in
/-- The body run on three whole buffers — the first two reading `x0` and `x1`, the third holding anything — ends with
    the first two unchanged and the third reading `out0_2 x0 x1`. The body also reads the third buffer before writing
    it; that read is not used by the stored value. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- On core `c`: the three arrays are the entry contents; after the body at point `t` the two input buffers still
    hold their blocks and the output buffer holds `out0_2` of those two blocks; the invariant is the one that only
    carries the untouched remainder of the core's state; nothing is owed; every share is the full one. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves in each window's buffer, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Both input buffers hold their blocks when the body starts, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is given at point `t`: the invariant, the (empty) debt, and the three current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two input buffers hold their blocks, so the triple above applies with those blocks; the
    invariant and the debt do not depend on the point and are handed through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline rule asks of the body, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiR1.lean ====
/- Region 1: add a bias row and clamp at zero, one block of 5000 rows per grid point.
   The matrix [50000,128] is cut into ten blocks of 5000 rows; the bias [1,128] is one block, the same at every point;
   the result [50000,128] is cut like the matrix. At a point the body reads the rows block and the bias row, repeats
   the bias down the 5000 rows, adds, takes the elementwise maximum with zero, and stores the result over the whole
   output block. This module states, at arbitrary contents `V` of the core's buffers on entry, what each staging
   buffer holds before and after the body, and proves the body meets that at every point. -/
import proofs.«104698_j48498770707162_1_alg».proof.Proof.Gen.KernelIdeal.Launch
import proofs.«104698_j48498770707162_1_alg».proof.Proof.Gen.KernelIdeal.Skeleton
import proofs.«104698_j48498770707162_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of the block's own extents tiles the block walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold at the moment the region starts; everything below is a function of it
variable (V : (c : Dev nD) → (b : Ref sig .tc) → Buf (Elt F) ((c : Thread nD τ).loc b))

/-! ## Blocks -/

/-- The block of window `w` at grid point `t`: the part of the window's array, as found on entry, that the
    window's index map selects there (5000 consecutive rows for windows 0 and 2, the whole bias row for window 1). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 is copied in at every grid point, so its staging buffer holds the point's block whenever the body
    starts. Stated for any proof data whose array 0 is the entry contents (`hA`) and whose body gives the block
    back unchanged (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 is copied in at the first grid point only: its block index is the same at every point, so at a later
    point the buffer still holds the previous point's block, and that is this point's block. Same hypotheses as for
    window 0. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

-- each access is through the rectangle that is the whole buffer: offsets 0, extents the buffer's own
abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output buffer -/

/-- The output block after the body, as a function of the rows block `x0` and the bias row `x1`: one write, over the
    whole block, of max(x0 + x1 repeated over the rows, 0) (the payload `k1_pay1`). -/
def out1_2 (x0 : Vec F S5000x128 .f32) (x1 : Vec F S1x128 .f32) : Vec F S5000x128 .f32 :=
  View.canon [⟨r1_0, k1_pay1 (View.ld x0 r1_0) (View.ld x1 r1_1)⟩]

/-- The single store's rectangle is the whole output block, so every index of the block lies in it. -/
theorem cover1_2 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body as a triple -/

set_option maxHeartbeats 1000000 in
/-- The body run on three whole buffers — the first two reading `x0` and `x1`, the third holding anything — ends with
    the first two unchanged and the third reading `out1_2 x0 x1`. The body also reads the third buffer before writing
    it; that read is not used by the stored value. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data of the pipeline -/

/-- On core `c`: the three arrays are the entry contents; after the body at point `t` the two input buffers still
    hold their blocks and the output buffer holds `out1_2` of those two blocks; the invariant is the one that only
    carries the untouched remainder of the core's state; nothing is owed; every share is the full one. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves in each window's buffer, one window at a time. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Both input buffers hold their blocks when the body starts, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is given at point `t`: the invariant, the (empty) debt, and the three current staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the two input buffers hold their blocks, so the triple above applies with those blocks; the
    invariant and the debt do not depend on the point and are handed through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline rule asks of the body, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiR2.lean ====
/- Region 2: the second matrix product, one block of 5000 rows per grid point.
   The rows matrix [50000,128] is cut into ten blocks of 5000 rows; the weight matrix [128,64] is one block, the same
   at every point; the product [50000,64] is cut into ten blocks of 5000 rows. At a point the body reads the rows
   block and the weights, rounds both to bf16, multiplies them accumulating in f32 from zero, and stores the result
   over the whole output block. This module states, at arbitrary contents `V` of the core's buffers on entry, what
   each staging buffer holds before and after the body, and proves the body meets that at every point. -/
import proofs.«104698_j48498770707162_1_alg».proof.Proof.Gen.KernelIdeal.Launch
import proofs.«104698_j48498770707162_1_alg».proof.Proof.Gen.KernelIdeal.Skeleton
import proofs.«104698_j48498770707162_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of the block's own extents tiles the block walks the long axis coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold at the moment the region starts; everything below is a function of it
variable (V : (c : Dev nD) → (b : Ref sig .tc) → Buf (Elt F) ((c : Thread nD τ).loc b))

/-! ## Blocks -/

/-- The block of window `w` at grid point `t`: the part of the window's array, as found on entry, that the
    window's index map selects there (5000 consecutive rows for windows 0 and 2, the whole weight matrix for window 1). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 is copied in at every grid point, so its staging buffer holds the point's block whenever the body
    starts. Stated for any proof data whose array 0 is the entry contents (`hA`) and whose body gives the block
    back unchanged (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 is copied in at the first grid point only: its block index is the same at every point, so at a later
    point the buffer still holds the previous point's block, and that is this point's block. Same hypotheses as for
    window 0. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through -/

-- each access is through the rectangle that is the whole buffer: offsets 0, extents the buffer's own
-- (`r2_0` the output block's, `r2_1` the rows block's, `r2_2` the weights')
abbrev r2_0 : Rect S5000x64 := Rect.unit (s := S5000x64) ![0, 0] S5000x64.size inb_S5000x64_S5000x64_0_0
abbrev r2_1 : Rect S5000x128 := Rect.unit (s := S5000x128) ![0, 0] S5000x128.size inb_S5000x128_S5000x128_0_0
abbrev r2_2 : Rect S128x64 := Rect.unit (s := S128x64) ![0, 0] S128x64.size inb_S128x64_S128x64_0_0

/-! ## What the body leaves in the output buffer -/

/-- The output block after the body, as a function of the rows block `x0` and the weights `x1`: one write, over the
    whole block, of the product of the two read values rounded to bf16 (the payload `k2_pay1`). -/
def out2_2 (x0 : Vec F S5000x128 .f32) (x1 : Vec F S128x64 .f32) : Vec F S5000x64 .f32 :=
  View.canon [⟨r2_0, k2_pay1 (View.ld x0 r2_1) (View.ld x1 r2_2)⟩]

/-- The single store's rectangle is the whole output block, so every index of the block lies in it. -/
theorem cover2_2 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body as a triple -/

set_option maxHeartbeats 1000000 in
/-- The body run on three whole buffers — the first two reading `x0` and `x1`, the third holding anything — ends with
    the first two unchanged and the third reading `out2_2 x0 x1`. The body also reads the third buffer before writing
    it; that read is not used by the stored value. -/
theorem sound_kernel2 (c : Dev nD) (E : Set ℕ) (i : grid2.Coords)
    (arg1 : Memref sig .tc .vmem S5000x128 .f32) (harg1 : arg1.IsWhole) (arg2 : Memref sig .tc .vmem S128x64 .f32) (harg2 : arg2.IsWhole)
    (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- On core `c`: the three arrays are the entry contents; after the body at point `t` the two input buffers still
    hold their blocks and the output buffer holds `out2_2` of those two blocks; the invariant is the one that only
    carries the untouched remainder of the core's state; nothing is owed; every share is the full one. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The arrays of the proof data are the entry contents. -/
theorem A_eq2 (c : Dev nD) (w : Fin cfg2.W) : (dat2 V c).A w = V c (Pipeline.arrRef spec2 w) := by
  dsimp only [dat2]

/-- What the body leaves in each window's buffer, one window at a time. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Both input buffers hold their blocks when the body starts, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is given at point `t`: the invariant, the (empty) debt, and the three current staging buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it gives back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any point the two input buffers hold their blocks, so the triple above applies with those blocks; the
    invariant and the debt do not depend on the point and are handed through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline rule asks of the body, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiFold.lean ====
/-
  The contents of a core's unscoped buffers at each boundary between two segments of @main, up to the entry of the last
  region: the launch memory, then each host stretch's operations applied, then, after a region, that region's arrays at
  what its write-backs leave and every other buffer untouched.
-/
import proofs.«104698_j48498770707162_1_alg».proof.Proof.Gen.KernelIdeal.Launch
import proofs.«104698_j48498770707162_1_alg».proof.Proof.Gen.KernelIdeal.Skeleton
import proofs.«104698_j48498770707162_1_alg».proof.Proof.Gen.KernelIdeal.Points
import proofs.«104698_j48498770707162_1_alg».proof.Proof.KiR0
import proofs.«104698_j48498770707162_1_alg».proof.Proof.KiR1
import proofs.«104698_j48498770707162_1_alg».proof.Proof.KiR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m ((c : Dev nD), b)
/-- After the first host stretch (the edges' endpoints, the degrees, the reciprocal square roots). -/
abbrev W1 : Dev nD → Valuation τ sig (Elt F) := fun c => StableHlo.after hostOps0 (W0 m c)
/-- After the outlined selection. -/
abbrev W2 : Dev nD → Valuation τ sig (Elt F) := fun c => StableHlo.after hostOps0_1 (W1 m c)
/-- After the edge weights are computed: what region 0 is entered from. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- At region 0's exit: its arrays at what the pipeline leaves (an input's as entered, the output's write-backs folded),
    every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- Region 0 changes one array only, its output `main_v32`: an input window's array is put back as it was found, and
    every other buffer is untouched. -/
theorem W4_keep (c : Dev nD) (b : Ref sig .tc) (hb : b ≠ main_v32) : W4 m c (Proc.devRef .tc b) = W3 m c (Proc.devRef .tc b) := by
  by_cases h0 : Pipeline.arrRef spec0 0 = b
  · subst h0; exact (W4_arr m c 0).trans (((dat0 (V3 m) c).arrAt_in 0 rfl _).trans (A_eq0 (V3 m) c 0))
  by_cases h1 : Pipeline.arrRef spec0 1 = b
  · subst h1; exact (W4_arr m c 1).trans (((dat0 (V3 m) c).arrAt_in 1 rfl _).trans (A_eq0 (V3 m) c 1))
  refine W4_of_ne m c b fun w => ?_
  match w with
  | ⟨0, _⟩ => exact h0
  | ⟨1, _⟩ => exact h1
  | ⟨2, _⟩ => exact fun e => hb e.symm

/-- After the first aggregation over the edges: what region 1 is entered from. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the pipeline leaves (an input's as entered, the output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- Region 1 changes one array only, its output `main_v47`: an input window's array is put back as it was found, and
    every other buffer is untouched. -/
theorem W6_keep (c : Dev nD) (b : Ref sig .tc) (hb : b ≠ main_v47) : W6 m c (Proc.devRef .tc b) = W5 m c (Proc.devRef .tc b) := by
  by_cases h0 : Pipeline.arrRef spec1 0 = b
  · subst h0; exact (W6_arr m c 0).trans (((dat1 (V5 m) c).arrAt_in 0 rfl _).trans (A_eq1 (V5 m) c 0))
  by_cases h1 : Pipeline.arrRef spec1 1 = b
  · subst h1; exact (W6_arr m c 1).trans (((dat1 (V5 m) c).arrAt_in 1 rfl _).trans (A_eq1 (V5 m) c 1))
  refine W6_of_ne m c b fun w => ?_
  match w with
  | ⟨0, _⟩ => exact h0
  | ⟨1, _⟩ => exact h1
  | ⟨2, _⟩ => exact fun e => hb e.symm

/-- At region 2's exit: its arrays at what the pipeline leaves (an input's as entered, the output's write-backs folded),
    every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references. -/
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-- Region 2 changes one array only, its output `main_v48`: an input window's array is put back as it was found, and
    every other buffer is untouched. -/
theorem W7_keep (c : Dev nD) (b : Ref sig .tc) (hb : b ≠ main_v48) : W7 m c (Proc.devRef .tc b) = W6 m c (Proc.devRef .tc b) := by
  by_cases h0 : Pipeline.arrRef spec2 0 = b
  · subst h0; exact (W7_arr m c 0).trans (((dat2 (V6 m) c).arrAt_in 0 rfl _).trans (A_eq2 (V6 m) c 0))
  by_cases h1 : Pipeline.arrRef spec2 1 = b
  · subst h1; exact (W7_arr m c 1).trans (((dat2 (V6 m) c).arrAt_in 1 rfl _).trans (A_eq2 (V6 m) c 1))
  refine W7_of_ne m c b fun w => ?_
  match w with
  | ⟨0, _⟩ => exact h0
  | ⟨1, _⟩ => exact h1
  | ⟨2, _⟩ => exact fun e => hb e.symm

/-- After the second aggregation over the edges: what region 3 is entered from. -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b

end Cert.KernelIdeal.Hand

end
-- ==== Proof.KiR3Runs.lean ====
import proofs.«104698_j48498770707162_1_alg».proof.Proof.Gen.KernelIdeal.Launch
import proofs.«104698_j48498770707162_1_alg».proof.Proof.Gen.KernelIdeal.Skeleton
import proofs.«104698_j48498770707162_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-sum reduction (the fourth pipelined call): what its three control cases share

The kernel keeps a `[1,64]` accumulator in a scratch buffer of its own. At the first grid point it zeroes the
accumulator; at every point it adds the column sums of the point's `[5000,64]` block to it; at the last point it
copies the accumulator to the `[1,64]` output window. Everything here is stated at the contents `V` the core's
buffers hold when the call is entered. -/

-- the core's buffer contents when the call is entered
variable (V : (c : Dev nD) → (b : Ref sig .tc) → Buf (Elt F) ((c : Thread nD τ).loc b))

/-! ## The windows' blocks -/

/-- Window `w`'s block at point `t`, read off its array as the call finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array is
    `V`'s and whose body leaves the block in place: the window is fetched at every point, uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the ten grid points -/

/-- "This is the first point": the comparison of the grid coordinate with 0, as the body computes it. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)

/-- "This is the last point": the comparison of the grid coordinate with 9. -/
abbrev cond3_1 (i : grid3.Coords) : Prop := k3_cond2 i = 1#1
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

/-- The input window is never idle. -/
theorem liveAt3_0 : ∀ t : Fin cfg3.N, cfg3.idle 0 (grid3.coords t) = false := by decide +kernel
/-- Away from the last point the output window is idle (nothing is stored into it) -/
theorem idleAt3_1 : ∀ t : Fin cfg3.N, ¬cond3_1 (grid3.coords t) → cfg3.idle 1 (grid3.coords t) = true := by decide +kernel
/-- and is not written back. -/
theorem noFlush3_1 : ∀ t : Fin cfg3.N, ¬cond3_1 (grid3.coords t) → (cfg3.win 1).flush t = false := by decide +kernel
/-- At the last point it is live. -/
theorem liveAt3_1 : ∀ t : Fin cfg3.N, cond3_1 (grid3.coords t) → cfg3.idle 1 (grid3.coords t) = false := by decide +kernel

/-! ## The memrefs the body is called with -/

/-- The output window's one staging buffer, through which its contents are stated. -/
abbrev VO3_1 : View sig .tc .vmem S1x64 .f32 := (Memref.whole cc3_stg1_0 : Memref sig .tc .vmem S1x64 .f32).view
/-- Each window's current staging memref at point `t`, and its wholeness. -/
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
/-- The accumulator: a whole scoped buffer of the kernel's own, passed beside the windows, -/
abbrev scM3_0 : Memref sig .tc .vmem S1x64 .f32 := Memref.whole cc3_scratch0
/-- and as a view. -/
abbrev VS3_0 : View sig .tc .vmem S1x64 .f32 := scM3_0.view

/-! ## The call's invariant, with the accumulator singled out

The core's scoped buffers that are no staging buffer of this call are the fifteen staging buffers of the three
calls before it and the accumulator. The body touches only the accumulator; the fifteen are carried along. -/

/-- The staging buffers of the other three calls, each at some contents. -/
def others3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- What the call is entered with: the fifteen, the accumulator at some contents, the generator register. -/
theorem PhiA3_in (c : Dev nD) :
    (Pipeline.ΦA spec3 c : sProp 𝕄) ⊢ iprop(iprop(others3 c ∗ (∃ d, owns (c : Thread nD τ) scM3_0 fullShare d)) ∗ (∃ r, prngReg c r)) := by
  unfold Pipeline.ΦA; rw [scopedRest3_eq]; unfold others3; simp only [scM3_0, owns_whole]
  iintro ⟨⟨O1, O2, O3, O4, O5, O6, O7, O8, O9, O10, O11, O12, O13, O14, O15, HS⟩, Hg⟩
  isplitr [Hg]
  · isplitr [HS]
    · isplitl [O1]; · iexact O1
      isplitl [O2]; · iexact O2
      isplitl [O3]; · iexact O3
      isplitl [O4]; · iexact O4
      isplitl [O5]; · iexact O5
      isplitl [O6]; · iexact O6
      isplitl [O7]; · iexact O7
      isplitl [O8]; · iexact O8
      isplitl [O9]; · iexact O9
      isplitl [O10]; · iexact O10
      isplitl [O11]; · iexact O11
      isplitl [O12]; · iexact O12
      isplitl [O13]; · iexact O13
      isplitl [O14]; · iexact O14
      iexact O15
    · iexact HS
  · iexact Hg

/-- And conversely: forgetting what the accumulator holds gives the entry invariant back. -/
theorem PhiA3_out (c : Dev nD) :
    iprop(iprop(others3 c ∗ (∃ d, owns (c : Thread nD τ) scM3_0 fullShare d)) ∗ (∃ r, prngReg c r)) ⊢ (Pipeline.ΦA spec3 c : sProp 𝕄) := by
  unfold Pipeline.ΦA; rw [scopedRest3_eq]; unfold others3; simp only [scM3_0, owns_whole]
  iintro ⟨⟨⟨O1, O2, O3, O4, O5, O6, O7, O8, O9, O10, O11, O12, O13, O14, O15⟩, HS⟩, Hg⟩
  isplitr [Hg]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    isplitl [O13]; · iexact O13
    isplitl [O14]; · iexact O14
    isplitl [O15]; · iexact O15
    iexact HS
  · iexact Hg

end Cert.KernelIdeal.Hand

end
-- ==== Proof.KiR3RunA.lean ====
import proofs.«104698_j48498770707162_1_alg».proof.Proof.KiR3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-sum reduction at the FIRST grid point

The body loads the accumulator (whatever it holds), overwrites it with zeros, loads it back, loads the block, and
stores zeros-plus-column-sums over it; the copy to the output window is skipped. -/

set_option maxHeartbeats 1000000 in
/-- What the body's stores leave, as pieces (last first), at the first point (first-point test true, last-point test
    false), with the proof that on whole memrefs — the block at `x0`, the output window at contents `xi1` handed back
    untouched, the accumulator at anything — the body runs to the continuation holding the block as it was, the output
    window as it was, and the accumulator with its pieces written. The pieces are the witness the run finds. -/
noncomputable def kernelRun3_A (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond3_0 i) (hc1 : ¬cond3_1 i)
    (x0 : Vec F S5000x64 .f32) :
    Σ' (L1 : List (View.Piece (Elt F) S1x64 .f32)), { LS0 : List (View.Piece (Elt F) S1x64 .f32) //
      ∀ (xi1 : Vec F S1x64 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc3__sum_reduce_kernel i arg1 harg1 arg2 harg2 arg3 harg3) K } := by
  refine ⟨[], ?_, fun xi1 E K => ?run⟩
  case run =>
    simp only [cc3__sum_reduce_kernel_eq_skeleton]; unfold cc3__sum_reduce_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KiR3RunB.lean ====
import proofs.«104698_j48498770707162_1_alg».proof.Proof.KiR3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-sum reduction at a MIDDLE grid point

The body loads the accumulator and the block and stores accumulator-plus-column-sums over the accumulator; neither
the zeroing nor the copy to the output window happens. -/

set_option maxHeartbeats 1000000 in
/-- What the body's stores leave, as pieces (last first), at a middle point (both tests false), with the proof that on
    whole memrefs — the block at `x0`, the output window at contents `xi1` handed back untouched, the accumulator at
    what the point before left, `xs0` — the body runs to the continuation holding the block and the output window as
    they were and the accumulator with its pieces written. -/
noncomputable def kernelRun3_B (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : ¬cond3_1 i)
    (x0 : Vec F S5000x64 .f32) (xs0 : Vec F S1x64 .f32) :
    Σ' (L1 : List (View.Piece (Elt F) S1x64 .f32)), { LS0 : List (View.Piece (Elt F) S1x64 .f32) //
      ∀ (xi1 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc3__sum_reduce_kernel i arg1 harg1 arg2 harg2 arg3 harg3) K } := by
  refine ⟨[], ?_, fun xi1 E K => ?run⟩
  case run =>
    simp only [cc3__sum_reduce_kernel_eq_skeleton]; unfold cc3__sum_reduce_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KiR3RunC.lean ====
import proofs.«104698_j48498770707162_1_alg».proof.Proof.KiR3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-sum reduction at the LAST grid point

The body accumulates as at a middle point, then loads the accumulator and the output window and stores the
accumulator over the output window. -/

set_option maxHeartbeats 1000000 in
/-- What the body's stores leave, as pieces (last first), at the last point (first-point test false, last-point test
    true), with the proof that on whole memrefs — the block at `x0`, the output window at anything, the accumulator at
    what the point before left, `xs0` — the body runs to the continuation holding the block as it was and the output
    window and the accumulator each with its pieces written. -/
noncomputable def kernelRun3_C (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : cond3_1 i)
    (x0 : Vec F S5000x64 .f32) (xs0 : Vec F S1x64 .f32) :
    Σ' (L1 : List (View.Piece (Elt F) S1x64 .f32)), { LS0 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc3__sum_reduce_kernel i arg1 harg1 arg2 harg2 arg3 harg3) K } := by
  refine ⟨?_, ?_, fun E K => ?run⟩
  case run =>
    simp only [cc3__sum_reduce_kernel_eq_skeleton]; unfold cc3__sum_reduce_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Hand

end
-- ==== Proof.KiR3.lean ====
import proofs.«104698_j48498770707162_1_alg».proof.Proof.KiR3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-sum reduction: what each point leaves, the invariant, and the body obligation -/

/-! ## The grid coordinate's two tests, per kind of point -/

theorem first3 (t : Fin cfg3.N) (h : t.val = 0) : cond3_0 (grid3.coords t) := (hcond3_0 t).mpr (by rw [h])
theorem not_first3 (t : Fin cfg3.N) (h : t.val ≠ 0) : ¬cond3_0 (grid3.coords t) := fun hc => by
  have h0 := (hcond3_0 t).mp hc
  have hN : t.val < 10 := lt_of_lt_of_eq t.isLt (show cfg3.N = 10 from N_3)
  omega
theorem not_last3_of_first (t : Fin cfg3.N) (h : t.val = 0) : ¬cond3_1 (grid3.coords t) := fun hc => by
  have h1 := (hcond3_1 t).mp hc
  omega

/-! ## What each kind of point leaves in the output window and in the accumulator -/

/-- The first point stores nothing into the output window (idle there and not written back): no pieces, a placeholder nothing consults. -/
def out3_A_1 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond3_0 i) (hc1 : ¬cond3_1 i)
    (x0 : Vec F S5000x64 .f32) : Vec F S1x64 .f32 :=
  VO3_1.read (Elt F) (VO3_1.writes (Elt F) VO3_1.junk (kernelRun3_A c i arg1 harg1 arg2 harg2 arg3 harg3 hc0 hc1 x0).1)

/-- The accumulator's pieces cover it: every store into it is of the whole `[1,64]` block. -/
theorem scover3_A_0 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond3_0 i) (hc1 : ¬cond3_1 i)
    (x0 : Vec F S5000x64 .f32) (y : S1x64.Idx) :
    ∃ pc ∈ (kernelRun3_A c i arg1 harg1 arg2 harg2 arg3 harg3 hc0 hc1 x0).2.1, y ∈ pc.1.set :=
  View.cover_of_tiledL (kernelRun3_A c i arg1 harg1 arg2 harg2 arg3 harg3 hc0 hc1 x0).2.1 S1x64.size (by sl_kernel_rfl) y

/-- What the accumulator holds afterwards: its pieces read back. -/
def sout3_A_0 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond3_0 i) (hc1 : ¬cond3_1 i)
    (x0 : Vec F S5000x64 .f32) : Vec F S1x64 .f32 :=
  VS3_0.read (Elt F) (VS3_0.writes (Elt F) VS3_0.junk (kernelRun3_A c i arg1 harg1 arg2 harg2 arg3 harg3 hc0 hc1 x0).2.1)

/-- The middle point stores nothing into the output window (idle there and not written back): no pieces, a placeholder nothing consults. -/
def out3_B_1 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : ¬cond3_1 i)
    (x0 : Vec F S5000x64 .f32) (xs0 : Vec F S1x64 .f32) : Vec F S1x64 .f32 :=
  VO3_1.read (Elt F) (VO3_1.writes (Elt F) VO3_1.junk (kernelRun3_B c i arg1 harg1 arg2 harg2 arg3 harg3 hc0 hc1 x0 xs0).1)

/-- The accumulator's pieces cover it: every store into it is of the whole `[1,64]` block. -/
theorem scover3_B_0 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : ¬cond3_1 i)
    (x0 : Vec F S5000x64 .f32) (xs0 : Vec F S1x64 .f32) (y : S1x64.Idx) :
    ∃ pc ∈ (kernelRun3_B c i arg1 harg1 arg2 harg2 arg3 harg3 hc0 hc1 x0 xs0).2.1, y ∈ pc.1.set :=
  View.cover_of_tiledL (kernelRun3_B c i arg1 harg1 arg2 harg2 arg3 harg3 hc0 hc1 x0 xs0).2.1 S1x64.size (by sl_kernel_rfl) y

/-- What the accumulator holds afterwards: its pieces read back. -/
def sout3_B_0 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : ¬cond3_1 i)
    (x0 : Vec F S5000x64 .f32) (xs0 : Vec F S1x64 .f32) : Vec F S1x64 .f32 :=
  VS3_0.read (Elt F) (VS3_0.writes (Elt F) VS3_0.junk (kernelRun3_B c i arg1 harg1 arg2 harg2 arg3 harg3 hc0 hc1 x0 xs0).2.1)

/-- What the last point leaves in the output window's staging buffer: its pieces read back. -/
def out3_C_1 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : cond3_1 i)
    (x0 : Vec F S5000x64 .f32) (xs0 : Vec F S1x64 .f32) : Vec F S1x64 .f32 :=
  VO3_1.read (Elt F) (VO3_1.writes (Elt F) VO3_1.junk (kernelRun3_C c i arg1 harg1 arg2 harg2 arg3 harg3 hc0 hc1 x0 xs0).1)

/-- Its one whole-block store covers the output window's block. -/
theorem cover3_C_1 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : cond3_1 i)
    (x0 : Vec F S5000x64 .f32) (xs0 : Vec F S1x64 .f32) (y : S1x64.Idx) :
    ∃ pc ∈ (kernelRun3_C c i arg1 harg1 arg2 harg2 arg3 harg3 hc0 hc1 x0 xs0).1, y ∈ pc.1.set :=
  View.cover_of_tiledL (kernelRun3_C c i arg1 harg1 arg2 harg2 arg3 harg3 hc0 hc1 x0 xs0).1 S1x64.size (by sl_kernel_rfl) y

/-- The accumulator's pieces cover it: every store into it is of the whole `[1,64]` block. -/
theorem scover3_C_0 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : cond3_1 i)
    (x0 : Vec F S5000x64 .f32) (xs0 : Vec F S1x64 .f32) (y : S1x64.Idx) :
    ∃ pc ∈ (kernelRun3_C c i arg1 harg1 arg2 harg2 arg3 harg3 hc0 hc1 x0 xs0).2.1, y ∈ pc.1.set :=
  View.cover_of_tiledL (kernelRun3_C c i arg1 harg1 arg2 harg2 arg3 harg3 hc0 hc1 x0 xs0).2.1 S1x64.size (by sl_kernel_rfl) y

/-- What the accumulator holds afterwards: its pieces read back. -/
def sout3_C_0 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : cond3_1 i)
    (x0 : Vec F S5000x64 .f32) (xs0 : Vec F S1x64 .f32) : Vec F S1x64 .f32 :=
  VS3_0.read (Elt F) (VS3_0.writes (Elt F) VS3_0.junk (kernelRun3_C c i arg1 harg1 arg2 harg2 arg3 harg3 hc0 hc1 x0 xs0).2.1)

/-! ## The accumulation, point by point -/

-- the core's buffer contents when the call is entered
variable (V : (c : Dev nD) → (b : Ref sig .tc) → Buf (Elt F) ((c : Thread nD τ).loc b))

/-- What the output window's staging buffer and the accumulator hold after the body at position `n`: the first point
    run on the point's block; a later point run on its block and on what the accumulator held after the point before,
    the last of them also storing into the output window. -/
def outsAt3 (c : Dev nD) : (n : ℕ) → n < cfg3.N → Vec F S1x64 .f32 × Vec F S1x64 .f32
  | 0, hn => (out3_A_1 c (grid3.coords ⟨0, hn⟩) (ms3_0 ⟨0, hn⟩) (hs3_0 ⟨0, hn⟩) (ms3_1 ⟨0, hn⟩) (hs3_1 ⟨0, hn⟩) scM3_0 (Memref.isWhole_whole _) (first3 ⟨0, hn⟩ rfl) (not_last3_of_first ⟨0, hn⟩ rfl) (iblk3 V c 0 ⟨0, hn⟩), sout3_A_0 c (grid3.coords ⟨0, hn⟩) (ms3_0 ⟨0, hn⟩) (hs3_0 ⟨0, hn⟩) (ms3_1 ⟨0, hn⟩) (hs3_1 ⟨0, hn⟩) scM3_0 (Memref.isWhole_whole _) (first3 ⟨0, hn⟩ rfl) (not_last3_of_first ⟨0, hn⟩ rfl) (iblk3 V c 0 ⟨0, hn⟩))
  | n + 1, hn =>
    if h1 : (n + 1) % 10 = 9 then
      (out3_C_1 c (grid3.coords ⟨n + 1, hn⟩) (ms3_0 ⟨n + 1, hn⟩) (hs3_0 ⟨n + 1, hn⟩) (ms3_1 ⟨n + 1, hn⟩) (hs3_1 ⟨n + 1, hn⟩) scM3_0 (Memref.isWhole_whole _) (not_first3 ⟨n + 1, hn⟩ (Nat.succ_ne_zero n)) ((hcond3_1 ⟨n + 1, hn⟩).mpr h1) (iblk3 V c 0 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) scM3_0 (Memref.isWhole_whole _) (not_first3 ⟨n + 1, hn⟩ (Nat.succ_ne_zero n)) ((hcond3_1 ⟨n + 1, hn⟩).mpr h1) (iblk3 V c 0 ⟨n + 1, hn⟩) (outsAt3 c n (Nat.lt_of_succ_lt hn)).2)
    else
      (out3_B_1 c (grid3.coords ⟨n + 1, hn⟩) (ms3_0 ⟨n + 1, hn⟩) (hs3_0 ⟨n + 1, hn⟩) (ms3_1 ⟨n + 1, hn⟩) (hs3_1 ⟨n + 1, hn⟩) scM3_0 (Memref.isWhole_whole _) (not_first3 ⟨n + 1, hn⟩ (Nat.succ_ne_zero n)) (fun h => h1 ((hcond3_1 ⟨n + 1, hn⟩).mp h)) (iblk3 V c 0 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) scM3_0 (Memref.isWhole_whole _) (not_first3 ⟨n + 1, hn⟩ (Nat.succ_ne_zero n)) (fun h => h1 ((hcond3_1 ⟨n + 1, hn⟩).mp h)) (iblk3 V c 0 ⟨n + 1, hn⟩) (outsAt3 c n (Nat.lt_of_succ_lt hn)).2)

/-- At the first point. -/
theorem outsAt3_A (c : Dev nD) (t : Fin cfg3.N) (h0 : t.val = 0) :
    outsAt3 V c t.val t.isLt = (out3_A_1 c (grid3.coords t) (ms3_0 t) (hs3_0 t) (ms3_1 t) (hs3_1 t) scM3_0 (Memref.isWhole_whole _) (first3 t h0) (not_last3_of_first t h0) (iblk3 V c 0 t), sout3_A_0 c (grid3.coords t) (ms3_0 t) (hs3_0 t) (ms3_1 t) (hs3_1 t) scM3_0 (Memref.isWhole_whole _) (first3 t h0) (not_last3_of_first t h0) (iblk3 V c 0 t)) := by
  obtain ⟨n, hn⟩ := t
  cases n with
  | zero => exact rfl
  | succ n => exact absurd h0 (Nat.succ_ne_zero n)

/-- At a middle point: over what the point before left in the accumulator. -/
theorem outsAt3_B (c : Dev nD) (t : Fin cfg3.N) (h0 : t.val ≠ 0) (h1 : ¬t.val % 10 = 9) :
    outsAt3 V c t.val t.isLt = (out3_B_1 c (grid3.coords t) (ms3_0 t) (hs3_0 t) (ms3_1 t) (hs3_1 t) scM3_0 (Memref.isWhole_whole _) (not_first3 t h0) (fun h => h1 ((hcond3_1 t).mp h)) (iblk3 V c 0 t) (outsAt3 V c (t.val - 1) (Nat.lt_of_le_of_lt (Nat.sub_le _ _) t.isLt)).2, sout3_B_0 c (grid3.coords t) (ms3_0 t) (hs3_0 t) (ms3_1 t) (hs3_1 t) scM3_0 (Memref.isWhole_whole _) (not_first3 t h0) (fun h => h1 ((hcond3_1 t).mp h)) (iblk3 V c 0 t) (outsAt3 V c (t.val - 1) (Nat.lt_of_le_of_lt (Nat.sub_le _ _) t.isLt)).2) := by
  obtain ⟨n, hn⟩ := t
  cases n with
  | zero => exact absurd rfl h0
  | succ n => exact (dif_neg h1).trans rfl

/-- At the last point: likewise. -/
theorem outsAt3_C (c : Dev nD) (t : Fin cfg3.N) (h0 : t.val ≠ 0) (h1 : t.val % 10 = 9) :
    outsAt3 V c t.val t.isLt = (out3_C_1 c (grid3.coords t) (ms3_0 t) (hs3_0 t) (ms3_1 t) (hs3_1 t) scM3_0 (Memref.isWhole_whole _) (not_first3 t h0) ((hcond3_1 t).mpr h1) (iblk3 V c 0 t) (outsAt3 V c (t.val - 1) (Nat.lt_of_le_of_lt (Nat.sub_le _ _) t.isLt)).2, sout3_C_0 c (grid3.coords t) (ms3_0 t) (hs3_0 t) (ms3_1 t) (hs3_1 t) scM3_0 (Memref.isWhole_whole _) (not_first3 t h0) ((hcond3_1 t).mpr h1) (iblk3 V c 0 t) (outsAt3 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between points -/

/-- Before position `n`: at the start what the call is entered with; afterwards the other calls' staging buffers at
    anything, the accumulator at what the point before left in it, and the generator register at some state. -/
def PhiS3 (c : Dev nD) : (n : ℕ) → n ≤ cfg3.N → sProp 𝕄
  | 0, _ => Pipeline.ΦA spec3 c
  | n + 1, hn => iprop(iprop(others3 c ∗ owns (c : Thread nD τ) scM3_0 fullShare ((outsAt3 V c n hn).2)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(others3 c ∗ owns (c : Thread nD τ) scM3_0 fullShare ((outsAt3 V c n hn).2)) ∗ (∃ r, prngReg c r)) := rfl

theorem PhiS3_pos (c : Dev nD) (n : ℕ) (h : n ≤ cfg3.N) (hz : n ≠ 0) :
    PhiS3 V c n h = iprop(iprop(others3 c ∗ owns (c : Thread nD τ) scM3_0 fullShare ((outsAt3 V c (n - 1) (by omega)).2)) ∗ (∃ r, prngReg c r)) := by
  cases n with
  | zero => exact absurd rfl hz
  | succ n => rfl

/-! ## The proof data -/

/-- The arrays as the call finds them; after the body at point `t` the input window's buffer at its block and the
    output window's at the accumulation's first component; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = (outsAt3 V c t.val t.isLt).1 := by dsimp only [dat3]

/-- The input window's current staging buffer holds its block at every point. -/
theorem before3_0 (c : Dev nD) (t : Fin cfg3.N) (d) : (dat3 V c).before 0 t d = iblk3 V c 0 t :=
  before3_0_of V (dat3 V c) (A_eq3 V c 0) (after3_0 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 4800000 in
/-- The body at any point. The input's memref holds its block; which kind of point it is is read off the closed forms;
    the invariant hands the body the accumulator (at anything at the first point, at what the point before left
    otherwise) and takes it back at this point's contents, the accumulator's pieces covering it; the output window is
    handed back untouched where it is idle, and with its one store where it is live; the other calls' staging buffers
    and the generator register pass through; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  by_cases hz : t.val = 0
  · -- the first point
    rw [show (dat3 V c).leavesExact 0 t = owns (c : Thread nD τ) (ms3_0 t) fullShare ((dat3 V c).after 0 t) from by
      unfold Dat.leavesExact; rw [liveAt3_0 t], after3_0]
    rw [Dat.leavesExact_idle (dat3 V c) 1 t (idleAt3_1 t (not_last3_of_first t hz)) (noFlush3_1 t (not_last3_of_first t hz))]
    rw [outsAt3_A V c t hz]
    unfold sout3_A_0; (try dsimp only)
    rw [PhiS3_castSucc V c t, PhiS3_zero V c _ _ hz]
    iintro ⟨HA, Ho, ⟨%d0, H0⟩, ⟨%d1, H1⟩⟩
    icases PhiA3_in c $$ HA with ⟨⟨HO, HS0⟩, Hg⟩
    iapply ((kernelRun3_A c (grid3.coords t) _ _ _ _ _ _ (first3 t hz) (not_last3_of_first t hz) (iblk3 V c 0 t)).2.2 _ Set.univ _)
    isplitl [H0]; · iexact H0
    isplitl [H1]; · iexact H1
    isplitl [HS0]; · iexact HS0
    iintro ⟨H0, H1, ⟨%es0, HS0⟩⟩
    isplitl [HO HS0 Hg]
    · isplitl [HO HS0]
      · isplitl [HO]; · iexact HO
        unfold owns; iexists _; isplitr
        swap; · iexact HS0
        ipureintro; exact View.read_writes_of_cover _ _ _ _ _ (scover3_A_0 c _ _ _ _ _ _ _ _ _ _)
      iexact Hg
    isplitl [Ho]; · iexact Ho
    isplitl [H0]; · iexact H0
    iexists _; iexact H1
  · by_cases h1 : t.val % 10 = 9
    · -- the last point
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t ((hcond3_1 t).mpr h1)], after3_1]
      rw [outsAt3_C V c t hz h1]
      unfold out3_C_1 sout3_C_0; (try dsimp only)
      rw [PhiS3_castSucc V c t, PhiS3_pos V c _ _ hz]
      iintro ⟨⟨⟨HO, HS0⟩, Hg⟩, Ho, ⟨%d0, H0⟩, ⟨%d1, H1⟩⟩
      iapply ((kernelRun3_C c (grid3.coords t) _ _ _ _ _ _ (not_first3 t hz) ((hcond3_1 t).mpr h1) (iblk3 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HO HS0 Hg]
      · isplitl [HO HS0]
        · isplitl [HO]; · iexact HO
          unfold owns; iexists _; isplitr
          swap; · iexact HS0
          ipureintro; exact View.read_writes_of_cover _ _ _ _ _ (scover3_C_0 c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover3_C_1 c _ _ _ _ _ _ _ _ _ _ _)
    · -- a middle point
      rw [show (dat3 V c).leavesExact 0 t = owns (c : Thread nD τ) (ms3_0 t) fullShare ((dat3 V c).after 0 t) from by
        unfold Dat.leavesExact; rw [liveAt3_0 t], after3_0]
      rw [Dat.leavesExact_idle (dat3 V c) 1 t (idleAt3_1 t (fun h => h1 ((hcond3_1 t).mp h))) (noFlush3_1 t (fun h => h1 ((hcond3_1 t).mp h)))]
      rw [outsAt3_B V c t hz h1]
      unfold sout3_B_0; (try dsimp only)
      rw [PhiS3_castSucc V c t, PhiS3_pos V c _ _ hz]
      iintro ⟨⟨⟨HO, HS0⟩, Hg⟩, Ho, ⟨%d0, H0⟩, ⟨%d1, H1⟩⟩
      iapply ((kernelRun3_B c (grid3.coords t) _ _ _ _ _ _ (not_first3 t hz) (fun h => h1 ((hcond3_1 t).mp h)) (iblk3 V c 0 t) _).2.2 _ Set.univ _)
      isplitl [H0]; · iexact H0
      isplitl [H1]; · iexact H1
      isplitl [HS0]; · iexact HS0
      iintro ⟨H0, H1, ⟨%es0, HS0⟩⟩
      isplitl [HO HS0 Hg]
      · isplitl [HO HS0]
        · isplitl [HO]; · iexact HO
          unfold owns; iexists _; isplitr
          swap; · iexact HS0
          ipureintro; exact View.read_writes_of_cover _ _ _ _ _ (scover3_B_0 c _ _ _ _ _ _ _ _ _ _ _)
        iexact Hg
      isplitl [Ho]; · iexact Ho
      isplitl [H0]; · iexact H0
      iexists _; iexact H1

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the call is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- Forgetting what the accumulator holds, at any contents `x`, gives the entry invariant back. -/
theorem forget3 (c : Dev nD) (x : Vec F S1x64 .f32) :
    iprop(iprop(others3 c ∗ owns (c : Thread nD τ) scM3_0 fullShare x) ∗ (∃ r, prngReg c r)) ⊢ (Pipeline.ΦA spec3 c : sProp 𝕄) :=
  (show iprop(iprop(others3 c ∗ owns (c : Thread nD τ) scM3_0 fullShare x) ∗ (∃ r, prngReg c r))
      ⊢ iprop(iprop(others3 c ∗ (∃ d, owns (c : Thread nD τ) scM3_0 fullShare d)) ∗ (∃ r, prngReg c r)) from by
    iintro ⟨⟨HO, HS0⟩, Hg⟩
    isplitl [HO HS0]
    · isplitl [HO]; · iexact HO
      iexists _; iexact HS0
    iexact Hg).trans (PhiA3_out c)

/-- After any point the invariant gives the entry invariant back. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  exact forget3 c _

/-- In particular after the last. -/
theorem hout3 (c : Dev nD) : (dat3 V c).Φ (Fin.last cfg3.N) ⊢ Pipeline.ΦA spec3 c :=
  Phi_out3 V c _ (by rw [Fin.val_last]; have : cfg3.N = 10 := N_3; omega)

end Cert.KernelIdeal.Hand

end
-- ==== Proof.KiFold3.lean ====
/-
  The contents of a core's unscoped buffers after the last region (the sum over the nodes) and at the return.
-/
import proofs.«104698_j48498770707162_1_alg».proof.Proof.KiFold
import proofs.«104698_j48498770707162_1_alg».proof.Proof.KiR3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 3's exit: its arrays at what the pipeline leaves (an input's as entered, the output's write-backs folded),
    every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The same read at the TensorCore's references. -/
abbrev V9 : (c : Dev nD) → (b : Ref sig .tc) → Buf (Elt F) ((c : Thread nD τ).loc b) := fun c b => W9 m c b
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)

/-- Region 3 changes one array only, its output `main_v62`: an input window's array is put back as it was found, and
    every other buffer is untouched. -/
theorem W9_keep (c : Dev nD) (b : Ref sig .tc) (hb : b ≠ main_v62) : W9 m c (Proc.devRef .tc b) = W8 m c (Proc.devRef .tc b) := by
  by_cases h0 : Pipeline.arrRef spec3 0 = b
  · subst h0; exact (W9_arr m c 0).trans (((dat3 (V8 m) c).arrAt_in 0 rfl _).trans (A_eq3 (V8 m) c 0))
  refine W9_of_ne m c b fun w => ?_
  match w with
  | ⟨0, _⟩ => exact h0
  | ⟨1, _⟩ => exact fun e => hb e.symm

/-- After the last host stretch (the division by the node count and the bias): the contents at the return. -/
abbrev W10 : Dev nD → Valuation τ sig (Elt F) := fun c => StableHlo.after hostOps4 (W9 m c)

end Cert.KernelIdeal.Hand

end
-- ==== Proof.KiRun.lean ====
/-
  The run of @main as ten segments: host stretches and the four kernel regions, in order. Between two segments every
  unscoped buffer of a core is held at a named contents: the launch memory, then each host stretch's operations applied,
  then, after a region, that region's arrays at what its write-backs leave and every other buffer untouched. The run's
  conclusion reads all of them off the last contents; the frame and the value of the result are both read from it.
-/
import proofs.«104698_j48498770707162_1_alg».proof.Proof.Gen.KernelIdeal.Launch
import proofs.«104698_j48498770707162_1_alg».proof.Proof.Gen.KernelIdeal.Skeleton
import proofs.«104698_j48498770707162_1_alg».proof.Proof.Gen.KernelIdeal.Points
import proofs.«104698_j48498770707162_1_alg».proof.Proof.KiFold3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V6 m) c
  | ⟨3, _⟩ => fun c => dat3 (V8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem fresh4 : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 as a segment: entered with every unscoped buffer at `W3`, left with them at `W4`. Its windows' arrays
    are split out of the unscoped buffers on entry and put back, at what the write-backs leave, on exit; the generator
    register goes through the region's invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W5`, left with them at `W6`. Its windows' arrays
    are split out of the unscoped buffers on entry and put back, at what the write-backs leave, on exit; the generator
    register goes through the region's invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W6`, left with them at `W7`. Its windows' arrays
    are split out of the unscoped buffers on entry and put back, at what the write-backs leave, on exit; the generator
    register goes through the region's invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W8`, left with them at `W9`. Its windows' arrays
    are split out of the unscoped buffers on entry and put back, at what the write-backs leave, on exit; the generator
    register goes through the region's invariant; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V8 m) c).Φ 0 from rfl]
    refine BI.Entails.trans ?_ (hin3 (V8 m) c)
    unfold Pipeline.ΦA
    show (_ : sProp 𝕄) ⊢ (_ : sProp 𝕄)
    iintro ⟨Hp, -, Hr⟩
    isplitl [Hr]; · iexact Hr
    iexact Hp
  hout c := by
    rw [Pipeline.ownSems0_none, show (pdats m 3 c).Φ (Fin.last _) = (dat3 (V8 m) c).Φ (Fin.last cfg3.N) from rfl]
    refine BI.Entails.trans (hout3 (V8 m) c) ?_
    unfold Pipeline.ΦA
    show (_ : sProp 𝕄) ⊢ (_ : sProp 𝕄)
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m) () defs₀ 𝒱₀ L lv) :=
  [ .host (hseg hostOps0 hostOps0_sub fresh0 (W0 m)),
    .host (hseg hostOps0_1 hostOps0_1_sub fresh0_1 (W1 m)),
    .host (hseg hostOps0_2 hostOps0_2_sub fresh0_2 (W2 m)),
    .region (reg0 m),
    .host (hseg hostOps1 hostOps1_sub fresh1 (W4 m)),
    .region (reg1 m),
    .region (reg2 m),
    .host (hseg hostOps3 hostOps3_sub fresh3 (W7 m)),
    .region (reg3 m),
    .host (hseg hostOps4 hostOps4_sub fresh4 (W9 m)) ]

variable (ρ : Dev nD → PrngReg)

set_option backward.isDefEq.respectTransparency.types false in
/-- THE RUN: from any memory with zero counters every weakly fair execution of @main on the TensorCores terminates, nothing
    faulting, and in every final state each unscoped buffer of each core holds the last boundary's contents `W10`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := fun c => ⟨.rfl, .rfl, .rfl, .rfl, .rfl, .rfl, .rfl, .rfl, .rfl, .rfl, by
      show (iprop(StableHlo.held (c : Thread nD τ) (Pipeline.ucRefs τ sig) (W10 m c) ∗ R c) : sProp 𝕄)
        ⊢ iprop(Tlast m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Hand

end
-- ==== Proof.KiKeep.lean ====
/-
  A buffer that a host stretch of @main does not write holds after the stretch what it held before it.
-/
import proofs.«104698_j48498770707162_1_alg».proof.Proof.Gen.KernelIdeal.Launch
import proofs.«104698_j48498770707162_1_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

theorem keep0 (r : Ref sig .tc) (h : r ∉ hostOps0_W) : StableHlo.after hostOps0 W (Proc.devRef .tc r) = W (Proc.devRef .tc r) :=
  StableHlo.after_of_writes_sub hostOps0 _ hostOps0_writes h
theorem keep01 (r : Ref sig .tc) (h : r ∉ hostOps0_1_W) : StableHlo.after hostOps0_1 W (Proc.devRef .tc r) = W (Proc.devRef .tc r) :=
  StableHlo.after_of_writes_sub hostOps0_1 _ hostOps0_1_writes h
theorem keep02 (r : Ref sig .tc) (h : r ∉ hostOps0_2_W) : StableHlo.after hostOps0_2 W (Proc.devRef .tc r) = W (Proc.devRef .tc r) :=
  StableHlo.after_of_writes_sub hostOps0_2 _ hostOps0_2_writes h
theorem keep1 (r : Ref sig .tc) (h : r ∉ hostOps1_W) : StableHlo.after hostOps1 W (Proc.devRef .tc r) = W (Proc.devRef .tc r) :=
  StableHlo.after_of_writes_sub hostOps1 _ hostOps1_writes h
theorem keep3 (r : Ref sig .tc) (h : r ∉ hostOps3_W) : StableHlo.after hostOps3 W (Proc.devRef .tc r) = W (Proc.devRef .tc r) :=
  StableHlo.after_of_writes_sub hostOps3 _ hostOps3_writes h
theorem keep4 (r : Ref sig .tc) (h : r ∉ hostOps4_W) : StableHlo.after hostOps4 W (Proc.devRef .tc r) = W (Proc.devRef .tc r) :=
  StableHlo.after_of_writes_sub hostOps4 _ hostOps4_writes h

end Cert.KernelIdeal.Hand

end
-- ==== Proof.KiFrame.lean ====
/-
  The frame of @main: every weakly fair execution terminates without a fault and leaves the six argument arrays as
  launched. No host operation writes an argument and a region puts an input window's array back as it found it, so the
  last boundary's contents at an argument walk back to the launch memory.
-/
import proofs.«104698_j48498770707162_1_alg».proof.Proof.KiRun
import proofs.«104698_j48498770707162_1_alg».proof.Proof.KiKeep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An argument array at the return is its launch contents. -/
theorem W10_arg (c : Dev nD) (r : Ref sig .tc) (h0 : r ∉ hostOps0_W) (h01 : r ∉ hostOps0_1_W) (h02 : r ∉ hostOps0_2_W) (h32 : r ≠ main_v32)
    (h1 : r ∉ hostOps1_W) (h47 : r ≠ main_v47) (h48 : r ≠ main_v48) (h3 : r ∉ hostOps3_W) (h62 : r ≠ main_v62) (h4 : r ∉ hostOps4_W) :
    W10 m c (Proc.devRef .tc r) = m ((c : Thread nD τ).loc r) :=
  (keep4 (W9 m c) r h4).trans <| (W9_keep m c r h62).trans <| (keep3 (W7 m c) r h3).trans <| (W7_keep m c r h48).trans <|
    (W6_keep m c r h47).trans <| (keep1 (W4 m c) r h1).trans <| (W4_keep m c r h32).trans <| (keep02 (W2 m c) r h02).trans <|
    (keep01 (W1 m c) r h01).trans <| (keep0 (W0 m c) r h0).trans rfl

variable (ρ : Dev nD → PrngReg)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W10_arg m c main_arg0 (by decide) (by decide) (by decide) (by decide) (by decide) (by decide) (by decide) (by decide) (by decide) (by decide)),
    (h c _ (mem_uc main_arg1 (by decide))).trans (W10_arg m c main_arg1 (by decide) (by decide) (by decide) (by decide) (by decide) (by decide) (by decide) (by decide) (by decide) (by decide)),
    (h c _ (mem_uc main_arg2 (by decide))).trans (W10_arg m c main_arg2 (by decide) (by decide) (by decide) (by decide) (by decide) (by decide) (by decide) (by decide) (by decide) (by decide)),
    (h c _ (mem_uc main_arg3 (by decide))).trans (W10_arg m c main_arg3 (by decide) (by decide) (by decide) (by decide) (by decide) (by decide) (by decide) (by decide) (by decide) (by decide)),
    (h c _ (mem_uc main_arg4 (by decide))).trans (W10_arg m c main_arg4 (by decide) (by decide) (by decide) (by decide) (by decide) (by decide) (by decide) (by decide) (by decide) (by decide)),
    (h c _ (mem_uc main_arg5 (by decide))).trans (W10_arg m c main_arg5 (by decide) (by decide) (by decide) (by decide) (by decide) (by decide) (by decide) (by decide) (by decide) (by decide))⟩)
    (run_all m ρ)

/-- The same run with the result buffer read as well: it holds the last boundary's contents at `main_v66`. -/
theorem run_value : θ_run defs (onTc (τ := τ) (main (F := F))) ⟨m, fun _ => 0, ρ⟩ (fun r => ∀ c : Dev nD,
      r.2.mem ((c.tc : Thread nD τ).loc main_v66) = W10 m c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨h c _ (mem_uc main_v66 (by decide)),
    (h c _ (mem_uc main_arg0 (by decide))).trans (W10_arg m c main_arg0 (by decide) (by decide) (by decide) (by decide) (by decide) (by decide) (by decide) (by decide) (by decide) (by decide)),
    (h c _ (mem_uc main_arg1 (by decide))).trans (W10_arg m c main_arg1 (by decide) (by decide) (by decide) (by decide) (by decide) (by decide) (by decide) (by decide) (by decide) (by decide)),
    (h c _ (mem_uc main_arg2 (by decide))).trans (W10_arg m c main_arg2 (by decide) (by decide) (by decide) (by decide) (by decide) (by decide) (by decide) (by decide) (by decide) (by decide)),
    (h c _ (mem_uc main_arg3 (by decide))).trans (W10_arg m c main_arg3 (by decide) (by decide) (by decide) (by decide) (by decide) (by decide) (by decide) (by decide) (by decide) (by decide)),
    (h c _ (mem_uc main_arg4 (by decide))).trans (W10_arg m c main_arg4 (by decide) (by decide) (by decide) (by decide) (by decide) (by decide) (by decide) (by decide) (by decide) (by decide)),
    (h c _ (mem_uc main_arg5 (by decide))).trans (W10_arg m c main_arg5 (by decide) (by decide) (by decide) (by decide) (by decide) (by decide) (by decide) (by decide) (by decide) (by decide))⟩)
    (run_all m ρ)

end Cert.KernelIdeal.Hand

end
-- ==== Proof.KiSpec.lean ====
/-
  The host-side pieces of the two-layer graph convolution, each as one named function of its inputs, spelt with this
  program's own shape and dimension records: the source and destination node of every edge with the self loops appended,
  the wrap of a possibly negative index, a node's degree, its reciprocal square root (zero for an isolated node), an
  edge's weight (the product of its two endpoints' reciprocal square roots), and the weighted sum over incoming edges of
  the source rows (a gather along the sources, a scaling by the edge weights, a scatter-add into the destinations).
-/
import proofs.«104698_j48498770707162_1_alg».proof.Proof.Gen.KernelIdeal

noncomputable section

namespace Cert.KernelIdeal.Spec

open Cert.KernelIdeal Idealize.ShloMosaic

variable {F : FTy → Type} [FloatOps F]
open Cert.KernelIdeal.Facts₀ Cert.KernelIdeal.Facts

/-- Row `r` (0: sources, 1: destinations) of the edge list, then the nodes themselves (the self loops). -/
def srcOf (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0
def dstOf (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- An index column: a negative index wraps around by the node count. -/
def wrapIdx (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- A node's degree: one per edge arriving at it. -/
def degOf (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

def posOf (g : (⟨S50000, .f32⟩ : BufTy).Contents (Elt F)) : (⟨S50000, .i1⟩ : BufTy).Contents (Elt F) :=
  cmpf (F := F) .ogt g (broadcastInDim S50000 ![] bcast_S_S50000 (constant S_ .f32 0x00000000#32))
def rsqOf (g : (⟨S50000, .f32⟩ : BufTy).Contents (Elt F)) : (⟨S50000, .f32⟩ : BufTy).Contents (Elt F) :=
  Host.rsqrt (maximumf g (broadcastInDim S50000 ![] bcast_S_S50000 (constant S_ .f32 0x3F800000#32)))
/-- The reciprocal square root of the degree where the degree is positive, zero elsewhere. -/
def disG (p : (⟨S50000, .i1⟩ : BufTy).Contents (Elt F)) (r : (⟨S50000, .f32⟩ : BufTy).Contents (Elt F)) (z : (⟨S_, .f32⟩ : BufTy).Contents (Elt F)) : (⟨S50000, .f32⟩ : BufTy).Contents (Elt F) :=
  select p r (broadcastInDim S50000 ![] bcast_S_S50000 (id z))
def disOf (d : (⟨S850000, .i32⟩ : BufTy).Contents (Elt F)) : (⟨S50000, .f32⟩ : BufTy).Contents (Elt F) :=
  disG (posOf (degOf d)) (rsqOf (degOf d)) (constant S_ .f32 0x00000000#32)

/-- An edge's weight: the product of the two factors at its source and at its destination. -/
def normG (q : (⟨S50000, .f32⟩ : BufTy).Contents (Elt F)) (s d : (⟨S850000, .i32⟩ : BufTy).Contents (Elt F)) : (⟨S850000, .f32⟩ : BufTy).Contents (Elt F) :=
  mulf (Host.gather gather_S50000_S850000x1_S850000_n_0_n_n_0_1_1 q (wrapIdx s)) (Host.gather gather_S50000_S850000x1_S850000_n_0_n_n_0_1_1 q (wrapIdx d))

/-- The weighted sum over incoming edges, 128 columns: rows of `h` gathered at the sources, scaled by the edge
    weights, added into the destinations' rows. -/
def aggG128 (h : (⟨S50000x128, .f32⟩ : BufTy).Contents (Elt F)) (s d : (⟨S850000, .i32⟩ : BufTy).Contents (Elt F)) (n : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 h (wrapIdx s)) (broadcastInDim S850000x128 ![0, 1] bcast_S850000x1_S850000x128_0_1 (broadcastInDim S850000x1 ![0] bcast_S850000_S850000x1_0 n)))
/-- The same with 64 columns. -/
def aggG64 (h : (⟨S50000x64, .f32⟩ : BufTy).Contents (Elt F)) (s d : (⟨S850000, .i32⟩ : BufTy).Contents (Elt F)) (n : (⟨S850000, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 d) (mulf (Host.gather gather_S50000x64_S850000x1_S850000x64_1_0_n_n_0_1_164 h (wrapIdx s)) (broadcastInDim S850000x64 ![0, 1] bcast_S850000x1_S850000x64_0_1 (broadcastInDim S850000x1 ![0] bcast_S850000_S850000x1_0 n)))

/-- Everything from the edge list. -/
def normOf (ei : (⟨S2x800000, .i32⟩ : BufTy).Contents (Elt F)) : (⟨S850000, .f32⟩ : BufTy).Contents (Elt F) :=
  normG (disOf (dstOf ei)) (srcOf ei) (dstOf ei)
def agg128 (h : (⟨S50000x128, .f32⟩ : BufTy).Contents (Elt F)) (ei : (⟨S2x800000, .i32⟩ : BufTy).Contents (Elt F)) : (⟨S50000x128, .f32⟩ : BufTy).Contents (Elt F) :=
  aggG128 h (srcOf ei) (dstOf ei) (normOf ei)
def agg64 (h : (⟨S50000x64, .f32⟩ : BufTy).Contents (Elt F)) (ei : (⟨S2x800000, .i32⟩ : BufTy).Contents (Elt F)) : (⟨S50000x64, .f32⟩ : BufTy).Contents (Elt F) :=
  aggG64 h (srcOf ei) (dstOf ei) (normOf ei)

end Cert.KernelIdeal.Spec

end
-- ==== Proof.KiRead.lean ====
/-
  Each host stretch of @main read back at the buffers the later segments use, from ANY contents `W` before the stretch:
  the stretch's operations composed, named by the functions of the host-side pieces.
-/
import proofs.«104698_j48498770707162_1_alg».proof.Proof.Gen.KernelIdeal.Launch
import proofs.«104698_j48498770707162_1_alg».proof.Proof.Gen.KernelIdeal.Regions
import proofs.«104698_j48498770707162_1_alg».proof.Proof.KiSpec
import proofs.«104698_j48498770707162_1_alg».proof.Proof.KiKeep
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

/-! ## The first stretch: the edges' endpoints, the degrees, the reciprocal square roots -/

theorem read0_v3 : StableHlo.after hostOps0 W (Proc.devRef .tc main_v3) = Spec.srcOf (W (Proc.devRef .tc main_arg1)) := by
  after_results <;> rfl
theorem read0_v6 : StableHlo.after hostOps0 W (Proc.devRef .tc main_v6) = Spec.dstOf (W (Proc.devRef .tc main_arg1)) := by
  after_results <;> rfl
theorem read0_v12 : StableHlo.after hostOps0 W (Proc.devRef .tc main_v12) = Spec.posOf (Spec.degOf (Spec.dstOf (W (Proc.devRef .tc main_arg1)))) := by
  after_results <;> rfl
theorem read0_v15 : StableHlo.after hostOps0 W (Proc.devRef .tc main_v15) = Spec.rsqOf (Spec.degOf (Spec.dstOf (W (Proc.devRef .tc main_arg1)))) := by
  after_results <;> rfl
theorem read0_cst3 : StableHlo.after hostOps0 W (Proc.devRef .tc main_cst_3) = (constant S_ .f32 0x00000000#32 : (⟨S_, .f32⟩ : BufTy).Contents (Elt F)) := by
  after_results <;> rfl

/-! ## The outlined selection: zero where the degree is not positive -/

theorem read01_v16 : StableHlo.after hostOps0_1 W (Proc.devRef .tc main_v16)
    = Spec.disG (W (Proc.devRef .tc main_v12)) (W (Proc.devRef .tc main_v15)) (W (Proc.devRef .tc main_cst_3)) := by
  after_results <;> rfl

/-! ## The edge weights -/

set_option maxHeartbeats 4000000 in
theorem read02_v31 : StableHlo.after hostOps0_2 W (Proc.devRef .tc main_v31)
    = Spec.normG (W (Proc.devRef .tc main_v16)) (W (Proc.devRef .tc main_v3)) (W (Proc.devRef .tc main_v6)) := by
  after_results_simp <;> rfl

/-! ## The first aggregation, and the first bias as a row -/

set_option maxHeartbeats 4000000 in
theorem read1_v45 : StableHlo.after hostOps1 W (Proc.devRef .tc main_v45)
    = Spec.aggG128 (W (Proc.devRef .tc main_v32)) (W (Proc.devRef .tc main_v3)) (W (Proc.devRef .tc main_v6)) (W (Proc.devRef .tc main_v31)) := by
  after_results_simp <;> rfl
set_option maxHeartbeats 4000000 in
theorem read1_v46 : StableHlo.after hostOps1 W (Proc.devRef .tc main_v46)
    = (shapeCast S1x128 (W (Proc.devRef .tc main_arg3)) Facts₀.shapeCasts_S128_S1x128 : (⟨S1x128, .f32⟩ : BufTy).Contents (Elt F)) := by
  after_results_simp <;> rfl

/-! ## The second aggregation -/

set_option maxHeartbeats 4000000 in
theorem read3_v61 : StableHlo.after hostOps3 W (Proc.devRef .tc main_v61)
    = Spec.aggG64 (W (Proc.devRef .tc main_v48)) (W (Proc.devRef .tc main_v3)) (W (Proc.devRef .tc main_v6)) (W (Proc.devRef .tc main_v31)) := by
  after_results_simp <;> rfl

/-! ## The mean and the last bias -/

theorem read4_v66 : StableHlo.after hostOps4 W (Proc.devRef .tc main_v66)
    = addf (Host.divf (W (Proc.devRef .tc main_v62)) (broadcastInDim S1x64 ![] Facts₀.bcast_S_S1x64 (constant S_ .f32 0x47435000#32))) (broadcastInDim S1x64 ![1] Facts₀.bcast_S64_S1x64_1 (W (Proc.devRef .tc main_arg5))) := by
  after_results <;> rfl

end Cert.KernelIdeal.Hand

end
-- ==== Proof.KiVal0.lean ====
/- Region 0 at the extended reals: the array the ten write-backs leave is the matrix product of the two arrays the
   region reads, entry by entry, with no rounding. -/
import proofs.«104698_j48498770707162_1_alg».proof.Proof.KiR0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the core's buffers on entry to the region, as extended reals
variable (V : (c : Dev nD) → (b : Ref sig .tc) → Buf (Elt Ideal) ((c : Thread nD τ).loc b))

/-! ## The product as one function of the two whole arrays -/

/-- Row `i 0` of `X` against column `i 1` of `Wt`: the sum over the 128 shared coordinates of the products. -/
def mm0 (X : FVec Ideal S50000x128 .f32) (Wt : FVec Ideal S128x128 .f32) : FVec Ideal S50000x128 .f32 :=
  fun i => ∑ k : Fin 128, X (ix2 (⟨(i 0).val, idx2_lt0 i⟩ : Fin 50000) k) * Wt (ix2 k (⟨(i 1).val, idx2_lt1 i⟩ : Fin 128))

/-! ## The stored value at an index of the block -/

/-- What the body stores at row `p`, column `q` of its block: rounding to bf16 does nothing at the extended reals,
    the accumulator starts at zero, and the contraction runs over the one shared axis, so the entry is row `p` of the
    rows block against column `q` of the weights. -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  show FloatOps.matmul dot_S5000x128_S128x128_S5000x128_1_0_0_1_n_n none _ _ (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have hl : dot_S5000x128_S128x128_S5000x128_1_0_0_1_n_n.lhsIdx (ix2 p q) ((contrEquiv1 dot_S5000x128_S128x128_S5000x128_1_0_0_1_n_n 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact ck
  have hr : dot_S5000x128_S128x128_S5000x128_1_0_0_1_n_n.rhsIdx (ix2 p q) ((contrEquiv1 dot_S5000x128_S128x128_S5000x128_1_0_0_1_n_n 128 rfl rfl).symm k) = ix2 k q := by
    funext ax; apply Fin.ext
    match ax with
    | ⟨0, _⟩ => simp [DotDims.rhsIdx, dot_S5000x128_S128x128_S5000x128_1_0_0_1_n_n]; exact ck
    | ⟨1, _⟩ => simp [DotDims.rhsIdx, dot_S5000x128_S128x128_S5000x128_1_0_0_1_n_n]; rfl
  rw [hl, hr]
  rfl

/-! ## From the blocks to the array -/

theorem zeros0 : (![0, 0] : Fin 2 → Nat) = fun _ => 0 := funext fun a => by fin_cases a <;> rfl

/-- The three index maps over the ten grid points: at point `t` the rows window and the output window are at block
    `t` along the rows and block 0 along the columns; the weights window is at block 0 on both axes. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The stored block against the whole-array product. If `x0` is rows `5000·r …` of `X` and `x1` is all of `Wt`,
    then what the body stores at `j` is the product's entry at row `5000·r + j 0`, column `j 1`. -/
theorem pay0_blk (X : FVec Ideal S50000x128 .f32) (Wt : FVec Ideal S128x128 .f32)
    (x0 : Vec Ideal S5000x128 .f32) (x1 : Vec Ideal S128x128 .f32) (r : Nat)
    (h0 : ∀ (y : S5000x128.Idx) (i' : S50000x128.Idx), (i' 0).val = r * 5000 + (y 0).val → (i' 1).val = (y 1).val → x0 y = X i')
    (h1 : ∀ y : S128x128.Idx, x1 y = Wt y)
    (j : S5000x128.Idx) (i : S50000x128.Idx) (hi0 : (i 0).val = r * 5000 + (j 0).val) (hi1 : (i 1).val = (j 1).val) :
    k0_pay1 (F := Ideal) x0 x1 j = mm0 X Wt i := by
  obtain ⟨p, q, rfl⟩ : ∃ (p : Fin 5000) (q : Fin 128), j = ix2 p q := ⟨j 0, j 1, eq_ix2 j⟩
  rw [pay0_apply]
  unfold mm0
  refine Finset.sum_congr rfl fun k _ => ?_
  rw [h0 (ix2 p k) (ix2 (⟨(i 0).val, idx2_lt0 i⟩ : Fin 50000) k) hi0 rfl, h1]
  have eq : (ix2 k q : S128x128.Idx) = ix2 k (⟨(i 1).val, idx2_lt1 i⟩ : Fin 128) := by
    funext a; match a with
    | ⟨0, _⟩ => rfl
    | ⟨1, _⟩ => exact Fin.ext hi1.symm
  rw [eq]

/-- What point `t` writes back is block `t` of the product of the two arrays as the region finds them. -/
theorem flushed0_eq (c : Dev nD) (t : Fin cfg0.N) :
    (dat0 V c).flushed 2 t = ((cfg0.win 2).blk t).view.read (Elt Ideal) (mm0 (V c main_arg0) (V c main_arg2)) := by
  show (cfg0.win 2).cut (grid0.coords t) ((dat0 V c).after 2 t) = _
  rw [after0_2]
  unfold out0_2
  rw [View.canon_unit_zero zeros0]
  simp only [View.ld_unit_zero (S := S5000x128) zeros0, View.ld_unit_zero (S := S128x128) zeros0]
  obtain ⟨e0, e1, e2, e3, e4, e5⟩ := idx_facts0 t
  funext j
  show k0_pay1 (F := Ideal) (iblk0 V c 0 t) (iblk0 V c 1 t) j = mm0 (V c main_arg0) (V c main_arg2) (((cfg0.win 2).blk t).view.emb j)
  refine pay0_blk (V c main_arg0) (V c main_arg2) (iblk0 V c 0 t) (iblk0 V c 1 t) t.val ?_ ?_ j _ ?_ ?_
  · intro y i' h0 h1
    show V c main_arg0 (((cfg0.win 0).blk t).view.emb y) = V c main_arg0 i'
    refine congrArg _ (funext fun a => Fin.ext ?_)
    match a with
    | ⟨0, _⟩ => show win0_0.index t (0 : Fin 2) * 5000 + 1 * (y 0).val = (i' 0).val; omega
    | ⟨1, _⟩ => show win0_0.index t (1 : Fin 2) * 128 + 1 * (y 1).val = (i' 1).val; omega
  · intro y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 5000 + 1 * (j 0).val = t.val * 5000 + (j 0).val; omega
  · show win0_2.index t (1 : Fin 2) * 128 + 1 * (j 1).val = (j 1).val; omega

/-- An index of the output array lies in point `t`'s block exactly when each coordinate lies in the block's range. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every row block is some grid point's. -/
theorem idx_onto0 : ∀ q : Fin 10, ∃ t : Fin cfg0.N, win0_2.index t = ![q.val, 0] :=
  (by decide +kernel : ∀ q : Fin 10, ∃ t : Fin grid0.N, win0_2.index t = ![q.val, 0])

/-- The ten blocks fill the array: row `r` is in the block of point `r / 5000`. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the product of the two arrays the region reads. -/
theorem arr0_final (c : Dev nD) : (dat0 (F := Ideal) V c).arrAt 2 cfg0.N = mm0 (V c main_arg0) (V c main_arg2) :=
  (dat0 V c).arrAt_eq_of_cover 2 (mm0 (V c main_arg0) (V c main_arg2)) (fun t _ => flushed0_eq V c t) (cover0)

end Cert.KernelIdeal.Hand

end
-- ==== Proof.KiVal1.lean ====
/- Region 1 at the extended reals: the array the ten write-backs leave is, entry by entry, the matrix the region
   reads plus the bias row, clamped below at zero. -/
import proofs.«104698_j48498770707162_1_alg».proof.Proof.KiR1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the core's buffers on entry to the region, as extended reals
variable (V : (c : Dev nD) → (b : Ref sig .tc) → Buf (Elt Ideal) ((c : Thread nD τ).loc b))

/-! ## The result as one function of the two whole arrays -/

/-- Entry `i` of `A` plus the bias at `i`'s column, or zero if that is negative. -/
def biasRelu (A : FVec Ideal S50000x128 .f32) (b : FVec Ideal S1x128 .f32) : FVec Ideal S50000x128 .f32 :=
  fun i => max (A i + b (ix2 (0 : Fin 1) (⟨(i 1).val, idx2_lt1 i⟩ : Fin 128))) 0

/-! ## The stored value at an index of the block -/

/-- What the body stores at row `p`, column `q` of its block: the casts to the same shape do nothing, the bias row
    repeated down the rows reads the bias at column `q`, and the constant it is compared with is zero. -/
theorem pay1_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) 0 := by
  unfold k1_pay1
  simp only [shapeCast_self, maximumf_apply, addf_apply, broadcast_apply]
  rw [broadcastTo_1b_ab_apply (a := 5000) (b := 128)]
  show max (x0 (ix2 p q) + x1 (ix2 (0 : Fin 1) q)) (Ideal.ofBits .f32 0x00000000#32) = _
  rw [Ideal.ofBits_zero_f32]

/-! ## From the blocks to the array -/

theorem zeros1 : (![0, 0] : Fin 2 → Nat) = fun _ => 0 := funext fun a => by fin_cases a <;> rfl

/-- The three index maps over the ten grid points: at point `t` the rows window and the output window are at block
    `t` along the rows and block 0 along the columns; the bias window is at block 0 on both axes. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The stored block against the whole-array result. If `x0` is rows `5000·r …` of `A` and `x1` is the bias row `b`,
    then what the body stores at `j` is the result's entry at row `5000·r + j 0`, column `j 1`. -/
theorem pay1_blk (A : FVec Ideal S50000x128 .f32) (b : FVec Ideal S1x128 .f32)
    (x0 : Vec Ideal S5000x128 .f32) (x1 : Vec Ideal S1x128 .f32) (r : Nat)
    (h0 : ∀ (y : S5000x128.Idx) (i' : S50000x128.Idx), (i' 0).val = r * 5000 + (y 0).val → (i' 1).val = (y 1).val → x0 y = A i')
    (h1 : ∀ y : S1x128.Idx, x1 y = b y)
    (j : S5000x128.Idx) (i : S50000x128.Idx) (hi0 : (i 0).val = r * 5000 + (j 0).val) (hi1 : (i 1).val = (j 1).val) :
    k1_pay1 (F := Ideal) x0 x1 j = biasRelu A b i := by
  obtain ⟨p, q, rfl⟩ : ∃ (p : Fin 5000) (q : Fin 128), j = ix2 p q := ⟨j 0, j 1, eq_ix2 j⟩
  rw [pay1_apply]
  unfold biasRelu
  rw [h0 (ix2 p q) i hi0 hi1, h1]
  have eq : (ix2 (0 : Fin 1) q : S1x128.Idx) = ix2 (0 : Fin 1) (⟨(i 1).val, idx2_lt1 i⟩ : Fin 128) := by
    funext a; match a with
    | ⟨0, _⟩ => rfl
    | ⟨1, _⟩ => exact Fin.ext hi1.symm
  rw [eq]

/-- What point `t` writes back is block `t` of the result computed from the two arrays as the region finds them. -/
theorem flushed1_eq (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero zeros1]
  simp only [View.ld_unit_zero (S := S5000x128) zeros1, View.ld_unit_zero (S := S1x128) zeros1]
  obtain ⟨e0, e1, e2, e3, e4, e5⟩ := idx_facts1 t
  funext j
  show k1_pay1 (F := Ideal) (iblk1 V c 0 t) (iblk1 V c 1 t) j = biasRelu (V c main_v45) (V c main_v46) (((cfg1.win 2).blk t).view.emb j)
  refine pay1_blk (V c main_v45) (V c main_v46) (iblk1 V c 0 t) (iblk1 V c 1 t) t.val ?_ ?_ j _ ?_ ?_
  · intro y i' h0 h1
    show V c main_v45 (((cfg1.win 0).blk t).view.emb y) = V c main_v45 i'
    refine congrArg _ (funext fun a => Fin.ext ?_)
    match a with
    | ⟨0, _⟩ => show win1_0.index t (0 : Fin 2) * 5000 + 1 * (y 0).val = (i' 0).val; omega
    | ⟨1, _⟩ => show win1_0.index t (1 : Fin 2) * 128 + 1 * (y 1).val = (i' 1).val; omega
  · intro y
    show V c main_v46 (((cfg1.win 1).blk t).view.emb y) = V c main_v46 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · show win1_2.index t (0 : Fin 2) * 5000 + 1 * (j 0).val = t.val * 5000 + (j 0).val; omega
  · show win1_2.index t (1 : Fin 2) * 128 + 1 * (j 1).val = (j 1).val; omega

/-- An index of the output array lies in point `t`'s block exactly when each coordinate lies in the block's range. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every row block is some grid point's. -/
theorem idx_onto1 : ∀ q : Fin 10, ∃ t : Fin cfg1.N, win1_2.index t = ![q.val, 0] :=
  (by decide +kernel : ∀ q : Fin 10, ∃ t : Fin grid1.N, win1_2.index t = ![q.val, 0])

/-- The ten blocks fill the array: row `r` is in the block of point `r / 5000`. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region is the matrix the region reads plus the bias row, clamped below at zero. -/
theorem arr1_final (c : Dev nD) : (dat1 (F := Ideal) V c).arrAt 2 cfg1.N = biasRelu (V c main_v45) (V c main_v46) :=
  (dat1 V c).arrAt_eq_of_cover 2 (biasRelu (V c main_v45) (V c main_v46)) (fun t _ => flushed1_eq V c t) (cover1)

end Cert.KernelIdeal.Hand

end
-- ==== Proof.KiVal2.lean ====
/- Region 2 at the extended reals: the array the ten write-backs leave is the matrix product of the two arrays the
   region reads, entry by entry, with no rounding. -/
import proofs.«104698_j48498770707162_1_alg».proof.Proof.KiR2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the core's buffers on entry to the region, as extended reals
variable (V : (c : Dev nD) → (b : Ref sig .tc) → Buf (Elt Ideal) ((c : Thread nD τ).loc b))

/-! ## The product as one function of the two whole arrays -/

/-- Row `i 0` of `X` against column `i 1` of `Wt`: the sum over the 128 shared coordinates of the products. -/
def mm2 (X : FVec Ideal S50000x128 .f32) (Wt : FVec Ideal S128x64 .f32) : FVec Ideal S50000x64 .f32 :=
  fun i => ∑ k : Fin 128, X (ix2 (⟨(i 0).val, idx2_lt0 i⟩ : Fin 50000) k) * Wt (ix2 k (⟨(i 1).val, idx2_lt1 i⟩ : Fin 64))

/-! ## The stored value at an index of the block -/

/-- What the body stores at row `p`, column `q` of its block: the cast to the same shape and the rounding to bf16 do
    nothing at the extended reals, the accumulator starts at zero, and the contraction runs over the one shared axis,
    so the entry is row `p` of the rows block against column `q` of the weights. -/
theorem pay2_apply (x0 : Vec Ideal S5000x128 .f32) (x1 : Vec Ideal S128x64 .f32) (p : Fin 5000) (q : Fin 64) :
    k2_pay1 (F := Ideal) x0 x1 (ix2 p q) = ∑ k : Fin 128, x0 (ix2 p k) * x1 (ix2 k q) := by
  unfold k2_pay1
  simp only [shapeCast_self]
  show FloatOps.matmul dot_S5000x128_S128x64_S5000x64_1_0_0_1_n_n none _ _ (constant (F := Ideal) S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have ck := contrEquiv1_symm_val dot_S5000x128_S128x64_S5000x64_1_0_0_1_n_n 128 rfl rfl k
  have hl : dot_S5000x128_S128x64_S5000x64_1_0_0_1_n_n.lhsIdx (ix2 p q) ((contrEquiv1 dot_S5000x128_S128x64_S5000x64_1_0_0_1_n_n 128 rfl rfl).symm k) = ix2 p k := by
    funext ax; apply Fin.ext
    match ax with
    | ⟨0, _⟩ => simp [DotDims.lhsIdx, dot_S5000x128_S128x64_S5000x64_1_0_0_1_n_n]; rfl
    | ⟨1, _⟩ => simp [DotDims.lhsIdx, dot_S5000x128_S128x64_S5000x64_1_0_0_1_n_n]; exact ck
  have hr : dot_S5000x128_S128x64_S5000x64_1_0_0_1_n_n.rhsIdx (ix2 p q) ((contrEquiv1 dot_S5000x128_S128x64_S5000x64_1_0_0_1_n_n 128 rfl rfl).symm k) = ix2 k q := by
    funext ax; apply Fin.ext
    match ax with
    | ⟨0, _⟩ => simp [DotDims.rhsIdx, dot_S5000x128_S128x64_S5000x64_1_0_0_1_n_n]; exact ck
    | ⟨1, _⟩ => simp [DotDims.rhsIdx, dot_S5000x128_S128x64_S5000x64_1_0_0_1_n_n]; rfl
  rw [hl, hr]
  rfl

/-! ## From the blocks to the array -/

theorem zeros2 : (![0, 0] : Fin 2 → Nat) = fun _ => 0 := funext fun a => by fin_cases a <;> rfl

/-- The three index maps over the ten grid points: at point `t` the rows window and the output window are at block
    `t` along the rows and block 0 along the columns; the weights window is at block 0 on both axes. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The stored block against the whole-array product. If `x0` is rows `5000·r …` of `X` and `x1` is all of `Wt`,
    then what the body stores at `j` is the product's entry at row `5000·r + j 0`, column `j 1`. -/
theorem pay2_blk (X : FVec Ideal S50000x128 .f32) (Wt : FVec Ideal S128x64 .f32)
    (x0 : Vec Ideal S5000x128 .f32) (x1 : Vec Ideal S128x64 .f32) (r : Nat)
    (h0 : ∀ (y : S5000x128.Idx) (i' : S50000x128.Idx), (i' 0).val = r * 5000 + (y 0).val → (i' 1).val = (y 1).val → x0 y = X i')
    (h1 : ∀ y : S128x64.Idx, x1 y = Wt y)
    (j : S5000x64.Idx) (i : S50000x64.Idx) (hi0 : (i 0).val = r * 5000 + (j 0).val) (hi1 : (i 1).val = (j 1).val) :
    k2_pay1 (F := Ideal) x0 x1 j = mm2 X Wt i := by
  obtain ⟨p, q, rfl⟩ : ∃ (p : Fin 5000) (q : Fin 64), j = ix2 p q := ⟨j 0, j 1, eq_ix2 j⟩
  rw [pay2_apply]
  unfold mm2
  refine Finset.sum_congr rfl fun k _ => ?_
  rw [h0 (ix2 p k) (ix2 (⟨(i 0).val, idx2_lt0 i⟩ : Fin 50000) k) hi0 rfl, h1]
  have eq : (ix2 k q : S128x64.Idx) = ix2 k (⟨(i 1).val, idx2_lt1 i⟩ : Fin 64) := by
    funext a; match a with
    | ⟨0, _⟩ => rfl
    | ⟨1, _⟩ => exact Fin.ext hi1.symm
  rw [eq]

/-- What point `t` writes back is block `t` of the product of the two arrays as the region finds them. -/
theorem flushed2_eq (c : Dev nD) (t : Fin cfg2.N) :
    (dat2 V c).flushed 2 t = ((cfg2.win 2).blk t).view.read (Elt Ideal) (mm2 (V c main_v47) (V c main_arg4)) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128x64) zeros2]
  obtain ⟨e0, e1, e2, e3, e4, e5⟩ := idx_facts2 t
  funext j
  show k2_pay1 (F := Ideal) (iblk2 V c 0 t) (iblk2 V c 1 t) j = mm2 (V c main_v47) (V c main_arg4) (((cfg2.win 2).blk t).view.emb j)
  refine pay2_blk (V c main_v47) (V c main_arg4) (iblk2 V c 0 t) (iblk2 V c 1 t) t.val ?_ ?_ j _ ?_ ?_
  · intro y i' h0 h1
    show V c main_v47 (((cfg2.win 0).blk t).view.emb y) = V c main_v47 i'
    refine congrArg _ (funext fun a => Fin.ext ?_)
    match a with
    | ⟨0, _⟩ => show win2_0.index t (0 : Fin 2) * 5000 + 1 * (y 0).val = (i' 0).val; omega
    | ⟨1, _⟩ => show win2_0.index t (1 : Fin 2) * 128 + 1 * (y 1).val = (i' 1).val; omega
  · intro y
    show V c main_arg4 (((cfg2.win 1).blk t).view.emb y) = V c main_arg4 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 64 + 1 * (y 1).val = (y 1).val; omega
  · show win2_2.index t (0 : Fin 2) * 5000 + 1 * (j 0).val = t.val * 5000 + (j 0).val; omega
  · show win2_2.index t (1 : Fin 2) * 64 + 1 * (j 1).val = (j 1).val; omega

/-- An index of the output array lies in point `t`'s block exactly when each coordinate lies in the block's range. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- Every row block is some grid point's. -/
theorem idx_onto2 : ∀ q : Fin 10, ∃ t : Fin cfg2.N, win2_2.index t = ![q.val, 0] :=
  (by decide +kernel : ∀ q : Fin 10, ∃ t : Fin grid2.N, win2_2.index t = ![q.val, 0])

/-- The ten blocks fill the array: row `r` is in the block of point `r / 5000`. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region is the product of the two arrays the region reads. -/
theorem arr2_final (c : Dev nD) : (dat2 (F := Ideal) V c).arrAt 2 cfg2.N = mm2 (V c main_v47) (V c main_arg4) :=
  (dat2 V c).arrAt_eq_of_cover 2 (mm2 (V c main_v47) (V c main_arg4)) (fun t _ => flushed2_eq V c t) (cover2)

end Cert.KernelIdeal.Hand

end
-- ==== Proof.KiValue12.lean ====
/-
  What the buffers hold, as functions of the six arguments' launch contents, at each boundary up to the entry of the last
  region, over the extended reals. The host stretches are read back with the named host-side pieces; a region's output is
  its whole-array function (a matrix product, or the bias and the relu); everything else is carried along unchanged.
-/
import proofs.«104698_j48498770707162_1_alg».proof.Proof.KiFold
import proofs.«104698_j48498770707162_1_alg».proof.Proof.KiRead
import proofs.«104698_j48498770707162_1_alg».proof.Proof.KiVal0
import proofs.«104698_j48498770707162_1_alg».proof.Proof.KiVal1
import proofs.«104698_j48498770707162_1_alg».proof.Proof.KiVal2

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-! ## The arguments are carried to every boundary -/

/-- An argument array at region 0's entry is its launch contents: no host operation writes an argument. -/
theorem W3_arg (r : Ref sig .tc) (h0 : r ∉ hostOps0_W) (h1 : r ∉ hostOps0_1_W) (h2 : r ∉ hostOps0_2_W) :
    W3 m c (Proc.devRef .tc r) = W0 m c (Proc.devRef .tc r) :=
  (keep02 (W2 m c) r h2).trans ((keep01 (W1 m c) r h1).trans (keep0 (W0 m c) r h0))

/-! ## The edges' endpoints and weights at region 0's entry -/

theorem W3_v3 : W3 m c (Proc.devRef .tc main_v3) = Spec.srcOf (W0 m c (Proc.devRef .tc main_arg1)) :=
  (keep02 (W2 m c) main_v3 (by decide)).trans ((keep01 (W1 m c) main_v3 (by decide)).trans (read0_v3 (W0 m c)))
theorem W3_v6 : W3 m c (Proc.devRef .tc main_v6) = Spec.dstOf (W0 m c (Proc.devRef .tc main_arg1)) :=
  (keep02 (W2 m c) main_v6 (by decide)).trans ((keep01 (W1 m c) main_v6 (by decide)).trans (read0_v6 (W0 m c)))
theorem W2_v16 : W2 m c (Proc.devRef .tc main_v16) = Spec.disOf (Spec.dstOf (W0 m c (Proc.devRef .tc main_arg1))) := by
  refine (read01_v16 (W1 m c)).trans ?_
  rw [show W1 m c (Proc.devRef .tc main_v12) = _ from read0_v12 (W0 m c), show W1 m c (Proc.devRef .tc main_v15) = _ from read0_v15 (W0 m c),
    show W1 m c (Proc.devRef .tc main_cst_3) = _ from read0_cst3 (W0 m c)]
  rfl
theorem W3_v31 : W3 m c (Proc.devRef .tc main_v31) = Spec.normOf (W0 m c (Proc.devRef .tc main_arg1)) := by
  refine (read02_v31 (W2 m c)).trans ?_
  rw [W2_v16 m c, show W2 m c (Proc.devRef .tc main_v3) = _ from (keep01 (W1 m c) main_v3 (by decide)).trans (read0_v3 (W0 m c)),
    show W2 m c (Proc.devRef .tc main_v6) = _ from (keep01 (W1 m c) main_v6 (by decide)).trans (read0_v6 (W0 m c))]
  rfl

/-! ## The first layer -/

/-- Region 0's output: the matrix product of the node features with the first weights. -/
theorem W4_v32 : W4 m c (Proc.devRef .tc main_v32) = mm0 (W0 m c (Proc.devRef .tc main_arg0)) (W0 m c (Proc.devRef .tc main_arg2)) := by
  refine (W4_arr m c 2).trans ((arr0_final (V3 m) c).trans ?_)
  rw [show V3 m c main_arg0 = W0 m c (Proc.devRef .tc main_arg0) from W3_arg m c main_arg0 (by decide) (by decide) (by decide),
    show V3 m c main_arg2 = W0 m c (Proc.devRef .tc main_arg2) from W3_arg m c main_arg2 (by decide) (by decide) (by decide)]
/-- The first aggregation. -/
theorem W5_v45 : W5 m c (Proc.devRef .tc main_v45) = Spec.agg128 (mm0 (W0 m c (Proc.devRef .tc main_arg0)) (W0 m c (Proc.devRef .tc main_arg2))) (W0 m c (Proc.devRef .tc main_arg1)) := by
  refine (read1_v45 (W4 m c)).trans ?_
  rw [W4_v32 m c, show W4 m c (Proc.devRef .tc main_v3) = _ from (W4_keep m c main_v3 (by decide)).trans (W3_v3 m c),
    show W4 m c (Proc.devRef .tc main_v6) = _ from (W4_keep m c main_v6 (by decide)).trans (W3_v6 m c),
    show W4 m c (Proc.devRef .tc main_v31) = _ from (W4_keep m c main_v31 (by decide)).trans (W3_v31 m c)]
  rfl
/-- The first bias as a row. -/
theorem W5_v46 : W5 m c (Proc.devRef .tc main_v46) = (shapeCast S1x128 (W0 m c (Proc.devRef .tc main_arg3)) Facts₀.shapeCasts_S128_S1x128 : FVec Ideal S1x128 .f32) := by
  refine (read1_v46 (W4 m c)).trans ?_
  rw [show W4 m c (Proc.devRef .tc main_arg3) = W0 m c (Proc.devRef .tc main_arg3) from (W4_keep m c main_arg3 (by decide)).trans (W3_arg m c main_arg3 (by decide) (by decide) (by decide))]
/-- Region 1's output: the bias added and the negative part cut off. -/
theorem W6_v47 : W6 m c (Proc.devRef .tc main_v47) = biasRelu (Spec.agg128 (mm0 (W0 m c (Proc.devRef .tc main_arg0)) (W0 m c (Proc.devRef .tc main_arg2))) (W0 m c (Proc.devRef .tc main_arg1)))
    (shapeCast S1x128 (W0 m c (Proc.devRef .tc main_arg3)) Facts₀.shapeCasts_S128_S1x128) := by
  refine (W6_arr m c 2).trans ((arr1_final (V5 m) c).trans ?_)
  rw [show V5 m c main_v45 = _ from W5_v45 m c, show V5 m c main_v46 = _ from W5_v46 m c]

/-! ## The second layer -/

/-- A buffer no host operation of the middle stretch writes, and no region's output, is at region 3's entry what it was at
    region 0's entry. -/
theorem W7_carry (r : Ref sig .tc) (h32 : r ≠ main_v32) (h1 : r ∉ hostOps1_W) (h47 : r ≠ main_v47) (h48 : r ≠ main_v48) :
    W7 m c (Proc.devRef .tc r) = W3 m c (Proc.devRef .tc r) :=
  (W7_keep m c r h48).trans ((W6_keep m c r h47).trans ((keep1 (W4 m c) r h1).trans (W4_keep m c r h32)))

/-- Region 2's output: the matrix product of the hidden rows with the second weights. -/
theorem W7_v48 : W7 m c (Proc.devRef .tc main_v48) = mm2 (biasRelu (Spec.agg128 (mm0 (W0 m c (Proc.devRef .tc main_arg0)) (W0 m c (Proc.devRef .tc main_arg2))) (W0 m c (Proc.devRef .tc main_arg1)))
    (shapeCast S1x128 (W0 m c (Proc.devRef .tc main_arg3)) Facts₀.shapeCasts_S128_S1x128)) (W0 m c (Proc.devRef .tc main_arg4)) := by
  refine (W7_arr m c 2).trans ((arr2_final (V6 m) c).trans ?_)
  rw [show V6 m c main_v47 = _ from W6_v47 m c,
    show V6 m c main_arg4 = W0 m c (Proc.devRef .tc main_arg4) from (W6_keep m c main_arg4 (by decide)).trans ((keep1 (W4 m c) main_arg4 (by decide)).trans
      ((W4_keep m c main_arg4 (by decide)).trans (W3_arg m c main_arg4 (by decide) (by decide) (by decide))))]
/-- The second aggregation: what the last region sums over the nodes. -/
theorem W8_v61 : W8 m c (Proc.devRef .tc main_v61) = Spec.agg64 (mm2 (biasRelu (Spec.agg128 (mm0 (W0 m c (Proc.devRef .tc main_arg0)) (W0 m c (Proc.devRef .tc main_arg2))) (W0 m c (Proc.devRef .tc main_arg1)))
    (shapeCast S1x128 (W0 m c (Proc.devRef .tc main_arg3)) Facts₀.shapeCasts_S128_S1x128)) (W0 m c (Proc.devRef .tc main_arg4))) (W0 m c (Proc.devRef .tc main_arg1)) := by
  refine (read3_v61 (W7 m c)).trans ?_
  rw [W7_v48 m c, show W7 m c (Proc.devRef .tc main_v3) = _ from (W7_carry m c main_v3 (by decide) (by decide) (by decide) (by decide)).trans (W3_v3 m c),
    show W7 m c (Proc.devRef .tc main_v6) = _ from (W7_carry m c main_v6 (by decide) (by decide) (by decide) (by decide)).trans (W3_v6 m c),
    show W7 m c (Proc.devRef .tc main_v31) = _ from (W7_carry m c main_v31 (by decide) (by decide) (by decide) (by decide)).trans (W3_v31 m c)]
  rfl
/-- The last bias at region 3's entry. -/
theorem W8_arg5 : W8 m c (Proc.devRef .tc main_arg5) = W0 m c (Proc.devRef .tc main_arg5) :=
  (keep3 (W7 m c) main_arg5 (by decide)).trans ((W7_carry m c main_arg5 (by decide) (by decide) (by decide) (by decide)).trans (W3_arg m c main_arg5 (by decide) (by decide) (by decide)))

end Cert.KernelIdeal.Hand

end
-- ==== Proof.KiR3Pieces.lean ====
import proofs.«104698_j48498770707162_1_alg».proof.Proof.KiR3
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-sum reduction: what each point leaves, as the body's arithmetic

Each of the run's found pieces is a whole-block store, so what a buffer holds afterwards is its LAST store's payload:
the accumulator ends every point at "what it held, plus the block's column sums" (`k3_pay2`), starting from the zero
vector (`k3_pay1`) at the first point, and the last point copies that value to the output window. -/

section Pieces

theorem hz3 : (![0, 0] : Fin 2 → Nat) = fun _ => 0 := funext fun a => by fin_cases a <;> rfl

/-- The first point leaves zeros-plus-column-sums in the accumulator: of its two whole stores the later one counts,
    and the value it adds onto is the zero vector just stored and read back. -/
theorem soutA3_eq (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond3_0 i) (hc1 : ¬cond3_1 i)
    (x0 : Vec F S5000x64 .f32) :
    sout3_A_0 c i arg1 harg1 arg2 harg2 arg3 harg3 hc0 hc1 x0 = k3_pay2 (k3_pay1 (F := F)) x0 := by
  unfold sout3_A_0
  rw [View.read_writes_eq_canon _ _ _ (scover3_A_0 c i arg1 harg1 arg2 harg2 arg3 harg3 hc0 hc1 x0)]
  unfold kernelRun3_A
  dsimp only
  try sl_unfold_words
  rw [View.canon_cons_unit_zero hz3, View.readCov_unit_zero (S := S1x64) _ hz3]
  simp only [View.readAt_eq_ld, harg1.read_unread, View.ld_unit_zero (S := S5000x64) hz3]

/-- A middle point adds its block's column sums onto what the accumulator held. -/
theorem soutB3_eq (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : ¬cond3_1 i)
    (x0 : Vec F S5000x64 .f32) (xs0 : Vec F S1x64 .f32) :
    sout3_B_0 c i arg1 harg1 arg2 harg2 arg3 harg3 hc0 hc1 x0 xs0 = k3_pay2 xs0 x0 := by
  unfold sout3_B_0
  rw [View.read_writes_eq_canon _ _ _ (scover3_B_0 c i arg1 harg1 arg2 harg2 arg3 harg3 hc0 hc1 x0 xs0)]
  unfold kernelRun3_B
  dsimp only
  try sl_unfold_words
  rw [View.canon_unit_zero hz3]
  simp only [View.readAt_eq_ld, harg1.read_unread, harg3.read_unread, View.ld_unit_zero (S := S5000x64) hz3, View.ld_unit_zero (S := S1x64) hz3]

/-- So does the last point, -/
theorem soutC3_eq (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : cond3_1 i)
    (x0 : Vec F S5000x64 .f32) (xs0 : Vec F S1x64 .f32) :
    sout3_C_0 c i arg1 harg1 arg2 harg2 arg3 harg3 hc0 hc1 x0 xs0 = k3_pay2 xs0 x0 := by
  unfold sout3_C_0
  rw [View.read_writes_eq_canon _ _ _ (scover3_C_0 c i arg1 harg1 arg2 harg2 arg3 harg3 hc0 hc1 x0 xs0)]
  unfold kernelRun3_C
  dsimp only
  try sl_unfold_words
  rw [View.canon_unit_zero hz3]
  simp only [View.readAt_eq_ld, harg1.read_unread, harg3.read_unread, View.ld_unit_zero (S := S5000x64) hz3, View.ld_unit_zero (S := S1x64) hz3]

/-- and what it stores into the output window is that same value: the accumulator read back after its store. -/
theorem outC3_eq (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond3_0 i) (hc1 : cond3_1 i)
    (x0 : Vec F S5000x64 .f32) (xs0 : Vec F S1x64 .f32) :
    out3_C_1 c i arg1 harg1 arg2 harg2 arg3 harg3 hc0 hc1 x0 xs0 = k3_pay2 xs0 x0 := by
  unfold out3_C_1
  rw [View.read_writes_eq_canon _ _ _ (cover3_C_1 c i arg1 harg1 arg2 harg2 arg3 harg3 hc0 hc1 x0 xs0)]
  unfold kernelRun3_C
  dsimp only
  try sl_unfold_words
  rw [View.canon_unit_zero hz3, View.readCov_unit_zero (S := S1x64) _ hz3]
  simp only [View.readAt_eq_ld, harg1.read_unread, harg3.read_unread, View.ld_unit_zero (S := S5000x64) hz3, View.ld_unit_zero (S := S1x64) hz3]

end Pieces

end Cert.KernelIdeal.Hand

end
-- ==== Proof.KiVal3.lean ====
import proofs.«104698_j48498770707162_1_alg».proof.Proof.KiR3Pieces
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The column-sum reduction's value at the ideal numbers

The output array ends holding, in each of its 64 columns, the sum of that column of the `[50000,64]` input array over
all its rows. The accumulator starts from zero and each of the ten points adds the column sums of its 5000 rows; sums
of extended reals are commutative and associative, so the ten partial sums regroup into one sum over the row index. -/

open Idealize.ShloMosaic.ValueIdx

section Arithmetic

/-- The lane reduction over the row axis, read at the ideal values: each column's sum over the block's 5000 rows. -/
theorem colRed (v : FVec Ideal S5000x64 .f32) (h : S5000x64.Reduces [0] S64) (hφ : FKind.Formats .f32)
    (hacc : (0x00000000#32 : BitVec 32) = 0x00000000#32) (i : Fin 64) :
    multiReduction .add [0] S64 v 0x00000000#32 h hφ hacc (ix1 i) = ∑ r : Fin 5000, v (ix2 r i) :=
  (Ideal.multiReduction_add_single v 0x00000000#32 h hφ hacc (ix1 i)).trans
    (Finset.sum_congr rfl fun r _ => congrArg v (funext fun a => by fin_cases a <;> exact Fin.ext rfl))

/-- The vector the first point stores is zero. -/
theorem zeroRow_apply (u : Fin 1) (i : Fin 64) : (k3_pay1 (F := Ideal)) (ix2 u i) = 0 := by
  unfold k3_pay1
  simp only [shapeCast_self, broadcast_apply]
  exact Ideal.ofBits_zero_f32

/-- What every point stores: what the accumulator held plus the block's column sums. -/
theorem accRow_apply (xs : Vec Ideal S1x64 .f32) (x : Vec Ideal S5000x64 .f32) (u : Fin 1) (i : Fin 64) :
    k3_pay2 xs x (ix2 u i) = xs (ix2 u i) + ∑ r : Fin 5000, x (ix2 r i) := by
  unfold k3_pay2
  simp only [shapeCast_self]
  refine (addf_apply _ _ (ix2 u i)).trans ?_
  refine congrArg (fun z => xs (ix2 u i) + z) ?_
  refine (shapeCast_a_1a_apply _ shapeCasts_S64_S1x64 u i).trans ?_
  exact colRed x _ _ _ i

end Arithmetic

section Blocks

-- the core's buffer contents when the call is entered
variable {F : FTy → Type} [FloatOps F] (V : (c : Dev nD) → (b : Ref sig .tc) → Buf (Elt F) ((c : Thread nD τ).loc b))

/-- The input window's block at point `t` is rows `5000 t … 5000 t + 4999` of the `[50000,64]` array. -/
theorem iblk3_apply (c : Dev nD) (t : Fin cfg3.N) (x : S5000x64.Idx) (k : S50000x64.Idx)
    (hk0 : (k 0).val = 5000 * t.val + (x 0).val) (hk1 : (k 1).val = (x 1).val) :
    (iblk3 V c 0 t : Vec F S5000x64 .f32) x = (V c main_v61 : S50000x64.Idx → Elt F .f32) k := by
  have hi : win3_0.index t 0 = t.val ∧ win3_0.index t 1 = 0 := by
    rcases fin_N3 t with rfl | rfl | rfl | rfl | rfl | rfl | rfl | rfl | rfl | rfl <;> first | decide | decide +kernel
  unfold iblk3
  rw [View.read_apply]
  show V c main_v61 _ = V c main_v61 _
  congr 1
  funext a
  apply Fin.ext
  match a with
  | ⟨0, _⟩ => show win3_0.index t 0 * 5000 + 1 * (x 0).val = (k 0).val; rw [hi.1, hk0]; omega
  | ⟨1, _⟩ => show win3_0.index t 1 * 64 + 1 * (x 1).val = (k 1).val; rw [hi.2, hk1]; omega

end Blocks

section Accumulation

-- the core's buffer contents when the call is entered, at the ideal values
variable (V : (c : Dev nD) → (b : Ref sig .tc) → Buf (Elt Ideal) ((c : Thread nD τ).loc b))

/-- The input array as the call finds it, as a `[50000,64]` vector. -/
abbrev arrIn3 (c : Dev nD) : FVec Ideal S50000x64 .f32 := V c main_v61

/-- Column `i` of the `[50000,64]` array at row `k` (zero past the last row). -/
def colAt (c : Dev nD) (i : Fin 64) (k : ℕ) : Ideal .f32 :=
  if h : k < 50000 then arrIn3 V c (ix2 ⟨k, h⟩ i) else 0

/-- A block's column sum is the column's sum over the block's rows. -/
theorem blockSum (c : Dev nD) (t : Fin cfg3.N) (i : Fin 64) (x : Vec Ideal S5000x64 .f32) (hx : x = iblk3 V c 0 t) :
    ∑ r : Fin 5000, x (ix2 r i) = ∑ r ∈ Finset.range 5000, colAt V c i (5000 * t.val + r) := by
  subst hx
  rw [Finset.sum_range]
  refine Finset.sum_congr rfl fun r _ => ?_
  have hlt : 5000 * t.val + r.val < 50000 := by have := t.isLt; have hN : cfg3.N = 10 := N_3; omega
  unfold colAt; rw [dif_pos hlt]
  exact iblk3_apply V c t (ix2 r i) (ix2 ⟨_, hlt⟩ i) rfl rfl

/-- Every point after the first leaves, in the accumulator, what it held plus the block's column sums. -/
theorem step3 (c : Dev nD) (n : ℕ) (hn : n + 1 < cfg3.N) :
    (outsAt3 V c (n + 1) hn).2 = k3_pay2 (outsAt3 V c n (Nat.lt_of_succ_lt hn)).2 (iblk3 V c 0 ⟨n + 1, hn⟩) := by
  by_cases h1 : (n + 1) % 10 = 9
  · have e : outsAt3 V c (n + 1) hn = _ := outsAt3_C V c ⟨n + 1, hn⟩ (Nat.succ_ne_zero n) h1
    rw [e]; dsimp only
    exact soutC3_eq (F := Ideal) c (grid3.coords ⟨n + 1, hn⟩) (ms3_0 ⟨n + 1, hn⟩) (hs3_0 ⟨n + 1, hn⟩) (ms3_1 ⟨n + 1, hn⟩) (hs3_1 ⟨n + 1, hn⟩) scM3_0 (Memref.isWhole_whole _) _ _ (iblk3 V c 0 ⟨n + 1, hn⟩) _
  · have e : outsAt3 V c (n + 1) hn = _ := outsAt3_B V c ⟨n + 1, hn⟩ (Nat.succ_ne_zero n) h1
    rw [e]; dsimp only
    exact soutB3_eq (F := Ideal) c (grid3.coords ⟨n + 1, hn⟩) (ms3_0 ⟨n + 1, hn⟩) (hs3_0 ⟨n + 1, hn⟩) (ms3_1 ⟨n + 1, hn⟩) (hs3_1 ⟨n + 1, hn⟩) scM3_0 (Memref.isWhole_whole _) _ _ (iblk3 V c 0 ⟨n + 1, hn⟩) _

/-- The first point leaves zeros plus its block's column sums. -/
theorem step3_zero (c : Dev nD) (hn : 0 < cfg3.N) :
    (outsAt3 V c 0 hn).2 = k3_pay2 (k3_pay1 (F := Ideal)) (iblk3 V c 0 ⟨0, hn⟩) := by
  have e : outsAt3 V c 0 hn = _ := outsAt3_A V c ⟨0, hn⟩ rfl
  rw [e]; dsimp only
  exact soutA3_eq (F := Ideal) c (grid3.coords ⟨0, hn⟩) (ms3_0 ⟨0, hn⟩) (hs3_0 ⟨0, hn⟩) (ms3_1 ⟨0, hn⟩) (hs3_1 ⟨0, hn⟩) scM3_0 (Memref.isWhole_whole _) _ _ (iblk3 V c 0 ⟨0, hn⟩)

/-- THE ACCUMULATION: after point `n` the accumulator holds, in column `i`, the column's sum over rows `0 … 5000 (n + 1) - 1`. -/
theorem acc3 (c : Dev nD) (n : ℕ) (hn : n < cfg3.N) (u : Fin 1) (i : Fin 64) :
    (outsAt3 V c n hn).2 (ix2 u i) = ∑ k ∈ Finset.range (5000 * (n + 1)), colAt V c i k := by
  induction n with
  | zero =>
    rw [step3_zero V c hn]
    refine (accRow_apply _ _ u i).trans ?_
    rw [zeroRow_apply, zero_add, blockSum V c ⟨0, hn⟩ i _ rfl]
    simp only [Nat.mul_zero, Nat.zero_add, Nat.mul_one]
  | succ n ih =>
    rw [step3 V c n hn]
    refine (accRow_apply _ _ u i).trans ?_
    rw [ih (Nat.lt_of_succ_lt hn), blockSum V c ⟨n + 1, hn⟩ i _ rfl]
    rw [show 5000 * (n + 1 + 1) = 5000 * (n + 1) + 5000 from by ring, Finset.sum_range_add]

end Accumulation

section Final

-- the core's buffer contents when the call is entered, at the ideal values
variable (V : (c : Dev nD) → (b : Ref sig .tc) → Buf (Elt Ideal) ((c : Thread nD τ).loc b))

/-- Each column's sum over all 50000 rows. -/
def colSum (A : FVec Ideal S50000x64 .f32) : FVec Ideal S1x64 .f32 :=
  fun i => ∑ n : Fin 50000, A (ix2 n ⟨(i 1).val, idx2_lt1 i⟩)

/-- The column's sum over every row, as a sum over the row index. -/
theorem colAt_total (c : Dev nD) (i : Fin 64) :
    ∑ k ∈ Finset.range 50000, colAt V c i k = ∑ n : Fin 50000, arrIn3 V c (ix2 n i) := by
  rw [Finset.sum_range]
  refine Finset.sum_congr rfl fun n _ => ?_
  unfold colAt; rw [dif_pos n.isLt]

theorem h9 : 9 < cfg3.N := by rw [show cfg3.N = 10 from N_3]; decide

/-- At the last point the output window receives what the accumulator ends with. -/
theorem out_eq_acc3 (c : Dev nD) (n : ℕ) (hn : n + 1 < cfg3.N) (h1 : (n + 1) % 10 = 9) :
    (outsAt3 V c (n + 1) hn).1 = (outsAt3 V c (n + 1) hn).2 := by
  have e : outsAt3 V c (n + 1) hn = _ := outsAt3_C V c ⟨n + 1, hn⟩ (Nat.succ_ne_zero n) h1
  rw [e]; dsimp only
  exact (outC3_eq (F := Ideal) c (grid3.coords ⟨n + 1, hn⟩) (ms3_0 ⟨n + 1, hn⟩) (hs3_0 ⟨n + 1, hn⟩) (ms3_1 ⟨n + 1, hn⟩) (hs3_1 ⟨n + 1, hn⟩) scM3_0 (Memref.isWhole_whole _) _ _ (iblk3 V c 0 ⟨n + 1, hn⟩) _).trans (soutC3_eq (F := Ideal) c (grid3.coords ⟨n + 1, hn⟩) (ms3_0 ⟨n + 1, hn⟩) (hs3_0 ⟨n + 1, hn⟩) (ms3_1 ⟨n + 1, hn⟩) (hs3_1 ⟨n + 1, hn⟩) scM3_0 (Memref.isWhole_whole _) _ _ (iblk3 V c 0 ⟨n + 1, hn⟩) _).symm

/-- After the last point the accumulator holds, in column `i`, the column's sum over all 50000 rows. -/
theorem acc3_last (c : Dev nD) (u : Fin 1) (i : Fin 64) :
    (outsAt3 V c 9 h9).2 (ix2 u i) = ∑ k ∈ Finset.range 50000, colAt V c i k :=
  (acc3 V c 9 h9 u i).trans (congrArg (fun m => ∑ k ∈ Finset.range m, colAt V c i k) (by norm_num : 5000 * (9 + 1) = 50000))

/-- So after the last point the output window's staging buffer holds every column's sum over all the rows. -/
theorem after_last3 (c : Dev nD) : (outsAt3 V c 9 (h9)).1 = colSum (V c main_v61) := by
  funext j
  exact (congrFun (out_eq_acc3 V c 8 h9 (by decide)) j).trans
    ((congrArg (outsAt3 V c 9 h9).2 (eq_ix2 j)).trans ((acc3_last V c (j 0) (j 1)).trans (colAt_total V c (j 1))))

/-- The one write-back, at the last point, writes the column sums: the output array's one block, read through zero
    offsets, is the array. -/
theorem flushed3_eq (c : Dev nD) (t : Fin cfg3.N) (hf : (cfg3.win 1).flush t = true) :
    (dat3 V c).flushed 1 t = ((cfg3.win 1).blk t).view.read (Elt Ideal) (colSum (V c main_v61)) := by
  have hN : cfg3.N = 10 := N_3
  have h1 : t.val = 9 := by have := (flush3_1 t).mp hf; have := t.isLt; omega
  obtain rfl : t = t3_9 := Fin.ext h1
  show (cfg3.win 1).cut (grid3.coords t3_9) ((dat3 V c).after 1 t3_9) = _
  rw [after3_1]
  rw [show (outsAt3 V c t3_9.val t3_9.isLt).1 = colSum (V c main_v61) from after_last3 V c]
  have hz' : (fun a => win3_1.index t3_9 a * main_v62.ty.shape.size a) = fun _ => 0 := funext fun a => by fin_cases a <;> decide
  exact (Memref.read_access_unit_zero (Elt Ideal) main_v62 hz' (fun a => by rw [congrFun hz' a]; simp) (colSum (V c main_v61))).symm

/-- So the output array ends holding the column sums of the input array. -/
theorem arr3_final (c : Dev nD) : (dat3 V c).arrAt 1 cfg3.N = colSum (V c main_v61) :=
  (dat3 V c).arrAt_eq_of_cover 1 (colSum (V c main_v61)) (flushed3_eq V c) fun i =>
    ⟨t3_9, (flush3_1 t3_9).mpr rfl, by
      show i ∈ ((View.whole main_v62).slice (win3_1.rect t3_9)).set
      rw [View.set_slice_whole, Rect.mem_set_unit]
      intro a
      have h0 : (i 0 : Nat) < 1 := (i 0).isLt
      have h1 : (i 1 : Nat) < 64 := (i 1).isLt
      match a with
      | ⟨0, _⟩ => show win3_1.index t3_9 0 * win3_1.size 0 ≤ (i 0 : Nat) ∧ (i 0 : Nat) < win3_1.index t3_9 0 * win3_1.size 0 + win3_1.xsize (grid3.coords t3_9) 0
                  rw [show win3_1.index t3_9 0 * win3_1.size 0 = 0 from by decide +kernel, show win3_1.xsize (grid3.coords t3_9) 0 = 1 from by decide +kernel]; omega
      | ⟨1, _⟩ => show win3_1.index t3_9 1 * win3_1.size 1 ≤ (i 1 : Nat) ∧ (i 1 : Nat) < win3_1.index t3_9 1 * win3_1.size 1 + win3_1.xsize (grid3.coords t3_9) 1
                  rw [show win3_1.index t3_9 1 * win3_1.size 1 = 0 from by decide +kernel, show win3_1.xsize (grid3.coords t3_9) 1 = 64 from by decide +kernel]; omega⟩

end Final

end Cert.KernelIdeal.Hand

end
-- ==== Proof.KiValue.lean ====
/-
  The kernel program's result as ONE function of the six arguments, over the extended reals: the column means of the second
  aggregation, plus the last bias. The last region's output is the column sums of what it is given; the last host stretch
  divides by the node count and adds the bias.
-/
import proofs.«104698_j48498770707162_1_alg».proof.Proof.KiValue12
import proofs.«104698_j48498770707162_1_alg».proof.Proof.KiFold3
import proofs.«104698_j48498770707162_1_alg».proof.Proof.KiVal3

noncomputable section

namespace Cert.KernelIdeal.Hand

open Cert.KernelIdeal Cert.KernelIdeal.Gen
open Idealize.ShloMosaic Idealize.ShloMosaic.TcCoe Idealize.SL.Sem

/-- The kernel program as a function of its arguments. -/
def kerForm (X : FVec Ideal S50000x128 .f32) (W1 : FVec Ideal S128x128 .f32) (B1 : FVec Ideal S128 .f32) (W2 : FVec Ideal S128x64 .f32) (B2 : FVec Ideal S64 .f32)
    (EI : IVec S2x800000 32) : FVec Ideal S1x64 .f32 :=
  addf (Host.divf (colSum (Spec.agg64 (F := Ideal) (mm2 (biasRelu (Spec.agg128 (F := Ideal) (mm0 X W1) EI) (shapeCast S1x128 B1 Facts₀.shapeCasts_S128_S1x128)) W2) EI))
      (broadcastInDim S1x64 ![] Facts₀.bcast_S_S1x64 (constant S_ .f32 0x47435000#32)))
    (broadcastInDim S1x64 ![1] Facts₀.bcast_S64_S1x64_1 B2)

variable (m : (ℓ : Loc nD τ sig) → Buf (Elt Ideal) ℓ) (c : Dev nD)

/-- The result buffer at the return is `kerForm` of the arguments' launch contents. -/
theorem W10_v66 : W10 m c (Proc.devRef .tc main_v66) = kerForm (W0 m c (Proc.devRef .tc main_arg0)) (W0 m c (Proc.devRef .tc main_arg2)) (W0 m c (Proc.devRef .tc main_arg3))
    (W0 m c (Proc.devRef .tc main_arg4)) (W0 m c (Proc.devRef .tc main_arg5)) (W0 m c (Proc.devRef .tc main_arg1)) := by
  refine (read4_v66 (W9 m c)).trans ?_
  rw [show W9 m c (Proc.devRef .tc main_v62) = _ from (W9_arr m c 1).trans ((arr3_final (V8 m) c).trans (congrArg colSum (W8_v61 m c))),
    show W9 m c (Proc.devRef .tc main_arg5) = _ from (W9_keep m c main_arg5 (by decide)).trans (W8_arg5 m c)]
  rfl

end Cert.KernelIdeal.Hand

end
-- ==== Proof.RefSpec.lean ====
/-
  The host-side pieces of the two-layer graph convolution, each as one named function of its inputs, spelt with this
  program's own shape and dimension records: the source and destination node of every edge with the self loops appended,
  the wrap of a possibly negative index, a node's degree, its reciprocal square root (zero for an isolated node), an
  edge's weight (the product of its two endpoints' reciprocal square roots), and the weighted sum over incoming edges of
  the source rows (a gather along the sources, a scaling by the edge weights, a scatter-add into the destinations).
-/
import proofs.«104698_j48498770707162_1_alg».proof.Proof.Gen.ReferenceIdeal

noncomputable section

namespace Cert.ReferenceIdeal.Spec

open Cert.ReferenceIdeal Idealize.ShloMosaic

variable {F : FTy → Type} [FloatOps F]
open Cert.ReferenceIdeal.Facts₀ Cert.ReferenceIdeal.Facts

/-- Row `r` (0: sources, 1: destinations) of the edge list, then the nodes themselves (the self loops). -/
def srcOf (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0
def dstOf (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- An index column: a negative index wraps around by the node count. -/
def wrapIdx (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- A node's degree: one per edge arriving at it. -/
def degOf (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))

def posOf (g : (⟨S50000, .f32⟩ : BufTy).Contents (Elt F)) : (⟨S50000, .i1⟩ : BufTy).Contents (Elt F) :=
  cmpf (F := F) .ogt g (broadcastInDim S50000 ![] bcast_S_S50000 (constant S_ .f32 0x00000000#32))
def rsqOf (g : (⟨S50000, .f32⟩ : BufTy).Contents (Elt F)) : (⟨S50000, .f32⟩ : BufTy).Contents (Elt F) :=
  Host.rsqrt (maximumf g (broadcastInDim S50000 ![] bcast_S_S50000 (constant S_ .f32 0x3F800000#32)))
/-- The reciprocal square root of the degree where the degree is positive, zero elsewhere. -/
def disG (p : (⟨S50000, .i1⟩ : BufTy).Contents (Elt F)) (r : (⟨S50000, .f32⟩ : BufTy).Contents (Elt F)) (z : (⟨S_, .f32⟩ : BufTy).Contents (Elt F)) : (⟨S50000, .f32⟩ : BufTy).Contents (Elt F) :=
  select p r (broadcastInDim S50000 ![] bcast_S_S50000 (id z))
def disOf (d : (⟨S850000, .i32⟩ : BufTy).Contents (Elt F)) : (⟨S50000, .f32⟩ : BufTy).Contents (Elt F) :=
  disG (posOf (degOf d)) (rsqOf (degOf d)) (constant S_ .f32 0x00000000#32)

/-- An edge's weight: the product of the two factors at its source and at its destination. -/
def normG (q : (⟨S50000, .f32⟩ : BufTy).Contents (Elt F)) (s d : (⟨S850000, .i32⟩ : BufTy).Contents (Elt F)) : (⟨S850000, .f32⟩ : BufTy).Contents (Elt F) :=
  mulf (Host.gather gather_S50000_S850000x1_S850000_n_0_n_n_0_1_1 q (wrapIdx s)) (Host.gather gather_S50000_S850000x1_S850000_n_0_n_n_0_1_1 q (wrapIdx d))

/-- The weighted sum over incoming edges, 128 columns: rows of `h` gathered at the sources, scaled by the edge
    weights, added into the destinations' rows. -/
def aggG128 (h : (⟨S50000x128, .f32⟩ : BufTy).Contents (Elt F)) (s d : (⟨S850000, .i32⟩ : BufTy).Contents (Elt F)) (n : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 h (wrapIdx s)) (broadcastInDim S850000x128 ![0, 1] bcast_S850000x1_S850000x128_0_1 (broadcastInDim S850000x1 ![0] bcast_S850000_S850000x1_0 n)))
/-- The same with 64 columns. -/
def aggG64 (h : (⟨S50000x64, .f32⟩ : BufTy).Contents (Elt F)) (s d : (⟨S850000, .i32⟩ : BufTy).Contents (Elt F)) (n : (⟨S850000, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 d) (mulf (Host.gather gather_S50000x64_S850000x1_S850000x64_1_0_n_n_0_1_164 h (wrapIdx s)) (broadcastInDim S850000x64 ![0, 1] bcast_S850000x1_S850000x64_0_1 (broadcastInDim S850000x1 ![0] bcast_S850000_S850000x1_0 n)))

/-- Everything from the edge list. -/
def normOf (ei : (⟨S2x800000, .i32⟩ : BufTy).Contents (Elt F)) : (⟨S850000, .f32⟩ : BufTy).Contents (Elt F) :=
  normG (disOf (dstOf ei)) (srcOf ei) (dstOf ei)
def agg128 (h : (⟨S50000x128, .f32⟩ : BufTy).Contents (Elt F)) (ei : (⟨S2x800000, .i32⟩ : BufTy).Contents (Elt F)) : (⟨S50000x128, .f32⟩ : BufTy).Contents (Elt F) :=
  aggG128 h (srcOf ei) (dstOf ei) (normOf ei)
def agg64 (h : (⟨S50000x64, .f32⟩ : BufTy).Contents (Elt F)) (ei : (⟨S2x800000, .i32⟩ : BufTy).Contents (Elt F)) : (⟨S50000x64, .f32⟩ : BufTy).Contents (Elt F) :=
  aggG64 h (srcOf ei) (dstOf ei) (normOf ei)

end Cert.ReferenceIdeal.Spec

end
-- ==== Proof.RefForm.lean ====
/-
  The reference's result as ONE function of its six arguments, over the named host-side pieces: the mean over the nodes
  of (second aggregation of (relu (first aggregation of X·W1, plus b1))·W2, plus b2), and the run's composed term is
  that function of the launch contents.
-/
import proofs.«104698_j48498770707162_1_alg».proof.Proof.RefRunP
import proofs.«104698_j48498770707162_1_alg».proof.Proof.RefSpec

noncomputable section

namespace Cert.ReferenceIdeal.Hand

open Cert.ReferenceIdeal Cert.ReferenceIdeal.Facts₀ Cert.ReferenceIdeal.Facts
open Idealize.ShloMosaic Idealize.ShloMosaic.TcCoe Idealize.SL.Sem

variable {F : FTy → Type} [FloatOps F]

/-- The first layer before its matrix product is replaced: relu of the aggregated rows plus the bias row. -/
def hidden (H1 : (⟨S50000x128, .f32⟩ : BufTy).Contents (Elt F)) (B1 : (⟨S128, .f32⟩ : BufTy).Contents (Elt F)) (EI : (⟨S2x800000, .i32⟩ : BufTy).Contents (Elt F)) : (⟨S50000x128, .f32⟩ : BufTy).Contents (Elt F) :=
  maximumf (addf (Spec.agg128 H1 EI) (broadcastInDim S50000x128 ![0, 1] bcast_S1x128_S50000x128_0_1 (broadcastInDim S1x128 ![1] bcast_S128_S1x128_1 B1))) (broadcastInDim S50000x128 ![] bcast_S_S50000x128 (constant S_ .f32 0x00000000#32))

/-- The mean over the nodes of the rows plus the last bias. -/
def meanBias (A : (⟨S50000x64, .f32⟩ : BufTy).Contents (Elt F)) (B2 : (⟨S64, .f32⟩ : BufTy).Contents (Elt F)) : (⟨S1x64, .f32⟩ : BufTy).Contents (Elt F) :=
  Host.divf (broadcastInDim S1x64 ![1] bcast_S64_S1x64_1 (Host.reduceAdd (addf A (broadcastInDim S50000x64 ![0, 1] bcast_S1x64_S50000x64_0_1 (broadcastInDim S1x64 ![1] bcast_S64_S1x64_1 B2))) (constant S_ .f32 0x00000000#32) reducesTo_S50000x64_S64_d0 h_S_)) (broadcastInDim S1x64 ![] bcast_S_S1x64 (constant S_ .f32 0x47435000#32))

/-- The whole reference. -/
def refForm (X : (⟨S50000x128, .f32⟩ : BufTy).Contents (Elt F)) (W1 : (⟨S128x128, .f32⟩ : BufTy).Contents (Elt F)) (B1 : (⟨S128, .f32⟩ : BufTy).Contents (Elt F))
    (W2 : (⟨S128x64, .f32⟩ : BufTy).Contents (Elt F)) (B2 : (⟨S64, .f32⟩ : BufTy).Contents (Elt F)) (EI : (⟨S2x800000, .i32⟩ : BufTy).Contents (Elt F)) : (⟨S1x64, .f32⟩ : BufTy).Contents (Elt F) :=
  meanBias (Spec.agg64 (Host.dotGeneral dot_S50000x128_S128x64_S50000x64_1_0_0_1_n_n none
    (hidden (Host.dotGeneral dot_S50000x128_S128x128_S50000x128_1_0_0_1_n_n none X W1) B1 EI) W2) EI) B2

set_option maxRecDepth 16384 in
set_option maxHeartbeats 4000000 in
/-- The run's composed term is `refForm` of the launch contents: the same operations in the same order. -/
theorem res_eq (m : (ℓ : Loc nD τ sig) → Buf (Elt F) ℓ) (c : Dev nD) :
    ValueP.res_main_v95 m c = refForm (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg1)) := by
  unfold ValueP.res_main_v95
  rfl

end Cert.ReferenceIdeal.Hand

end
-- ==== Proof.RefVal.lean ====
/-
  The reference's three non-pointwise operations read at an entry, over the extended reals: its two matrix products as
  sums over the contracted axis, and its sum over the nodes as the initial value plus the sum down a column.
-/
import proofs.«104698_j48498770707162_1_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Facts₀ Cert.ReferenceIdeal.Facts
open Idealize.ShloMosaic

abbrev lix_dg1 (i : S50000x128.Idx) (k : Fin 128) : S50000x128.Idx := fun a => match a with
  | ⟨0, _⟩ => ⟨(i 0).val, (i 0).isLt⟩
  | ⟨1, _⟩ => ⟨k.val, k.isLt⟩
abbrev rix_dg1 (i : S50000x128.Idx) (k : Fin 128) : S128x128.Idx := fun a => match a with
  | ⟨0, _⟩ => ⟨k.val, k.isLt⟩
  | ⟨1, _⟩ => ⟨(i 1).val, (i 1).isLt⟩
theorem lhs_dg1_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_dg1_1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem rhs_dg1_0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem rhs_dg1_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
/-- The host's matrix product at an output entry, over the extended reals: row `i 0` of the left operand against column
    `i 1` of the right one, summed over the 128 contracted positions. -/
theorem dg1_apply (x : FVec Ideal S50000x128 .f32) (w : FVec Ideal S128x128 .f32) (i : S50000x128.Idx) :
    Host.dotGeneral (F := Ideal) dot_S50000x128_S128x128_S50000x128_1_0_0_1_n_n none x w i = ∑ k : Fin 128, x (lix_dg1 i k) * w (rix_dg1 i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lix_dg1 i k := funext fun a => Fin.ext (by
    match a with
    | ⟨0, _⟩ => exact lhs_dg1_0 _ _
    | ⟨1, _⟩ => exact (lhs_dg1_1 _ _).trans hk)
  have er : dot_S50000x128_S128x128_S50000x128_1_0_0_1_n_n.rhsIdx i ((ValueIdx.contrEquiv1 dot_S50000x128_S128x128_S50000x128_1_0_0_1_n_n 128 rfl rfl).symm k) = rix_dg1 i k := funext fun a => Fin.ext (by
    match a with
    | ⟨0, _⟩ => exact (rhs_dg1_0 _ _).trans hk
    | ⟨1, _⟩ => exact rhs_dg1_1 _ _)
  rw [el, er]

abbrev lix_dg2 (i : S50000x64.Idx) (k : Fin 128) : S50000x128.Idx := fun a => match a with
  | ⟨0, _⟩ => ⟨(i 0).val, (i 0).isLt⟩
  | ⟨1, _⟩ => ⟨k.val, k.isLt⟩
abbrev rix_dg2 (i : S50000x64.Idx) (k : Fin 128) : S128x64.Idx := fun a => match a with
  | ⟨0, _⟩ => ⟨k.val, k.isLt⟩
  | ⟨1, _⟩ => ⟨(i 1).val, (i 1).isLt⟩
theorem lhs_dg2_0 (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhs_dg2_1 (i : S50000x64.Idx) (q : dot_S50000x128_S128x64_S50000x64_1_0_0_1_n_n.contr.Idx) : (dot_S50000x128_S128x64_S50000x64_1_0_0_1_n_n.lhsIdx i q 1).val = (q ⟨0, by decide⟩).val :=
  dot_S50000x128_S128x64_S50000x64_1_0_0_1_n_n.lhsIdx_val_of_single rfl i q
theorem rhs_dg2_0 (i : S50000x64.Idx) (q : dot_S50000x128_S128x64_S50000x64_1_0_0_1_n_n.contr.Idx) : (dot_S50000x128_S128x64_S50000x64_1_0_0_1_n_n.rhsIdx i q 0).val = (q ⟨0, by decide⟩).val :=
  dot_S50000x128_S128x64_S50000x64_1_0_0_1_n_n.rhsIdx_val_of_single rfl i q
theorem rhs_dg2_1 (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl
/-- The host's matrix product at an output entry, over the extended reals: row `i 0` of the left operand against column
    `i 1` of the right one, summed over the 128 contracted positions. -/
theorem dg2_apply (x : FVec Ideal S50000x128 .f32) (w : FVec Ideal S128x64 .f32) (i : S50000x64.Idx) :
    Host.dotGeneral (F := Ideal) dot_S50000x128_S128x64_S50000x64_1_0_0_1_n_n none x w i = ∑ k : Fin 128, x (lix_dg2 i k) * w (rix_dg2 i k) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lix_dg2 i k := funext fun a => Fin.ext (by
    match a with
    | ⟨0, _⟩ => exact lhs_dg2_0 _ _
    | ⟨1, _⟩ => exact (lhs_dg2_1 _ _).trans hk)
  have er : dot_S50000x128_S128x64_S50000x64_1_0_0_1_n_n.rhsIdx i ((ValueIdx.contrEquiv1 dot_S50000x128_S128x64_S50000x64_1_0_0_1_n_n 128 rfl rfl).symm k) = rix_dg2 i k := funext fun a => Fin.ext (by
    match a with
    | ⟨0, _⟩ => exact (rhs_dg2_0 _ _).trans hk
    | ⟨1, _⟩ => exact rhs_dg2_1 _ _)
  rw [el, er]

abbrev cix (j : S64.Idx) (k : Fin 50000) : S50000x64.Idx := fun a => match a with
  | ⟨0, _⟩ => ⟨k.val, k.isLt⟩
  | ⟨1, _⟩ => ⟨(j 0).val, (j 0).isLt⟩
/-- The host's sum over the nodes at a column: the initial value plus the sum down the column. -/
theorem colsum_apply (y : FVec Ideal S50000x64 .f32) (z : FVec Ideal S_ .f32) (j : S64.Idx) :
    Host.reduceAdd (F := Ideal) y z reducesTo_S50000x64_S64_d0 h_S_ j = z (Shape.Idx.first h_S_) + ∑ k : Fin 50000, y (cix j k) := by
  simp only [Host.reduceAdd, Ideal.hostReduceAdd_def]
  rw [Ideal.hostReduceAdd_single reducesTo_S50000x64_S64_d0 (by decide)]
  refine congrArg (_ + ·) (Finset.sum_congr rfl fun k _ => ?_)
  exact congrArg y (funext fun a => Fin.ext (by match a with | ⟨0, _⟩ => rfl | ⟨1, _⟩ => rfl))

end Cert.ReferenceIdeal.Hand

end
-- ==== Proof.Law.lean ====
/-
  The one algebraic law that joins the two programs. The kernel takes the mean over the nodes first and adds the last
  layer's bias afterwards; the reference adds the bias to every node's row and takes the mean of that. Over the
  extended reals, for a bias entry that is a real number b and N > 0 nodes,
      (∑ₙ (aₙ + b)) / N = (∑ₙ aₙ) / N + b
  whatever extended reals the aₙ are: addition is commutative and associative, so the N copies of b gather into the
  real N·b; division by the real N is multiplication by the nonnegative real 1/N, which distributes over a sum of two
  extended reals; and (N·b)·(1/N) = b in the reals.
-/
import Idealize.ShloMosaic.PureOps.Ideal
import Idealize.ShloMosaic.PureOps.Ideal.Laws

noncomputable section

namespace Cert.GcnLaw

open Idealize.ShloMosaic

/-- The single-precision word of 50000.0 denotes the real number 50000. -/
theorem ofBits_50000 : Ideal.ofBits .f32 0x47435000#32 = ((50000 : ℝ) : EReal) := by
  simp [Ideal.ofBits, Ideal.ieee, -EReal.coe_mul]; norm_num

/-- A finite sum of real numbers, taken in the extended reals, is the real sum. -/
theorem coe_sum {ι : Type*} (s : Finset ι) (f : ι → ℝ) : (∑ i ∈ s, ((f i : ℝ) : EReal)) = ((∑ i ∈ s, f i : ℝ) : EReal) := by
  classical
  refine Finset.induction_on s (by simp) fun i s hi ih => ?_
  rw [Finset.sum_insert hi, Finset.sum_insert hi, ih, EReal.coe_add]

/-- The mean of rows that all carry the same real bias is the mean of the rows plus the bias. -/
theorem mean_add_const {ι : Type*} (s : Finset ι) (a : ι → EReal) (b N : ℝ) (hN : 0 < N) (hs : (s.card : ℝ) = N) :
    Ideal.div (∑ i ∈ s, (a i + (b : EReal))) (N : EReal) = Ideal.div (∑ i ∈ s, a i) (N : EReal) + (b : EReal) := by
  have h1N : (0 : EReal) ≤ ((1 / N : ℝ) : EReal) := by exact_mod_cast (one_div_pos.mpr hN).le
  rw [Ideal.div_coe hN.ne', Ideal.div_coe hN.ne', Finset.sum_add_distrib, coe_sum, Finset.sum_const, nsmul_eq_mul, hs,
    EReal.right_distrib_of_nonneg_of_ne_top h1N (EReal.coe_ne_top _), ← EReal.coe_mul]
  congr 2
  field_simp

end Cert.GcnLaw

end
-- ==== Proof.Bridge.lean ====
/-
  The two programs compute one function of the six arguments, over the extended reals.
  Piece by piece: the host's matrix products are the kernel regions' whole-array matrix products (the same sums over the
  contracted axis); the reference's bias-and-relu is the kernel region's; the aggregations over the edges are the same
  operations on the same operands; and the reference's mean of (rows plus bias) is the kernel's (mean of rows) plus bias —
  the one place where a law of arithmetic is used, and where the bias must be a real number.
-/
import proofs.«104698_j48498770707162_1_alg».proof.Proof.KiSpec
import proofs.«104698_j48498770707162_1_alg».proof.Proof.RefSpec
import proofs.«104698_j48498770707162_1_alg».proof.Proof.RefForm
import proofs.«104698_j48498770707162_1_alg».proof.Proof.RefVal
import proofs.«104698_j48498770707162_1_alg».proof.Proof.Law
import proofs.«104698_j48498770707162_1_alg».proof.Proof.KiVal0
import proofs.«104698_j48498770707162_1_alg».proof.Proof.KiVal1
import proofs.«104698_j48498770707162_1_alg».proof.Proof.KiVal2
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx
open Cert.KernelIdeal.Hand (mm0 mm2 biasRelu)

/-! ## The host-side pieces are the same functions in both programs' spellings -/

theorem srcOf_eq (ei : IVec Cert.KernelIdeal.S2x800000 32) : Cert.ReferenceIdeal.Spec.srcOf (F := Ideal) ei = Cert.KernelIdeal.Spec.srcOf (F := Ideal) ei := rfl
theorem dstOf_eq (ei : IVec Cert.KernelIdeal.S2x800000 32) : Cert.ReferenceIdeal.Spec.dstOf (F := Ideal) ei = Cert.KernelIdeal.Spec.dstOf (F := Ideal) ei := rfl
theorem normOf_eq (ei : IVec Cert.KernelIdeal.S2x800000 32) : Cert.ReferenceIdeal.Spec.normOf (F := Ideal) ei = Cert.KernelIdeal.Spec.normOf (F := Ideal) ei := rfl
theorem agg128_eq (h : FVec Ideal Cert.KernelIdeal.S50000x128 .f32) (ei : IVec Cert.KernelIdeal.S2x800000 32) :
    Cert.ReferenceIdeal.Spec.agg128 (F := Ideal) h ei = Cert.KernelIdeal.Spec.agg128 (F := Ideal) h ei := rfl
theorem agg64_eq (h : FVec Ideal Cert.KernelIdeal.S50000x64 .f32) (ei : IVec Cert.KernelIdeal.S2x800000 32) :
    Cert.ReferenceIdeal.Spec.agg64 (F := Ideal) h ei = Cert.KernelIdeal.Spec.agg64 (F := Ideal) h ei := rfl

/-! ## The matrix products -/

theorem dg1_eq (X : FVec Ideal Cert.KernelIdeal.S50000x128 .f32) (W1 : FVec Ideal Cert.KernelIdeal.S128x128 .f32) :
    Host.dotGeneral (F := Ideal) Cert.ReferenceIdeal.dot_S50000x128_S128x128_S50000x128_1_0_0_1_n_n none X W1 = mm0 X W1 := by
  funext i
  rw [Cert.ReferenceIdeal.Hand.dg1_apply]
  unfold mm0
  refine Finset.sum_congr rfl fun k _ => ?_
  refine congrArg₂ (· * ·) (congrArg X (funext fun a => Fin.ext (by match a with | ⟨0, _⟩ => rfl | ⟨1, _⟩ => rfl)))
    (congrArg W1 (funext fun a => Fin.ext (by match a with | ⟨0, _⟩ => rfl | ⟨1, _⟩ => rfl)))

theorem dg2_eq (X : FVec Ideal Cert.KernelIdeal.S50000x128 .f32) (W2 : FVec Ideal Cert.KernelIdeal.S128x64 .f32) :
    Host.dotGeneral (F := Ideal) Cert.ReferenceIdeal.dot_S50000x128_S128x64_S50000x64_1_0_0_1_n_n none X W2 = mm2 X W2 := by
  funext i
  rw [Cert.ReferenceIdeal.Hand.dg2_apply]
  unfold mm2
  refine Finset.sum_congr rfl fun k _ => ?_
  refine congrArg₂ (· * ·) (congrArg X (funext fun a => Fin.ext (by match a with | ⟨0, _⟩ => rfl | ⟨1, _⟩ => rfl)))
    (congrArg W2 (funext fun a => Fin.ext (by match a with | ⟨0, _⟩ => rfl | ⟨1, _⟩ => rfl)))

/-! ## Broadcasts read at an entry -/

theorem bc_scalar {t : Shape} (h : (⟨0, ![]⟩ : Shape).BroadcastsInDim t (![] : Fin 0 → Fin t.rank)) (y : (⟨0, ![]⟩ : Shape).Idx → EReal) (i : t.Idx) :
    broadcastInDim t ![] h y i = y (fun a => a.elim0) :=
  broadcastInDim_apply _ h y i _ (fun a => a.elim0)

/-- A vector of `n` entries laid as the one row of a [1, n] array. -/
theorem bc_lift {n : Nat} (hn : n ≠ 1) (h : (⟨1, ![n]⟩ : Shape).BroadcastsInDim ⟨2, ![1, n]⟩ ![1]) (y : (⟨1, ![n]⟩ : Shape).Idx → EReal) (i : (⟨2, ![1, n]⟩ : Shape).Idx) :
    broadcastInDim ⟨2, ![1, n]⟩ ![1] h y i = y (fun a => match a with | ⟨0, _⟩ => ⟨(i 1).val, (i 1).isLt⟩) :=
  broadcastInDim_apply _ h y i _ (fun a => match a with
    | ⟨0, _⟩ => by show (i 1).val = if n = 1 then 0 else (i 1).val; rw [if_neg hn])
/-- The one row of a [1, n] array repeated down `r` rows. -/
theorem bc_rows {r n : Nat} (hn : n ≠ 1) (h : (⟨2, ![1, n]⟩ : Shape).BroadcastsInDim ⟨2, ![r, n]⟩ ![0, 1]) (y : (⟨2, ![1, n]⟩ : Shape).Idx → EReal) (i : (⟨2, ![r, n]⟩ : Shape).Idx) :
    broadcastInDim ⟨2, ![r, n]⟩ ![0, 1] h y i
      = y (fun a => match a with | ⟨0, _⟩ => ⟨0, Nat.one_pos⟩ | ⟨1, _⟩ => ⟨(i 1).val, (i 1).isLt⟩) :=
  broadcastInDim_apply _ h y i _ (fun a => match a with
    | ⟨0, _⟩ => by show 0 = if (1 : Nat) = 1 then 0 else (i 0).val; rw [if_pos rfl]
    | ⟨1, _⟩ => by show (i 1).val = if n = 1 then 0 else (i 1).val; rw [if_neg hn])

/-! ## The first layer's bias and relu -/

/-- Entry by entry: the larger of (a + y) and z. -/
theorem max_add_point {s : Shape} (A Y Z : FVec Ideal s .f32) (i : s.Idx) : maximumf (addf A Y) Z i = max (A i + Y i) (Z i) := rfl

/-- The reference's spelling of bias-and-relu on a whole array is the kernel region's function: the bias row repeated down
    the rows, added, and the negative part cut off at zero. -/
theorem hidden_core (A : FVec Ideal Cert.ReferenceIdeal.S50000x128 .f32) (B1 : FVec Ideal Cert.ReferenceIdeal.S128 .f32) :
    maximumf (addf A (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 B1)))
        (broadcastInDim Cert.ReferenceIdeal.S50000x128 ![] Cert.ReferenceIdeal.Facts₀.bcast_S_S50000x128 (constant Cert.ReferenceIdeal.S_ .f32 0x00000000#32))
      = biasRelu A (shapeCast Cert.KernelIdeal.S1x128 B1 Cert.KernelIdeal.Facts₀.shapeCasts_S128_S1x128) := by
  funext i
  refine (max_add_point _ _ _ i).trans ?_
  rw [bc_rows (by decide), bc_lift (by decide), bc_scalar]
  unfold biasRelu
  rw [shapeCast_a_1a_apply B1 _ (0 : Fin 1) (⟨(i 1).val, idx2_lt1 i⟩ : Fin 128)]
  refine congrArg₂ max (congrArg (A i + ·) (congrArg B1 (funext fun a => Fin.ext (by match a with | ⟨0, _⟩ => rfl)))) ?_
  exact (show constant Cert.ReferenceIdeal.S_ .f32 0x00000000#32 (fun a => a.elim0) = Ideal.ofBits .f32 0x00000000#32 from rfl).trans Ideal.ofBits_zero_f32

theorem hidden_eq (H : FVec Ideal Cert.KernelIdeal.S50000x128 .f32) (B1 : FVec Ideal Cert.KernelIdeal.S128 .f32) (EI : IVec Cert.KernelIdeal.S2x800000 32) :
    Cert.ReferenceIdeal.Hand.hidden (F := Ideal) H B1 EI
      = biasRelu (Cert.KernelIdeal.Spec.agg128 (F := Ideal) H EI) (shapeCast Cert.KernelIdeal.S1x128 B1 Cert.KernelIdeal.Facts₀.shapeCasts_S128_S1x128) := by
  unfold Cert.ReferenceIdeal.Hand.hidden
  rw [agg128_eq]
  exact hidden_core _ _

end Cert.Bridge

end
-- ==== Proof.Bridge2.lean ====
/-
  The mean and the last bias, and the two programs' results as one function.
  The reference sums (row + bias) down every column and divides by the node count; the kernel sums the rows down every
  column, divides, and adds the bias afterwards. For a bias entry that is a real number the two agree on the extended reals.
-/
import proofs.«104698_j48498770707162_1_alg».proof.Proof.Bridge
import proofs.«104698_j48498770707162_1_alg».proof.Proof.KiValue

noncomputable section

namespace Cert.Bridge

open Idealize.ShloMosaic Idealize.ShloMosaic.ValueIdx
open Cert.KernelIdeal.Hand (mm0 mm2 biasRelu colSum kerForm)

theorem div_point {s : Shape} (A Y : FVec Ideal s .f32) (i : s.Idx) : Host.divf A Y i = Ideal.div (A i) (Y i) := rfl
theorem add_point {s : Shape} (A Y : FVec Ideal s .f32) (i : s.Idx) : addf A Y i = A i + Y i := rfl
theorem const_point (w : BitVec 32) (i : (⟨0, ![]⟩ : Shape).Idx) : constant (F := Ideal) ⟨0, ![]⟩ .f32 w i = Ideal.ofBits .f32 w := rfl

/-- A vector of `n` entries laid as the one row of a [1, n] array, read with the index built from its coordinate. -/
theorem bc_lift' {n : Nat} (hn : n ≠ 1) (h : (⟨1, ![n]⟩ : Shape).BroadcastsInDim ⟨2, ![1, n]⟩ ![1]) (y : (⟨1, ![n]⟩ : Shape).Idx → EReal) (i : (⟨2, ![1, n]⟩ : Shape).Idx) :
    broadcastInDim ⟨2, ![1, n]⟩ ![1] h y i = y (ix1 (⟨(i 1).val, idx2_lt1 i⟩ : Fin n)) :=
  broadcastInDim_apply _ h y i _ (fun a => match a with
    | ⟨0, _⟩ => by show (i 1).val = if n = 1 then 0 else (i 1).val; rw [if_neg hn])
/-- The one row of a [1, n] array repeated down `r` rows, read with the index built from its coordinates. -/
theorem bc_rows' {r n : Nat} (hn : n ≠ 1) (h : (⟨2, ![1, n]⟩ : Shape).BroadcastsInDim ⟨2, ![r, n]⟩ ![0, 1]) (y : (⟨2, ![1, n]⟩ : Shape).Idx → EReal) (i : (⟨2, ![r, n]⟩ : Shape).Idx) :
    broadcastInDim ⟨2, ![r, n]⟩ ![0, 1] h y i = y (ix2 (0 : Fin 1) (⟨(i 1).val, idx2_lt1 i⟩ : Fin n)) :=
  broadcastInDim_apply _ h y i _ (fun a => match a with
    | ⟨0, _⟩ => by show 0 = if (1 : Nat) = 1 then 0 else (i 0).val; rw [if_pos rfl]
    | ⟨1, _⟩ => by show (i 1).val = if n = 1 then 0 else (i 1).val; rw [if_neg hn])

/-- The mean of the rows plus the bias is the mean of the rows, plus the bias: column by column the law of the mean of
    rows that all carry one real number. -/
theorem meanBias_core (A : FVec Ideal Cert.ReferenceIdeal.S50000x64 .f32) (B2 : FVec Ideal Cert.ReferenceIdeal.S64 .f32) (hB : ∀ j : Cert.ReferenceIdeal.S64.Idx, ∃ r : ℝ, B2 j = ((r : ℝ) : EReal)) :
    Host.divf (broadcastInDim Cert.ReferenceIdeal.S1x64 ![1] Cert.ReferenceIdeal.Facts₀.bcast_S64_S1x64_1
        (Host.reduceAdd (F := Ideal) (addf A (broadcastInDim Cert.ReferenceIdeal.S50000x64 ![0, 1] Cert.ReferenceIdeal.Facts₀.bcast_S1x64_S50000x64_0_1 (broadcastInDim Cert.ReferenceIdeal.S1x64 ![1] Cert.ReferenceIdeal.Facts₀.bcast_S64_S1x64_1 B2)))
          (constant Cert.ReferenceIdeal.S_ .f32 0x00000000#32) Cert.ReferenceIdeal.Facts₀.reducesTo_S50000x64_S64_d0 Cert.ReferenceIdeal.Facts₀.h_S_))
      (broadcastInDim Cert.ReferenceIdeal.S1x64 ![] Cert.ReferenceIdeal.Facts₀.bcast_S_S1x64 (constant Cert.ReferenceIdeal.S_ .f32 0x47435000#32))
    = addf (Host.divf (colSum A) (broadcastInDim Cert.KernelIdeal.S1x64 ![] Cert.KernelIdeal.Facts₀.bcast_S_S1x64 (constant Cert.KernelIdeal.S_ .f32 0x47435000#32)))
        (broadcastInDim Cert.KernelIdeal.S1x64 ![1] Cert.KernelIdeal.Facts₀.bcast_S64_S1x64_1 B2) := by
  funext i
  obtain ⟨r, hr⟩ := hB (ix1 (⟨(i 1).val, idx2_lt1 i⟩ : Fin 64))
  refine (div_point _ _ i).trans ?_
  refine Eq.trans ?_ (add_point _ _ i).symm
  rw [div_point, bc_lift' (by decide), bc_lift' (by decide), Cert.ReferenceIdeal.Hand.colsum_apply, hr, bc_scalar]
  simp only [const_point]
  rw [Ideal.ofBits_zero_f32, zero_add, Cert.GcnLaw.ofBits_50000]
  have hsum : ∀ k : Fin 50000, addf A (broadcastInDim Cert.ReferenceIdeal.S50000x64 ![0, 1] Cert.ReferenceIdeal.Facts₀.bcast_S1x64_S50000x64_0_1 (broadcastInDim Cert.ReferenceIdeal.S1x64 ![1] Cert.ReferenceIdeal.Facts₀.bcast_S64_S1x64_1 B2))
      (Cert.ReferenceIdeal.Hand.cix (ix1 (⟨(i 1).val, idx2_lt1 i⟩ : Fin 64)) k)
      = A (ix2 k ⟨(i 1).val, idx2_lt1 i⟩) + ((r : ℝ) : EReal) := fun k => by
    refine (add_point _ _ _).trans ?_
    rw [bc_rows' (by decide), bc_lift' (by decide)]
    exact congrArg₂ (· + ·) (congrArg A (funext fun a => Fin.ext (by match a with | ⟨0, _⟩ => rfl | ⟨1, _⟩ => rfl)))
      ((congrArg B2 (funext fun a => Fin.ext (by match a with | ⟨0, _⟩ => rfl))).trans hr)
  rw [Finset.sum_congr rfl (fun k _ => hsum k)]
  exact Cert.GcnLaw.mean_add_const Finset.univ (fun k : Fin 50000 => A (ix2 k ⟨(i 1).val, idx2_lt1 i⟩)) r 50000 (by norm_num) (by simp)

theorem meanBias_eq (A : FVec Ideal Cert.KernelIdeal.S50000x64 .f32) (B2 : FVec Ideal Cert.KernelIdeal.S64 .f32) (hB : ∀ j : Cert.KernelIdeal.S64.Idx, ∃ r : ℝ, B2 j = ((r : ℝ) : EReal)) :
    Cert.ReferenceIdeal.Hand.meanBias (F := Ideal) A B2
      = addf (Host.divf (colSum A) (broadcastInDim Cert.KernelIdeal.S1x64 ![] Cert.KernelIdeal.Facts₀.bcast_S_S1x64 (constant Cert.KernelIdeal.S_ .f32 0x47435000#32)))
          (broadcastInDim Cert.KernelIdeal.S1x64 ![1] Cert.KernelIdeal.Facts₀.bcast_S64_S1x64_1 B2) := by
  unfold Cert.ReferenceIdeal.Hand.meanBias
  exact meanBias_core A B2 hB

/-- THE TWO PROGRAMS ARE ONE FUNCTION of the six arguments, when the last bias is real. -/
theorem forms_eq (X : FVec Ideal Cert.KernelIdeal.S50000x128 .f32) (W1 : FVec Ideal Cert.KernelIdeal.S128x128 .f32) (B1 : FVec Ideal Cert.KernelIdeal.S128 .f32) (W2 : FVec Ideal Cert.KernelIdeal.S128x64 .f32)
    (B2 : FVec Ideal Cert.KernelIdeal.S64 .f32) (EI : IVec Cert.KernelIdeal.S2x800000 32) (hB : ∀ j : Cert.KernelIdeal.S64.Idx, ∃ r : ℝ, B2 j = ((r : ℝ) : EReal)) :
    Cert.ReferenceIdeal.Hand.refForm (F := Ideal) X W1 B1 W2 B2 EI = kerForm X W1 B1 W2 B2 EI := by
  unfold Cert.ReferenceIdeal.Hand.refForm kerForm
  rw [dg1_eq, hidden_eq, dg2_eq, agg64_eq]
  exact meanBias_eq _ B2 hB

end Cert.Bridge

end
-- ==== Proof.PreFin.lean ====
/-
  The precondition `finite_inputs` of the six argument arrays is the conjunction of five tests
  "every entry x of the array has |x| < +inf", one per float array (the integer array is not tested).
  Here only the last of them is read back: every entry of the last argument, a vector of 64 floats,
  is a real number when a float is an extended real.

  The printed predicate is a chain of `and`s of five reductions by `and` over all axes, each of the
  comparison array `|x| < c` where `c` is the splat of the word 0x7F800000. That word denotes ⊤. An
  extended real x with max x (-x) < ⊤ is neither ⊤ (max ⊤ ⊥ = ⊤) nor ⊥ (max ⊥ ⊤ = ⊤), hence a real.
-/
import proofs.«104698_j48498770707162_1_alg».proof.Pre_finite_inputs
import proofs.«104698_j48498770707162_1_alg».proof.Proof.Gen.Pre_finite_inputs
import Idealize.ShloMosaic.PureOps.Ideal
import Idealize.ShloMosaic.Lib.Affine
import Idealize.ShloMosaic.Lib.ValueIdx
import Idealize.ShloMosaic.Lib.ReduceAll

noncomputable section

namespace Cert.Pre_finite_inputs.Hand

open Cert.Pre_finite_inputs Idealize.ShloMosaic

/-- The scalar shape has exactly one index. -/
instance subsingleton_S_ : Subsingleton S_.Idx := ⟨fun a b => funext fun d => d.elim0⟩

/-- The single-precision word 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) compares strictly below ⊤ is a real number. -/
theorem real_of_abs_lt_top (x : EReal) (h : Ideal.cmp .olt (max x (-x)) ⊤ = 1#1) :
    ∃ r : ℝ, x = ((r : ℝ) : EReal) := by
  induction x using EReal.rec with
  | bot => simp [Ideal.cmp] at h
  | coe r => exact ⟨r, rfl⟩
  | top => simp [Ideal.cmp] at h

/-- Under the precondition every entry of the last argument is a real number. -/
theorem b2_real (a0 : FVec Ideal S50000x128 .f32) (a1 : IVec S2x800000 32) (a2 : FVec Ideal S128x128 .f32)
    (a3 : FVec Ideal S128 .f32) (a4 : FVec Ideal S128x64 .f32) (a5 : FVec Ideal S64 .f32)
    (h : Cert.Pre_finite_inputs.fn (F := Ideal) a0 a1 a2 a3 a4 a5 = (fun _ => 1#1)) (j : S64.Idx) :
    ∃ r : ℝ, a5 j = ((r : ℝ) : EReal) := by
  -- the predicate's value at the scalar shape's one index
  have h0 := congrFun h ValueIdx.ix0
  dsimp only [fn, fn_part1] at h0
  -- the outermost `and`: its second operand is the last argument's test
  have h1 := (IntOp.andi_eq_one.1 h0).2
  -- the reduction by `and` over the one axis came out 1: the comparison is 1 at every entry
  have h2 := Host.reduce_andi_all _ _ _ _ _ h1 j
  -- at entry j: max (a5 j) (-(a5 j)) < the value of the word 0x7F800000, which is ⊤
  have h3 : Ideal.cmp .olt (max (a5 j) (-(a5 j))) ⊤ = 1#1 := by
    rw [← ofBits_inf]; exact h2
  exact real_of_abs_lt_top (a5 j) h3

end Cert.Pre_finite_inputs.Hand

end
-- ==== Proof.lean ====
/-
  A two-layer graph convolution over 50000 nodes and 850000 edges (the self loops included), mean-pooled over the nodes:
  four kernel regions — X·W1 in row blocks; bias and relu in row blocks; H·W2 in row blocks; the sum over the nodes,
  accumulated block by block in a scratch row — among host stretches that gather along the edges' sources, scale by the
  edges' weights and scatter-add into their destinations; against the same computation written in plain array operations.

  The three frames: each program terminates, faults nowhere and leaves its six arguments as launched. For the two kernel
  programs this is the run of @main as ten segments, each region entered from and left at named buffer contents; for the
  reference it is its run as a list of host operations.

  The idealization rewrote nothing, so the kernel's ideal reading is its own text.

  The values agree over the extended reals: the regions' matrix products are the host's, the bias-and-relu is the host's,
  the aggregations are the same operations on the same operands, and the kernel's (mean of the rows) plus the last bias is
  the reference's mean of (rows plus bias) because every entry of that bias is a real number — the one fact taken from the
  precondition.
-/
import proofs.«104698_j48498770707162_1_alg».proof.Defs
import proofs.«104698_j48498770707162_1_alg».proof.Proof.Gen.Kernel
import proofs.«104698_j48498770707162_1_alg».proof.Proof.Gen.KernelIdeal
import proofs.«104698_j48498770707162_1_alg».proof.Proof.Gen.ReferenceIdeal
import proofs.«104698_j48498770707162_1_alg».proof.Proof.Gen.Pre_finite_inputs
import proofs.«104698_j48498770707162_1_alg».proof.Proof.KFrame
import proofs.«104698_j48498770707162_1_alg».proof.Proof.KiFrame
import proofs.«104698_j48498770707162_1_alg».proof.Proof.KiValue
import proofs.«104698_j48498770707162_1_alg».proof.Proof.RefRunP
import proofs.«104698_j48498770707162_1_alg».proof.Proof.RefForm
import proofs.«104698_j48498770707162_1_alg».proof.Proof.Bridge2
import proofs.«104698_j48498770707162_1_alg».proof.Proof.PreFin
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result at one function of the arguments: the kernel's run reads it off the last boundary's
    contents, the reference's run off its composed term, and the two are equal for a real last bias. -/
theorem algebraic : Cert.algebraic_KernelIdeal_ReferenceIdeal := by
  intro m ρ m' ρ' hpre hagree
  refine ⟨fun c => Cert.KernelIdeal.Hand.W10 m c (Proc.devRef .tc Cert.KernelIdeal.main_v66), Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  have e := Cert.ReferenceIdeal.Hand.res_eq m' c
  rw [(hagree c).1, (hagree c).2.1, (hagree c).2.2.1, (hagree c).2.2.2.1, (hagree c).2.2.2.2.1, (hagree c).2.2.2.2.2] at e
  exact e.trans ((Cert.Bridge.forms_eq _ _ _ _ _ _ (Cert.Pre_finite_inputs.Hand.b2_real _ _ _ _ _ _ (hpre c))).trans
    (Cert.KernelIdeal.Hand.W10_v66 m c).symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
